-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S128x64 : Shape := ⟨2, ![128, 64]⟩
abbrev S64 : Shape := ⟨1, ![64]⟩
abbrev S64x64 : Shape := ⟨2, ![64, 64]⟩
abbrev S144x64 : Shape := ⟨2, ![144, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S144x64 : S_.BroadcastsInDim S144x64 (![] : Fin 0 → Fin S144x64.rank)
  reducesTo_S144x64_S_d0_1 : S144x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S32x2 .f32) (main_arg14 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x2 .f32 := Host.absf main_arg13
  let main_cst_22 : FVec F S_ .f32 := constant S_ .f32 0x7F800000#32
  let main_v60 : FVec F S32x2 .f32 := broadcastInDim S32x2 ![] bcast_S_S32x2 main_cst_22
  let main_v61 : IVec S32x2 1 := cmpf .olt main_v59 main_v60
  let main_c_23 : IVec S_ 1 := constantI S_ 1 1#1
  let main_v62 : IVec S_ 1 := (fun x v => Host.reduce IntOp.andi x v reducesTo_S32x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg8 : FVec F S64 .f32) (main_arg9 : FVec F S144x64 .f32) (main_arg10 : FVec F S64 .f32) (main_arg11 : FVec F S64x32 .f32) (main_arg12 : FVec F S32 .f32) (main_arg13 : FVec F S32x2 .f32) (main_arg14 : FVec F S2 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S144x64 .f32 := Host.absf main_arg9
  let main_cst_14 : FVec F S_ .f32 := constant S_ .f32 0x7F800000#32
  let main_v40 : FVec F S144x64 .f32 := broadcastInDim S144x64 ![] bcast_S_S144x64 main_cst_14
  let main_v41 : IVec S144x64 1 := cmpf .olt main_v39 main_v40
  let main_c_15 : IVec S_ 1 := constantI S_ 1 1#1
  let main_v42 : IVec S_ 1 := (fun x v => Host.reduce IntOp.andi x v reducesTo_S144x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S144x64 .f32) (main_arg10 : FVec F S64 .f32) (main_arg11 : FVec F S64x32 .f32) (main_arg12 : FVec F S32 .f32) (main_arg13 : FVec F S32x2 .f32) (main_arg14 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S1600000x16 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S144x64 .f32) (main_arg10 : FVec F S64 .f32) (main_arg11 : FVec F S64x32 .f32) (main_arg12 : FVec F S32 .f32) (main_arg13 : FVec F S32x2 .f32) (main_arg14 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S128x64 : Shape := ⟨2, ![128, 64]⟩
abbrev S64 : Shape := ⟨1, ![64]⟩
abbrev S64x64 : Shape := ⟨2, ![64, 64]⟩
abbrev S144x64 : Shape := ⟨2, ![144, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x2 : Shape := ⟨2, ![1600000, 2]⟩
abbrev S8000x64 : Shape := ⟨2, ![8000, 64]⟩
abbrev S8000x16 : Shape := ⟨2, ![8000, 16]⟩
abbrev S8000x2 : Shape := ⟨2, ![8000, 2]⟩
abbrev S8000x144 : Shape := ⟨2, ![8000, 144]⟩
abbrev S8000x32 : Shape := ⟨2, ![8000, 32]⟩
abbrev S1x32 : Shape := ⟨2, ![1, 32]⟩
abbrev S1x2 : Shape := ⟨2, ![1, 2]⟩

abbrev nBuf : Space → Nat
  | .hbm => 218
  | .vmem => 29
  | .smem => 0
  | _ => 0

abbrev hbmTy0_0 (i : Nat) : BufTy := match i % 128 with
  | 0 => ⟨S100000x128, .f32⟩
  | 1 => ⟨S2x1600000, .i32⟩
  | 2 => ⟨S1600000x16, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S144x64, .f32⟩
  | 10 => ⟨S64, .f32⟩
  | 11 => ⟨S64x32, .f32⟩
  | 12 => ⟨S32, .f32⟩
  | 13 => ⟨S32x2, .f32⟩
  | 14 => ⟨S2, .f32⟩
  | 15 => ⟨S1x1600000, .i32⟩
  | 16 => ⟨S1600000, .i32⟩
  | 17 => ⟨S1x1600000, .i32⟩
  | 18 => ⟨S1600000, .i32⟩
  | 19 => ⟨S100000x64, .f32⟩
  | 20 => ⟨S100000, .i32⟩
  | 21 => ⟨S1700000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000, .i32⟩
  | 80 => ⟨S1700000, .i32⟩
  | 81 => ⟨S1700000, .i32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x128, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x64, .f32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x1, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S1600000x64, .bf16⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x64, .f32⟩
  | 87 => ⟨S1600000x64, .bf16⟩
  | 88 => ⟨S1600000x16, .bf16⟩
  | 89 => ⟨S1600000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S8000x64, .bf16⟩
  | .local _ .vmem, ⟨16, _⟩ => ⟨S8000x64, .bf16⟩
  | .local _ .vmem, ⟨17, _⟩ => ⟨S8000x64, .bf16⟩
  | .local _ .vmem, ⟨18, _⟩ => ⟨S8000x64, .bf16⟩
  | .local _ .vmem, ⟨19, _⟩ => ⟨S8000x16, .bf16⟩
  | .local _ .vmem, ⟨20, _⟩ => ⟨S8000x16, .bf16⟩
  | .local _ .vmem, ⟨21, _⟩ => ⟨S144x64, .f32⟩
  | .local _ .vmem, ⟨22, _⟩ => ⟨S64, .f32⟩
  | .local _ .vmem, ⟨23, _⟩ => ⟨S64x32, .f32⟩
  | .local _ .vmem, ⟨24, _⟩ => ⟨S32, .f32⟩
  | .local _ .vmem, ⟨25, _⟩ => ⟨S32x2, .f32⟩
  | .local _ .vmem, ⟨26, _⟩ => ⟨S2, .f32⟩
  | .local _ .vmem, ⟨27, _⟩ => ⟨S8000x2, .f32⟩
  | .local _ .vmem, ⟨28, _⟩ => ⟨S8000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_15 : Ref sig .tc := ⟨.hbm, 105, rfl⟩
abbrev main_v67 : Ref sig .tc := ⟨.hbm, 106, rfl⟩
abbrev main_v68 : Ref sig .tc := ⟨.hbm, 107, rfl⟩
abbrev main_c_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_17 : Ref sig .tc := ⟨.hbm, 115, rfl⟩
abbrev main_v75 : Ref sig .tc := ⟨.hbm, 116, rfl⟩
abbrev main_v76 : Ref sig .tc := ⟨.hbm, 117, rfl⟩
abbrev main_c_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call3_cst : Ref sig .tc := ⟨.hbm, 134, rfl⟩
abbrev main_call3_v0 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_20 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_22 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_23 : Ref sig .tc := ⟨.hbm, 151, rfl⟩
abbrev main_call4_v0 : Ref sig .tc := ⟨.hbm, 152, rfl⟩
abbrev main_call4_v1 : Ref sig .tc := ⟨.hbm, 153, rfl⟩
abbrev main_v103 : Ref sig .tc := ⟨.hbm, 154, rfl⟩
abbrev main_c_24 : Ref sig .tc := ⟨.hbm, 155, rfl⟩
abbrev main_v104 : Ref sig .tc := ⟨.hbm, 156, rfl⟩
abbrev main_v105 : Ref sig .tc := ⟨.hbm, 157, rfl⟩
abbrev main_c_25 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_26 : Ref sig .tc := ⟨.hbm, 164, rfl⟩
abbrev main_v111 : Ref sig .tc := ⟨.hbm, 165, rfl⟩
abbrev main_v112 : Ref sig .tc := ⟨.hbm, 166, rfl⟩
abbrev main_c_27 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_c_28 : Ref sig .tc := ⟨.hbm, 174, rfl⟩
abbrev main_v119 : Ref sig .tc := ⟨.hbm, 175, rfl⟩
abbrev main_v120 : Ref sig .tc := ⟨.hbm, 176, rfl⟩
abbrev main_c_29 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_30 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_call5_cst : Ref sig .tc := ⟨.hbm, 193, rfl⟩
abbrev main_call5_v0 : Ref sig .tc := ⟨.hbm, 194, rfl⟩
abbrev main_v135 : Ref sig .tc := ⟨.hbm, 195, rfl⟩
abbrev main_c_31 : Ref sig .tc := ⟨.hbm, 196, rfl⟩
abbrev main_v136 : Ref sig .tc := ⟨.hbm, 197, rfl⟩
abbrev main_v137 : Ref sig .tc := ⟨.hbm, 198, rfl⟩
abbrev main_c_32 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_c_33 : Ref sig .tc := ⟨.hbm, 206, rfl⟩
abbrev main_v144 : Ref sig .tc := ⟨.hbm, 207, rfl⟩
abbrev main_v145 : Ref sig .tc := ⟨.hbm, 208, rfl⟩
abbrev main_c_34 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg9_0 : Ref sig .tc := ⟨.vmem, 27, rfl⟩
abbrev cc3_stg9_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem9_0 : DmaSem sig := 27
abbrev cc3_sem9_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x16 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S144x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S8000x2 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  concatenates_S8000x64_S8000x64_S8000x16_S8000x144_d1 : Shape.Concatenates [S8000x64, S8000x64, S8000x16] S8000x144 1
  inb_S144x64_S144x64_0_0 : ∀ a, (![0, 0] : Fin 2 → Nat) a + S144x64.size a ≤ S144x64.size a
  h_S144x64 : 0 < S144x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  dot_S8000x144_S144x64_S8000x64_1_0_0_1_n_n_wf : DotDims.WF S8000x144 S144x64 S8000x64 [1] [0] [0] [1] [] []
  dot_S8000x64_S64x32_S8000x32_1_0_0_1_n_n_wf : DotDims.WF S8000x64 S64x32 S8000x32 [1] [0] [0] [1] [] []
  dot_S8000x32_S32x2_S8000x2_1_0_0_1_n_n_wf : DotDims.WF S8000x32 S32x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .bf16 = 32 ∨ (Rect.block (s := S1600000x64) S8000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S1600000x64.size a
  hwx3_1 : ∀ i : grid3.Coords, EltTy.bits .bf16 = 32 ∨ (Rect.block (s := S1600000x64) S8000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x16.size a ≤ S1600000x16.size a
  hwx3_2 : ∀ i : grid3.Coords, EltTy.bits .bf16 = 32 ∨ (Rect.block (s := S1600000x16) S8000x16.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S144x64.size a ≤ S144x64.size a
  hwx3_3 : ∀ i : grid3.Coords, EltTy.bits .f32 = 32 ∨ (Rect.block (s := S144x64) S144x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x32.size a ≤ S64x32.size a
  hwx3_5 : ∀ i : grid3.Coords, EltTy.bits .f32 = 32 ∨ (Rect.block (s := S64x32) S64x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S32.size a ≤ S32.size a
  hwx3_6 : ∀ i : grid3.Coords, EltTy.bits .f32 = 32 ∨ (Rect.block (s := S32) S32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S32x2.size a ≤ S32x2.size a
  hwx3_7 : ∀ i : grid3.Coords, EltTy.bits .f32 = 32 ∨ (Rect.block (s := S32x2) S32x2.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S2.size a ≤ S2.size a
  hwx3_8 : ∀ i : grid3.Coords, EltTy.bits .f32 = 32 ∨ (Rect.block (s := S2) S2.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S8000x2.size a ≤ S1600000x2.size a
  hwx3_9 : ∀ i : grid3.Coords, EltTy.bits .f32 = 32 ∨ (Rect.block (s := S1600000x2) S8000x2.size (cc3_transform_9 i) (hinb3_9 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x144_S144x64_S8000x64_1_0_0_1_n_n : DotDims S8000x144 S144x64 S8000x64 where
  lhsContracting := [1]
  rhsContracting := [0]
  lhsNonContracting := [0]
  rhsNonContracting := [1]
  lhsBatch := []
  rhsBatch := []
  wf := dot_S8000x144_S144x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x2_S8000x2_1_0_0_1_n_n : DotDims S8000x32 S32x2 S8000x2 where
  lhsContracting := [1]
  rhsContracting := [0]
  lhsNonContracting := [0]
  rhsNonContracting := [1]
  lhsBatch := []
  rhsBatch := []
  wf := dot_S8000x32_S32x2_S8000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v91) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v92) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v143) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v151) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v152) S8000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S144x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S64x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg12) S32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg13) S32x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg14) S2.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v153) S8000x2.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S128x64 : Shape := ⟨2, ![128, 64]⟩
abbrev S64 : Shape := ⟨1, ![64]⟩
abbrev S64x64 : Shape := ⟨2, ![64, 64]⟩
abbrev S144x64 : Shape := ⟨2, ![144, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x144 : Shape := ⟨2, ![1600000, 144]⟩
abbrev S1600000x32 : Shape := ⟨2, ![1600000, 32]⟩
abbrev S1x32 : Shape := ⟨2, ![1, 32]⟩
abbrev S1600000x2 : Shape := ⟨2, ![1600000, 2]⟩
abbrev S1x2 : Shape := ⟨2, ![1, 2]⟩

abbrev nBuf : Space → Nat
  | .hbm => 233
  | .vmem => 0
  | .smem => 0
  | _ => 0

abbrev hbmTy0_0 (i : Nat) : BufTy := match i % 128 with
  | 0 => ⟨S100000x128, .f32⟩
  | 1 => ⟨S2x1600000, .i32⟩
  | 2 => ⟨S1600000x16, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S144x64, .f32⟩
  | 10 => ⟨S64, .f32⟩
  | 11 => ⟨S64x32, .f32⟩
  | 12 => ⟨S32, .f32⟩
  | 13 => ⟨S32x2, .f32⟩
  | 14 => ⟨S2, .f32⟩
  | 15 => ⟨S1x1600000, .i32⟩
  | 16 => ⟨S1600000, .i32⟩
  | 17 => ⟨S1x1600000, .i32⟩
  | 18 => ⟨S1600000, .i32⟩
  | 19 => ⟨S100000x64, .f32⟩
  | 20 => ⟨S100000, .i32⟩
  | 21 => ⟨S1700000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000, .i32⟩
  | 80 => ⟨S1700000, .i32⟩
  | 81 => ⟨S1700000, .i32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x128, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x64, .f32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x1, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S1600000x144, .f32⟩
  | 87 => ⟨S1600000x64, .f32⟩
  | 88 => ⟨S1x64, .f32⟩
  | 89 => ⟨S1600000x64, .f32⟩
  | 90 => ⟨S1600000x64, .f32⟩
  | 91 => ⟨S_, .f32⟩
  | 92 => ⟨S1600000x64, .f32⟩
  | 93 => ⟨S1600000x64, .f32⟩
  | 94 => ⟨S1600000x32, .f32⟩
  | 95 => ⟨S1x32, .f32⟩
  | 96 => ⟨S1600000x32, .f32⟩
  | 97 => ⟨S1600000x32, .f32⟩
  | 98 => ⟨S_, .f32⟩
  | 99 => ⟨S1600000x32, .f32⟩
  | 100 => ⟨S1600000x32, .f32⟩
  | 101 => ⟨S1600000x2, .f32⟩
  | 102 => ⟨S1x2, .f32⟩
  | 103 => ⟨S1600000x2, .f32⟩
  | 104 => ⟨S1600000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_15 : Ref sig .tc := ⟨.hbm, 105, rfl⟩
abbrev main_v67 : Ref sig .tc := ⟨.hbm, 106, rfl⟩
abbrev main_v68 : Ref sig .tc := ⟨.hbm, 107, rfl⟩
abbrev main_c_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_17 : Ref sig .tc := ⟨.hbm, 115, rfl⟩
abbrev main_v75 : Ref sig .tc := ⟨.hbm, 116, rfl⟩
abbrev main_v76 : Ref sig .tc := ⟨.hbm, 117, rfl⟩
abbrev main_c_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call3_cst : Ref sig .tc := ⟨.hbm, 134, rfl⟩
abbrev main_call3_v0 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_20 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_22 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_23 : Ref sig .tc := ⟨.hbm, 151, rfl⟩
abbrev main_call4_v0 : Ref sig .tc := ⟨.hbm, 152, rfl⟩
abbrev main_call4_v1 : Ref sig .tc := ⟨.hbm, 153, rfl⟩
abbrev main_v103 : Ref sig .tc := ⟨.hbm, 154, rfl⟩
abbrev main_c_24 : Ref sig .tc := ⟨.hbm, 155, rfl⟩
abbrev main_v104 : Ref sig .tc := ⟨.hbm, 156, rfl⟩
abbrev main_v105 : Ref sig .tc := ⟨.hbm, 157, rfl⟩
abbrev main_c_25 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_26 : Ref sig .tc := ⟨.hbm, 164, rfl⟩
abbrev main_v111 : Ref sig .tc := ⟨.hbm, 165, rfl⟩
abbrev main_v112 : Ref sig .tc := ⟨.hbm, 166, rfl⟩
abbrev main_c_27 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_c_28 : Ref sig .tc := ⟨.hbm, 174, rfl⟩
abbrev main_v119 : Ref sig .tc := ⟨.hbm, 175, rfl⟩
abbrev main_v120 : Ref sig .tc := ⟨.hbm, 176, rfl⟩
abbrev main_c_29 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_30 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_call5_cst : Ref sig .tc := ⟨.hbm, 193, rfl⟩
abbrev main_call5_v0 : Ref sig .tc := ⟨.hbm, 194, rfl⟩
abbrev main_v135 : Ref sig .tc := ⟨.hbm, 195, rfl⟩
abbrev main_c_31 : Ref sig .tc := ⟨.hbm, 196, rfl⟩
abbrev main_v136 : Ref sig .tc := ⟨.hbm, 197, rfl⟩
abbrev main_v137 : Ref sig .tc := ⟨.hbm, 198, rfl⟩
abbrev main_c_32 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_c_33 : Ref sig .tc := ⟨.hbm, 205, rfl⟩
abbrev main_v143 : Ref sig .tc := ⟨.hbm, 206, rfl⟩
abbrev main_v144 : Ref sig .tc := ⟨.hbm, 207, rfl⟩
abbrev main_c_34 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_call6_cst : Ref sig .tc := ⟨.hbm, 219, rfl⟩
abbrev main_call6_v0 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_call7_cst : Ref sig .tc := ⟨.hbm, 226, rfl⟩
abbrev main_call7_v0 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x16_S1600000x144_d1 : Shape.Concatenates [S1600000x64, S1600000x64, S1600000x16] S1600000x144 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x144_S144x64_S1600000x64_1_0_0_1_n_n_wf : DotDims.WF S1600000x144 S144x64 S1600000x64 [1] [0] [0] [1] [] []
  dot_S1600000x64_S64x32_S1600000x32_1_0_0_1_n_n_wf : DotDims.WF S1600000x64 S64x32 S1600000x32 [1] [0] [0] [1] [] []
  dot_S1600000x32_S32x2_S1600000x2_1_0_0_1_n_n_wf : DotDims.WF S1600000x32 S32x2 S1600000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x144_S144x64_S1600000x64_1_0_0_1_n_n : DotDims S1600000x144 S144x64 S1600000x64 where
  lhsContracting := [1]
  rhsContracting := [0]
  lhsNonContracting := [0]
  rhsNonContracting := [1]
  lhsBatch := []
  rhsBatch := []
  wf := dot_S1600000x144_S144x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def dot_S1600000x32_S32x2_S1600000x2_1_0_0_1_n_n : DotDims S1600000x32 S32x2 S1600000x2 where
  lhsContracting := [1]
  rhsContracting := [0]
  lhsNonContracting := [0]
  rhsNonContracting := [1]
  lhsBatch := []
  rhsBatch := []
  wf := dot_S1600000x32_S32x2_S1600000x2_1_0_0_1_n_n_wf

class Facts : Prop extends Facts₀ where

variable [Facts]
-- ==== Proof.KRun.lean ====
/-
  The idealized kernel program's run with its RESULT named. The program is four kernel launches among stretches of
  host operations; the contents of every buffer at each boundary are a fold from the launch memory, ending at
  `Gen.W18` after the last launch. The launch theorem for a program of several kernel regions gives, for every
  weakly fair execution, termination without a fault in a state whose unscoped buffers hold `Gen.W18`; read at the
  result buffer this is the first conjunct below, and read at the argument buffers the fold walks back to the
  launch memory.
-/
import proofs.«151144_j59914793779321_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v153) = W18 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v153 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c)⟩)

end Cert.KernelIdeal.RunValue

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.RefFold.lean ====
/-
  The reference program's buffer contents at eight boundaries. Its operations are eight consecutive pieces (the edge
  list's two rows; then three times a matrix product followed by the layer's normalised aggregation; the gathers at the
  edges' end nodes; the edge classifier), and the contents after a line of host operations are a fold of the
  operations over the incoming contents; the fold over the whole line is the fold over the last piece of the fold over
  the pieces before it.
-/
import proofs.«151144_j59914793779321_1_alg».proof.Proof.RefRunP
import proofs.«151144_j59914793779321_1_alg».proof.Proof.LibAfterAppend

noncomputable section

namespace Cert.ReferenceIdeal.Fold

open Idealize.ShloMosaic Idealize.ShloMosaic.TcCoe Idealize.SL.Sem Idealize.ShloMosaic.StableHlo
open Cert.ReferenceIdeal Cert.ReferenceIdeal.ValueP

variable {F : FTy → Type} [FloatOps F]
variable (m : (ℓ : Loc nD τ sig) → Buf (Elt F) ℓ) (c : Dev nD)

/-- The launch contents. -/
def U0 : Valuation τ sig (Elt F) := launchContents m c
/-- After the edge list's two rows are cut out. -/
def U1 : Valuation τ sig (Elt F) := after p0 (U0 m c)
/-- After the first layer's matrix product. -/
def U2 : Valuation τ sig (Elt F) := after p1 (U1 m c)
/-- After the first layer. -/
def U3 : Valuation τ sig (Elt F) := after p2 (U2 m c)
/-- After the second layer's matrix product. -/
def U4 : Valuation τ sig (Elt F) := after p3 (U3 m c)
/-- After the second layer. -/
def U5 : Valuation τ sig (Elt F) := after p4 (U4 m c)
/-- After the third layer's matrix product. -/
def U6 : Valuation τ sig (Elt F) := after p5 (U5 m c)
/-- After the third layer and the gathers at the edges' end nodes. -/
def U7 : Valuation τ sig (Elt F) := after p6 (U6 m c)
/-- After the edge classifier: the end of the program. -/
def U8 : Valuation τ sig (Elt F) := after p7 (U7 m c)

theorem U0_def : U0 m c = launchContents m c := rfl
theorem U1_def : U1 m c = after p0 (U0 m c) := rfl
theorem U2_def : U2 m c = after p1 (U1 m c) := rfl
theorem U3_def : U3 m c = after p2 (U2 m c) := rfl
theorem U4_def : U4 m c = after p3 (U3 m c) := rfl
theorem U5_def : U5 m c = after p4 (U4 m c) := rfl
theorem U6_def : U6 m c = after p5 (U5 m c) := rfl
theorem U7_def : U7 m c = after p6 (U6 m c) := rfl
theorem U8_def : U8 m c = after p7 (U7 m c) := rfl

/-- The fold over the whole program is the last boundary's contents. -/
theorem fold_eq : after ops (launchContents m c) = U8 m c := by
  rw [ops_eq]
  simp only [Cert.LibAfterAppend.after_append]
  rfl

end Cert.ReferenceIdeal.Fold

end
-- ==== Proof.KeepsK.lean ====
/-
  Buffers the kernel program leaves alone on the way.

  The program is a line of host operations cut by four kernel regions. A stretch of host operations writes the
  result buffer of each of its operations and nothing else, and a region writes its output arrays and nothing
  else; so a buffer that is none of these holds at a later boundary what it held at an earlier one. For each
  stretch the written buffers are listed once, and a buffer outside the list is carried across the stretch;
  the chains below carry the arguments and the two edge-index vectors from boundary to boundary.
-/
import proofs.«151144_j59914793779321_1_alg».proof.Proof.Gen.KernelIdeal.Frame
import Idealize.ShloMosaic.Lib.StableHlo.Run

noncomputable section

namespace Cert.KernelIdeal.Keeps

open Idealize.ShloMosaic Idealize.ShloMosaic.TcCoe Idealize.SL.Sem Idealize.ShloMosaic.StableHlo
open Cert.KernelIdeal Cert.KernelIdeal.Gen

variable {F : FTy → Type} [FloatOps F]

/-- An operation whose one written buffer is in a list writes inside the list. -/
theorem sub_of_mem {Val : EltTy → Type} {W : List (Ref sig .tc)} {op : HloOp τ sig Val} {y : Ref sig .tc}
    (h : op.writes = {Proc.devRef .tc y}) (hy : y ∈ W) :
    op.writes ⊆ (W.map (Proc.devRef (τ := τ) .tc)).toFinset := by
  rw [h]
  exact Finset.singleton_subset_iff.mpr (List.mem_toFinset.mpr (List.mem_map_of_mem hy))

/-! ## The stretches of host operations -/

/-- The buffers written by the edge list's two rows cut out as vectors. -/
abbrev wr0 : List (Ref sig .tc) :=
  [main_v0, main_v1, main_v2, main_v3]

theorem writes0 : (hostOps0 : List (HloOp τ sig (Elt F))).Forall
    fun op => op.writes ⊆ ((wr0).map (Proc.devRef (τ := τ) .tc)).toFinset :=
  ⟨sub_of_mem (y := main_v0) rfl (by decide), sub_of_mem (y := main_v1) rfl (by decide),
   sub_of_mem (y := main_v2) rfl (by decide), sub_of_mem (y := main_v3) rfl (by decide)⟩

/-- A buffer outside that list keeps its contents across these operations. -/
theorem keep0 {r : Ref sig .tc} (hr : r ∉ wr0) (V : Valuation τ sig (Elt F)) :
    StableHlo.after hostOps0 V (Proc.devRef .tc r) = V (Proc.devRef .tc r) :=
  StableHlo.after_of_writes_sub hostOps0 V writes0 hr

/-- The buffers written by the first layer's node degrees. -/
abbrev wr1 : List (Ref sig .tc) :=
  [main_v5, main_v6, main_v7, main_cst, main_v8, main_cst_0, main_v9, main_v10, main_v11, main_cst_1,
   main_v12, main_v13, main_v14, main_cst_2]

theorem writes1 : (hostOps1 : List (HloOp τ sig (Elt F))).Forall
    fun op => op.writes ⊆ ((wr1).map (Proc.devRef (τ := τ) .tc)).toFinset :=
  ⟨sub_of_mem (y := main_v5) rfl (by decide), sub_of_mem (y := main_v6) rfl (by decide),
   sub_of_mem (y := main_v7) rfl (by decide), sub_of_mem (y := main_cst) rfl (by decide),
   sub_of_mem (y := main_v8) rfl (by decide), sub_of_mem (y := main_cst_0) rfl (by decide),
   sub_of_mem (y := main_v9) rfl (by decide), sub_of_mem (y := main_v10) rfl (by decide),
   sub_of_mem (y := main_v11) rfl (by decide), sub_of_mem (y := main_cst_1) rfl (by decide),
   sub_of_mem (y := main_v12) rfl (by decide), sub_of_mem (y := main_v13) rfl (by decide),
   sub_of_mem (y := main_v14) rfl (by decide), sub_of_mem (y := main_cst_2) rfl (by decide)⟩

/-- A buffer outside that list keeps its contents across these operations. -/
theorem keep1 {r : Ref sig .tc} (hr : r ∉ wr1) (V : Valuation τ sig (Elt F)) :
    StableHlo.after hostOps1 V (Proc.devRef .tc r) = V (Proc.devRef .tc r) :=
  StableHlo.after_of_writes_sub hostOps1 V writes1 hr

/-- The buffers written by the first layer's guarded inverse square root. -/
abbrev wr1_1 : List (Ref sig .tc) :=
  [main_call0_v0, main_call0_v1, main_v15]

theorem writes1_1 : (hostOps1_1 : List (HloOp τ sig (Elt F))).Forall
    fun op => op.writes ⊆ ((wr1_1).map (Proc.devRef (τ := τ) .tc)).toFinset :=
  ⟨sub_of_mem (y := main_call0_v0) rfl (by decide), sub_of_mem (y := main_call0_v1) rfl (by decide),
   sub_of_mem (y := main_v15) rfl (by decide)⟩

/-- A buffer outside that list keeps its contents across these operations. -/
theorem keep1_1 {r : Ref sig .tc} (hr : r ∉ wr1_1) (V : Valuation τ sig (Elt F)) :
    StableHlo.after hostOps1_1 V (Proc.devRef .tc r) = V (Proc.devRef .tc r) :=
  StableHlo.after_of_writes_sub hostOps1_1 V writes1_1 hr

/-- The buffers written by the first layer's normalised aggregation and bias. -/
abbrev wr1_2 : List (Ref sig .tc) :=
  [main_c, main_v16, main_v17, main_c_3, main_v18, main_v19, main_v20, main_v21, main_v22, main_c_4,
   main_v23, main_v24, main_c_5, main_v25, main_v26, main_v27, main_v28, main_v29, main_v30, main_c_6,
   main_v31, main_v32, main_c_7, main_v33, main_v34, main_v35, main_v36, main_v37, main_v38, main_v39,
   main_v40, main_cst_8, main_v41, main_v42, main_v43, main_v44, main_v45, main_v46]

theorem writes1_2 : (hostOps1_2 : List (HloOp τ sig (Elt F))).Forall
    fun op => op.writes ⊆ ((wr1_2).map (Proc.devRef (τ := τ) .tc)).toFinset :=
  ⟨sub_of_mem (y := main_c) rfl (by decide), sub_of_mem (y := main_v16) rfl (by decide),
   sub_of_mem (y := main_v17) rfl (by decide), sub_of_mem (y := main_c_3) rfl (by decide),
   sub_of_mem (y := main_v18) rfl (by decide), sub_of_mem (y := main_v19) rfl (by decide),
   sub_of_mem (y := main_v20) rfl (by decide), sub_of_mem (y := main_v21) rfl (by decide),
   sub_of_mem (y := main_v22) rfl (by decide), sub_of_mem (y := main_c_4) rfl (by decide),
   sub_of_mem (y := main_v23) rfl (by decide), sub_of_mem (y := main_v24) rfl (by decide),
   sub_of_mem (y := main_c_5) rfl (by decide), sub_of_mem (y := main_v25) rfl (by decide),
   sub_of_mem (y := main_v26) rfl (by decide), sub_of_mem (y := main_v27) rfl (by decide),
   sub_of_mem (y := main_v28) rfl (by decide), sub_of_mem (y := main_v29) rfl (by decide),
   sub_of_mem (y := main_v30) rfl (by decide), sub_of_mem (y := main_c_6) rfl (by decide),
   sub_of_mem (y := main_v31) rfl (by decide), sub_of_mem (y := main_v32) rfl (by decide),
   sub_of_mem (y := main_c_7) rfl (by decide), sub_of_mem (y := main_v33) rfl (by decide),
   sub_of_mem (y := main_v34) rfl (by decide), sub_of_mem (y := main_v35) rfl (by decide),
   sub_of_mem (y := main_v36) rfl (by decide), sub_of_mem (y := main_v37) rfl (by decide),
   sub_of_mem (y := main_v38) rfl (by decide), sub_of_mem (y := main_v39) rfl (by decide),
   sub_of_mem (y := main_v40) rfl (by decide), sub_of_mem (y := main_cst_8) rfl (by decide),
   sub_of_mem (y := main_v41) rfl (by decide), sub_of_mem (y := main_v42) rfl (by decide),
   sub_of_mem (y := main_v43) rfl (by decide), sub_of_mem (y := main_v44) rfl (by decide),
   sub_of_mem (y := main_v45) rfl (by decide), sub_of_mem (y := main_v46) rfl (by decide)⟩

/-- A buffer outside that list keeps its contents across these operations. -/
theorem keep1_2 {r : Ref sig .tc} (hr : r ∉ wr1_2) (V : Valuation τ sig (Elt F)) :
    StableHlo.after hostOps1_2 V (Proc.devRef .tc r) = V (Proc.devRef .tc r) :=
  StableHlo.after_of_writes_sub hostOps1_2 V writes1_2 hr

/-- The buffers written by the first layer's maximum with zero. -/
abbrev wr1_3 : List (Ref sig .tc) :=
  [main_call1_cst, main_call1_v0, main_v47]

theorem writes1_3 : (hostOps1_3 : List (HloOp τ sig (Elt F))).Forall
    fun op => op.writes ⊆ ((wr1_3).map (Proc.devRef (τ := τ) .tc)).toFinset :=
  ⟨sub_of_mem (y := main_call1_cst) rfl (by decide), sub_of_mem (y := main_call1_v0) rfl (by decide),
   sub_of_mem (y := main_v47) rfl (by decide)⟩

/-- A buffer outside that list keeps its contents across these operations. -/
theorem keep1_3 {r : Ref sig .tc} (hr : r ∉ wr1_3) (V : Valuation τ sig (Elt F)) :
    StableHlo.after hostOps1_3 V (Proc.devRef .tc r) = V (Proc.devRef .tc r) :=
  StableHlo.after_of_writes_sub hostOps1_3 V writes1_3 hr

/-- The buffers written by the second layer's node degrees. -/
abbrev wr2 : List (Ref sig .tc) :=
  [main_v49, main_v50, main_v51, main_cst_9, main_v52, main_cst_10, main_v53, main_v54, main_v55,
   main_cst_11, main_v56, main_v57, main_v58, main_cst_12]

theorem writes2 : (hostOps2 : List (HloOp τ sig (Elt F))).Forall
    fun op => op.writes ⊆ ((wr2).map (Proc.devRef (τ := τ) .tc)).toFinset :=
  ⟨sub_of_mem (y := main_v49) rfl (by decide), sub_of_mem (y := main_v50) rfl (by decide),
   sub_of_mem (y := main_v51) rfl (by decide), sub_of_mem (y := main_cst_9) rfl (by decide),
   sub_of_mem (y := main_v52) rfl (by decide), sub_of_mem (y := main_cst_10) rfl (by decide),
   sub_of_mem (y := main_v53) rfl (by decide), sub_of_mem (y := main_v54) rfl (by decide),
   sub_of_mem (y := main_v55) rfl (by decide), sub_of_mem (y := main_cst_11) rfl (by decide),
   sub_of_mem (y := main_v56) rfl (by decide), sub_of_mem (y := main_v57) rfl (by decide),
   sub_of_mem (y := main_v58) rfl (by decide), sub_of_mem (y := main_cst_12) rfl (by decide)⟩

/-- A buffer outside that list keeps its contents across these operations. -/
theorem keep2 {r : Ref sig .tc} (hr : r ∉ wr2) (V : Valuation τ sig (Elt F)) :
    StableHlo.after hostOps2 V (Proc.devRef .tc r) = V (Proc.devRef .tc r) :=
  StableHlo.after_of_writes_sub hostOps2 V writes2 hr

/-- The buffers written by the second layer's guarded inverse square root. -/
abbrev wr2_1 : List (Ref sig .tc) :=
  [main_call2_v0, main_call2_v1, main_v59]

theorem writes2_1 : (hostOps2_1 : List (HloOp τ sig (Elt F))).Forall
    fun op => op.writes ⊆ ((wr2_1).map (Proc.devRef (τ := τ) .tc)).toFinset :=
  ⟨sub_of_mem (y := main_call2_v0) rfl (by decide), sub_of_mem (y := main_call2_v1) rfl (by decide),
   sub_of_mem (y := main_v59) rfl (by decide)⟩

/-- A buffer outside that list keeps its contents across these operations. -/
theorem keep2_1 {r : Ref sig .tc} (hr : r ∉ wr2_1) (V : Valuation τ sig (Elt F)) :
    StableHlo.after hostOps2_1 V (Proc.devRef .tc r) = V (Proc.devRef .tc r) :=
  StableHlo.after_of_writes_sub hostOps2_1 V writes2_1 hr

/-- The buffers written by the second layer's normalised aggregation and bias. -/
abbrev wr2_2 : List (Ref sig .tc) :=
  [main_c_13, main_v60, main_v61, main_c_14, main_v62, main_v63, main_v64, main_v65, main_v66, main_c_15,
   main_v67, main_v68, main_c_16, main_v69, main_v70, main_v71, main_v72, main_v73, main_v74, main_c_17,
   main_v75, main_v76, main_c_18, main_v77, main_v78, main_v79, main_v80, main_v81, main_v82, main_v83,
   main_v84, main_cst_19, main_v85, main_v86, main_v87, main_v88, main_v89, main_v90]

theorem writes2_2 : (hostOps2_2 : List (HloOp τ sig (Elt F))).Forall
    fun op => op.writes ⊆ ((wr2_2).map (Proc.devRef (τ := τ) .tc)).toFinset :=
  ⟨sub_of_mem (y := main_c_13) rfl (by decide), sub_of_mem (y := main_v60) rfl (by decide),
   sub_of_mem (y := main_v61) rfl (by decide), sub_of_mem (y := main_c_14) rfl (by decide),
   sub_of_mem (y := main_v62) rfl (by decide), sub_of_mem (y := main_v63) rfl (by decide),
   sub_of_mem (y := main_v64) rfl (by decide), sub_of_mem (y := main_v65) rfl (by decide),
   sub_of_mem (y := main_v66) rfl (by decide), sub_of_mem (y := main_c_15) rfl (by decide),
   sub_of_mem (y := main_v67) rfl (by decide), sub_of_mem (y := main_v68) rfl (by decide),
   sub_of_mem (y := main_c_16) rfl (by decide), sub_of_mem (y := main_v69) rfl (by decide),
   sub_of_mem (y := main_v70) rfl (by decide), sub_of_mem (y := main_v71) rfl (by decide),
   sub_of_mem (y := main_v72) rfl (by decide), sub_of_mem (y := main_v73) rfl (by decide),
   sub_of_mem (y := main_v74) rfl (by decide), sub_of_mem (y := main_c_17) rfl (by decide),
   sub_of_mem (y := main_v75) rfl (by decide), sub_of_mem (y := main_v76) rfl (by decide),
   sub_of_mem (y := main_c_18) rfl (by decide), sub_of_mem (y := main_v77) rfl (by decide),
   sub_of_mem (y := main_v78) rfl (by decide), sub_of_mem (y := main_v79) rfl (by decide),
   sub_of_mem (y := main_v80) rfl (by decide), sub_of_mem (y := main_v81) rfl (by decide),
   sub_of_mem (y := main_v82) rfl (by decide), sub_of_mem (y := main_v83) rfl (by decide),
   sub_of_mem (y := main_v84) rfl (by decide), sub_of_mem (y := main_cst_19) rfl (by decide),
   sub_of_mem (y := main_v85) rfl (by decide), sub_of_mem (y := main_v86) rfl (by decide),
   sub_of_mem (y := main_v87) rfl (by decide), sub_of_mem (y := main_v88) rfl (by decide),
   sub_of_mem (y := main_v89) rfl (by decide), sub_of_mem (y := main_v90) rfl (by decide)⟩

/-- A buffer outside that list keeps its contents across these operations. -/
theorem keep2_2 {r : Ref sig .tc} (hr : r ∉ wr2_2) (V : Valuation τ sig (Elt F)) :
    StableHlo.after hostOps2_2 V (Proc.devRef .tc r) = V (Proc.devRef .tc r) :=
  StableHlo.after_of_writes_sub hostOps2_2 V writes2_2 hr

/-- The buffers written by the second layer's maximum with zero. -/
abbrev wr2_3 : List (Ref sig .tc) :=
  [main_call3_cst, main_call3_v0, main_v91]

theorem writes2_3 : (hostOps2_3 : List (HloOp τ sig (Elt F))).Forall
    fun op => op.writes ⊆ ((wr2_3).map (Proc.devRef (τ := τ) .tc)).toFinset :=
  ⟨sub_of_mem (y := main_call3_cst) rfl (by decide), sub_of_mem (y := main_call3_v0) rfl (by decide),
   sub_of_mem (y := main_v91) rfl (by decide)⟩

/-- A buffer outside that list keeps its contents across these operations. -/
theorem keep2_3 {r : Ref sig .tc} (hr : r ∉ wr2_3) (V : Valuation τ sig (Elt F)) :
    StableHlo.after hostOps2_3 V (Proc.devRef .tc r) = V (Proc.devRef .tc r) :=
  StableHlo.after_of_writes_sub hostOps2_3 V writes2_3 hr

/-- The buffers written by the third layer's node degrees. -/
abbrev wr3 : List (Ref sig .tc) :=
  [main_v93, main_v94, main_v95, main_cst_20, main_v96, main_cst_21, main_v97, main_v98, main_v99,
   main_cst_22, main_v100, main_v101, main_v102, main_cst_23]

theorem writes3 : (hostOps3 : List (HloOp τ sig (Elt F))).Forall
    fun op => op.writes ⊆ ((wr3).map (Proc.devRef (τ := τ) .tc)).toFinset :=
  ⟨sub_of_mem (y := main_v93) rfl (by decide), sub_of_mem (y := main_v94) rfl (by decide),
   sub_of_mem (y := main_v95) rfl (by decide), sub_of_mem (y := main_cst_20) rfl (by decide),
   sub_of_mem (y := main_v96) rfl (by decide), sub_of_mem (y := main_cst_21) rfl (by decide),
   sub_of_mem (y := main_v97) rfl (by decide), sub_of_mem (y := main_v98) rfl (by decide),
   sub_of_mem (y := main_v99) rfl (by decide), sub_of_mem (y := main_cst_22) rfl (by decide),
   sub_of_mem (y := main_v100) rfl (by decide), sub_of_mem (y := main_v101) rfl (by decide),
   sub_of_mem (y := main_v102) rfl (by decide), sub_of_mem (y := main_cst_23) rfl (by decide)⟩

/-- A buffer outside that list keeps its contents across these operations. -/
theorem keep3 {r : Ref sig .tc} (hr : r ∉ wr3) (V : Valuation τ sig (Elt F)) :
    StableHlo.after hostOps3 V (Proc.devRef .tc r) = V (Proc.devRef .tc r) :=
  StableHlo.after_of_writes_sub hostOps3 V writes3 hr

/-- The buffers written by the third layer's guarded inverse square root. -/
abbrev wr3_1 : List (Ref sig .tc) :=
  [main_call4_v0, main_call4_v1, main_v103]

theorem writes3_1 : (hostOps3_1 : List (HloOp τ sig (Elt F))).Forall
    fun op => op.writes ⊆ ((wr3_1).map (Proc.devRef (τ := τ) .tc)).toFinset :=
  ⟨sub_of_mem (y := main_call4_v0) rfl (by decide), sub_of_mem (y := main_call4_v1) rfl (by decide),
   sub_of_mem (y := main_v103) rfl (by decide)⟩

/-- A buffer outside that list keeps its contents across these operations. -/
theorem keep3_1 {r : Ref sig .tc} (hr : r ∉ wr3_1) (V : Valuation τ sig (Elt F)) :
    StableHlo.after hostOps3_1 V (Proc.devRef .tc r) = V (Proc.devRef .tc r) :=
  StableHlo.after_of_writes_sub hostOps3_1 V writes3_1 hr

/-- The buffers written by the third layer's normalised aggregation and bias. -/
abbrev wr3_2 : List (Ref sig .tc) :=
  [main_c_24, main_v104, main_v105, main_c_25, main_v106, main_v107, main_v108, main_v109, main_v110,
   main_c_26, main_v111, main_v112, main_c_27, main_v113, main_v114, main_v115, main_v116, main_v117,
   main_v118, main_c_28, main_v119, main_v120, main_c_29, main_v121, main_v122, main_v123, main_v124,
   main_v125, main_v126, main_v127, main_v128, main_cst_30, main_v129, main_v130, main_v131, main_v132,
   main_v133, main_v134]

theorem writes3_2 : (hostOps3_2 : List (HloOp τ sig (Elt F))).Forall
    fun op => op.writes ⊆ ((wr3_2).map (Proc.devRef (τ := τ) .tc)).toFinset :=
  ⟨sub_of_mem (y := main_c_24) rfl (by decide), sub_of_mem (y := main_v104) rfl (by decide),
   sub_of_mem (y := main_v105) rfl (by decide), sub_of_mem (y := main_c_25) rfl (by decide),
   sub_of_mem (y := main_v106) rfl (by decide), sub_of_mem (y := main_v107) rfl (by decide),
   sub_of_mem (y := main_v108) rfl (by decide), sub_of_mem (y := main_v109) rfl (by decide),
   sub_of_mem (y := main_v110) rfl (by decide), sub_of_mem (y := main_c_26) rfl (by decide),
   sub_of_mem (y := main_v111) rfl (by decide), sub_of_mem (y := main_v112) rfl (by decide),
   sub_of_mem (y := main_c_27) rfl (by decide), sub_of_mem (y := main_v113) rfl (by decide),
   sub_of_mem (y := main_v114) rfl (by decide), sub_of_mem (y := main_v115) rfl (by decide),
   sub_of_mem (y := main_v116) rfl (by decide), sub_of_mem (y := main_v117) rfl (by decide),
   sub_of_mem (y := main_v118) rfl (by decide), sub_of_mem (y := main_c_28) rfl (by decide),
   sub_of_mem (y := main_v119) rfl (by decide), sub_of_mem (y := main_v120) rfl (by decide),
   sub_of_mem (y := main_c_29) rfl (by decide), sub_of_mem (y := main_v121) rfl (by decide),
   sub_of_mem (y := main_v122) rfl (by decide), sub_of_mem (y := main_v123) rfl (by decide),
   sub_of_mem (y := main_v124) rfl (by decide), sub_of_mem (y := main_v125) rfl (by decide),
   sub_of_mem (y := main_v126) rfl (by decide), sub_of_mem (y := main_v127) rfl (by decide),
   sub_of_mem (y := main_v128) rfl (by decide), sub_of_mem (y := main_cst_30) rfl (by decide),
   sub_of_mem (y := main_v129) rfl (by decide), sub_of_mem (y := main_v130) rfl (by decide),
   sub_of_mem (y := main_v131) rfl (by decide), sub_of_mem (y := main_v132) rfl (by decide),
   sub_of_mem (y := main_v133) rfl (by decide), sub_of_mem (y := main_v134) rfl (by decide)⟩

/-- A buffer outside that list keeps its contents across these operations. -/
theorem keep3_2 {r : Ref sig .tc} (hr : r ∉ wr3_2) (V : Valuation τ sig (Elt F)) :
    StableHlo.after hostOps3_2 V (Proc.devRef .tc r) = V (Proc.devRef .tc r) :=
  StableHlo.after_of_writes_sub hostOps3_2 V writes3_2 hr

/-- The buffers written by the third layer's maximum with zero. -/
abbrev wr3_3 : List (Ref sig .tc) :=
  [main_call5_cst, main_call5_v0, main_v135]

theorem writes3_3 : (hostOps3_3 : List (HloOp τ sig (Elt F))).Forall
    fun op => op.writes ⊆ ((wr3_3).map (Proc.devRef (τ := τ) .tc)).toFinset :=
  ⟨sub_of_mem (y := main_call5_cst) rfl (by decide), sub_of_mem (y := main_call5_v0) rfl (by decide),
   sub_of_mem (y := main_v135) rfl (by decide)⟩

/-- A buffer outside that list keeps its contents across these operations. -/
theorem keep3_3 {r : Ref sig .tc} (hr : r ∉ wr3_3) (V : Valuation τ sig (Elt F)) :
    StableHlo.after hostOps3_3 V (Proc.devRef .tc r) = V (Proc.devRef .tc r) :=
  StableHlo.after_of_writes_sub hostOps3_3 V writes3_3 hr

/-- The buffers written by the hidden states gathered at the edges' end nodes and narrowed. -/
abbrev wr3_4 : List (Ref sig .tc) :=
  [main_c_31, main_v136, main_v137, main_c_32, main_v138, main_v139, main_v140, main_v141, main_v142,
   main_v143, main_c_33, main_v144, main_v145, main_c_34, main_v146, main_v147, main_v148, main_v149,
   main_v150, main_v151, main_v152]

theorem writes3_4 : (hostOps3_4 : List (HloOp τ sig (Elt F))).Forall
    fun op => op.writes ⊆ ((wr3_4).map (Proc.devRef (τ := τ) .tc)).toFinset :=
  ⟨sub_of_mem (y := main_c_31) rfl (by decide), sub_of_mem (y := main_v136) rfl (by decide),
   sub_of_mem (y := main_v137) rfl (by decide), sub_of_mem (y := main_c_32) rfl (by decide),
   sub_of_mem (y := main_v138) rfl (by decide), sub_of_mem (y := main_v139) rfl (by decide),
   sub_of_mem (y := main_v140) rfl (by decide), sub_of_mem (y := main_v141) rfl (by decide),
   sub_of_mem (y := main_v142) rfl (by decide), sub_of_mem (y := main_v143) rfl (by decide),
   sub_of_mem (y := main_c_33) rfl (by decide), sub_of_mem (y := main_v144) rfl (by decide),
   sub_of_mem (y := main_v145) rfl (by decide), sub_of_mem (y := main_c_34) rfl (by decide),
   sub_of_mem (y := main_v146) rfl (by decide), sub_of_mem (y := main_v147) rfl (by decide),
   sub_of_mem (y := main_v148) rfl (by decide), sub_of_mem (y := main_v149) rfl (by decide),
   sub_of_mem (y := main_v150) rfl (by decide), sub_of_mem (y := main_v151) rfl (by decide),
   sub_of_mem (y := main_v152) rfl (by decide)⟩

/-- A buffer outside that list keeps its contents across these operations. -/
theorem keep3_4 {r : Ref sig .tc} (hr : r ∉ wr3_4) (V : Valuation τ sig (Elt F)) :
    StableHlo.after hostOps3_4 V (Proc.devRef .tc r) = V (Proc.devRef .tc r) :=
  StableHlo.after_of_writes_sub hostOps3_4 V writes3_4 hr

/-! ## From boundary to boundary -/

section Chains

variable (m : (ℓ : Loc nD τ sig) → Buf (Elt F) ℓ) (ρ : Dev nD → PrngReg) (c : Dev nD)

/-- At the first region's entry, a buffer the first stretch does not write holds its launch contents. -/
theorem W1_of (r : Ref sig .tc) (h0 : r ∉ wr0) :
    W1 m ρ c (Proc.devRef .tc r) = m ((c.tc : Thread nD τ).loc r) :=
  (keep0 h0 (W0 m ρ c)).trans rfl

/-- Across the second layer's host operations (from the first region's exit to the second region's entry). -/
theorem W6_W2 (r : Ref sig .tc) (h : r ∉ wr1 ∧ r ∉ wr1_1 ∧ r ∉ wr1_2 ∧ r ∉ wr1_3) :
    W6 m ρ c (Proc.devRef .tc r) = W2 m ρ c (Proc.devRef .tc r) :=
  (keep1_3 h.2.2.2 (W5 m ρ c)).trans <| (keep1_2 h.2.2.1 (W4 m ρ c)).trans <|
    (keep1_1 h.2.1 (W3 m ρ c)).trans (keep1 h.1 (W2 m ρ c))

/-- Across the third layer's host operations. -/
theorem W11_W7 (r : Ref sig .tc) (h : r ∉ wr2 ∧ r ∉ wr2_1 ∧ r ∉ wr2_2 ∧ r ∉ wr2_3) :
    W11 m ρ c (Proc.devRef .tc r) = W7 m ρ c (Proc.devRef .tc r) :=
  (keep2_3 h.2.2.2 (W10 m ρ c)).trans <| (keep2_2 h.2.2.1 (W9 m ρ c)).trans <|
    (keep2_1 h.2.1 (W8 m ρ c)).trans (keep2 h.1 (W7 m ρ c))

/-- Across the host operations before the edge classifier. -/
theorem W17_W12 (r : Ref sig .tc) (h : r ∉ wr3 ∧ r ∉ wr3_1 ∧ r ∉ wr3_2 ∧ r ∉ wr3_3 ∧ r ∉ wr3_4) :
    W17 m ρ c (Proc.devRef .tc r) = W12 m ρ c (Proc.devRef .tc r) :=
  (keep3_4 h.2.2.2.2 (W16 m ρ c)).trans <| (keep3_3 h.2.2.2.1 (W15 m ρ c)).trans <|
    (keep3_2 h.2.2.1 (W14 m ρ c)).trans <| (keep3_1 h.2.1 (W13 m ρ c)).trans (keep3 h.1 (W12 m ρ c))

/-- A buffer that is no array of the first region and that the first stretch does not write: launch contents at
    the first region's exit. -/
theorem W2_of (r : Ref sig .tc) (h0 : r ∉ wr0) (a0 : ∀ w, Pipeline.arrRef spec0 w ≠ r) :
    W2 m ρ c (Proc.devRef .tc r) = m ((c.tc : Thread nD τ).loc r) :=
  (W2_of_ne m ρ c r a0).trans (W1_of m ρ c r h0)

theorem W6_of (r : Ref sig .tc) (h0 : r ∉ wr0) (a0 : ∀ w, Pipeline.arrRef spec0 w ≠ r)
    (h1 : r ∉ wr1 ∧ r ∉ wr1_1 ∧ r ∉ wr1_2 ∧ r ∉ wr1_3) :
    W6 m ρ c (Proc.devRef .tc r) = m ((c.tc : Thread nD τ).loc r) :=
  (W6_W2 m ρ c r h1).trans (W2_of m ρ c r h0 a0)

theorem W7_of (r : Ref sig .tc) (h0 : r ∉ wr0) (a0 : ∀ w, Pipeline.arrRef spec0 w ≠ r)
    (h1 : r ∉ wr1 ∧ r ∉ wr1_1 ∧ r ∉ wr1_2 ∧ r ∉ wr1_3) (a1 : ∀ w, Pipeline.arrRef spec1 w ≠ r) :
    W7 m ρ c (Proc.devRef .tc r) = m ((c.tc : Thread nD τ).loc r) :=
  (W7_of_ne m ρ c r a1).trans (W6_of m ρ c r h0 a0 h1)

theorem W11_of (r : Ref sig .tc) (h0 : r ∉ wr0) (a0 : ∀ w, Pipeline.arrRef spec0 w ≠ r)
    (h1 : r ∉ wr1 ∧ r ∉ wr1_1 ∧ r ∉ wr1_2 ∧ r ∉ wr1_3) (a1 : ∀ w, Pipeline.arrRef spec1 w ≠ r)
    (h2 : r ∉ wr2 ∧ r ∉ wr2_1 ∧ r ∉ wr2_2 ∧ r ∉ wr2_3) :
    W11 m ρ c (Proc.devRef .tc r) = m ((c.tc : Thread nD τ).loc r) :=
  (W11_W7 m ρ c r h2).trans (W7_of m ρ c r h0 a0 h1 a1)

theorem W12_of (r : Ref sig .tc) (h0 : r ∉ wr0) (a0 : ∀ w, Pipeline.arrRef spec0 w ≠ r)
    (h1 : r ∉ wr1 ∧ r ∉ wr1_1 ∧ r ∉ wr1_2 ∧ r ∉ wr1_3) (a1 : ∀ w, Pipeline.arrRef spec1 w ≠ r)
    (h2 : r ∉ wr2 ∧ r ∉ wr2_1 ∧ r ∉ wr2_2 ∧ r ∉ wr2_3) (a2 : ∀ w, Pipeline.arrRef spec2 w ≠ r) :
    W12 m ρ c (Proc.devRef .tc r) = m ((c.tc : Thread nD τ).loc r) :=
  (W12_of_ne m ρ c r a2).trans (W11_of m ρ c r h0 a0 h1 a1 h2)

theorem W17_of (r : Ref sig .tc) (h0 : r ∉ wr0) (a0 : ∀ w, Pipeline.arrRef spec0 w ≠ r)
    (h1 : r ∉ wr1 ∧ r ∉ wr1_1 ∧ r ∉ wr1_2 ∧ r ∉ wr1_3) (a1 : ∀ w, Pipeline.arrRef spec1 w ≠ r)
    (h2 : r ∉ wr2 ∧ r ∉ wr2_1 ∧ r ∉ wr2_2 ∧ r ∉ wr2_3) (a2 : ∀ w, Pipeline.arrRef spec2 w ≠ r)
    (h3 : r ∉ wr3 ∧ r ∉ wr3_1 ∧ r ∉ wr3_2 ∧ r ∉ wr3_3 ∧ r ∉ wr3_4) :
    W17 m ρ c (Proc.devRef .tc r) = m ((c.tc : Thread nD τ).loc r) :=
  (W17_W12 m ρ c r h3).trans (W12_of m ρ c r h0 a0 h1 a1 h2 a2)

/-! ### The arguments and the edge-index vectors -/

theorem W1_arg0 : W1 m ρ c (Proc.devRef .tc main_arg0) = m ((c.tc : Thread nD τ).loc main_arg0) :=
  W1_of m ρ c main_arg0 (by decide)
theorem W1_arg3 : W1 m ρ c (Proc.devRef .tc main_arg3) = m ((c.tc : Thread nD τ).loc main_arg3) :=
  W1_of m ρ c main_arg3 (by decide)

theorem W2_v1 : W2 m ρ c (Proc.devRef .tc main_v1) = W1 m ρ c (Proc.devRef .tc main_v1) :=
  W2_of_ne m ρ c main_v1 (by decide)
theorem W2_v3 : W2 m ρ c (Proc.devRef .tc main_v3) = W1 m ρ c (Proc.devRef .tc main_v3) :=
  W2_of_ne m ρ c main_v3 (by decide)
theorem W2_arg4 : W2 m ρ c (Proc.devRef .tc main_arg4) = m ((c.tc : Thread nD τ).loc main_arg4) :=
  W2_of m ρ c main_arg4 (by decide) (by decide)

theorem W6_arg5 : W6 m ρ c (Proc.devRef .tc main_arg5) = m ((c.tc : Thread nD τ).loc main_arg5) :=
  W6_of m ρ c main_arg5 (by decide) (by decide) (by decide)

theorem W7_v1 : W7 m ρ c (Proc.devRef .tc main_v1) = W1 m ρ c (Proc.devRef .tc main_v1) :=
  (W7_of_ne m ρ c main_v1 (by decide)).trans <| (W6_W2 m ρ c main_v1 (by decide)).trans (W2_v1 m ρ c)
theorem W7_v3 : W7 m ρ c (Proc.devRef .tc main_v3) = W1 m ρ c (Proc.devRef .tc main_v3) :=
  (W7_of_ne m ρ c main_v3 (by decide)).trans <| (W6_W2 m ρ c main_v3 (by decide)).trans (W2_v3 m ρ c)
theorem W7_arg6 : W7 m ρ c (Proc.devRef .tc main_arg6) = m ((c.tc : Thread nD τ).loc main_arg6) :=
  W7_of m ρ c main_arg6 (by decide) (by decide) (by decide) (by decide)

theorem W11_arg7 : W11 m ρ c (Proc.devRef .tc main_arg7) = m ((c.tc : Thread nD τ).loc main_arg7) :=
  W11_of m ρ c main_arg7 (by decide) (by decide) (by decide) (by decide) (by decide)

theorem W12_v1 : W12 m ρ c (Proc.devRef .tc main_v1) = W1 m ρ c (Proc.devRef .tc main_v1) :=
  (W12_of_ne m ρ c main_v1 (by decide)).trans <| (W11_W7 m ρ c main_v1 (by decide)).trans (W7_v1 m ρ c)
theorem W12_v3 : W12 m ρ c (Proc.devRef .tc main_v3) = W1 m ρ c (Proc.devRef .tc main_v3) :=
  (W12_of_ne m ρ c main_v3 (by decide)).trans <| (W11_W7 m ρ c main_v3 (by decide)).trans (W7_v3 m ρ c)
theorem W12_arg8 : W12 m ρ c (Proc.devRef .tc main_arg8) = m ((c.tc : Thread nD τ).loc main_arg8) :=
  W12_of m ρ c main_arg8 (by decide) (by decide) (by decide) (by decide) (by decide) (by decide)
theorem W12_arg2 : W12 m ρ c (Proc.devRef .tc main_arg2) = m ((c.tc : Thread nD τ).loc main_arg2) :=
  W12_of m ρ c main_arg2 (by decide) (by decide) (by decide) (by decide) (by decide) (by decide)

theorem W17_arg9 : W17 m ρ c (Proc.devRef .tc main_arg9) = m ((c.tc : Thread nD τ).loc main_arg9) :=
  W17_of m ρ c main_arg9 (by decide) (by decide) (by decide) (by decide) (by decide) (by decide) (by decide)
theorem W17_arg10 : W17 m ρ c (Proc.devRef .tc main_arg10) = m ((c.tc : Thread nD τ).loc main_arg10) :=
  W17_of m ρ c main_arg10 (by decide) (by decide) (by decide) (by decide) (by decide) (by decide) (by decide)
theorem W17_arg11 : W17 m ρ c (Proc.devRef .tc main_arg11) = m ((c.tc : Thread nD τ).loc main_arg11) :=
  W17_of m ρ c main_arg11 (by decide) (by decide) (by decide) (by decide) (by decide) (by decide) (by decide)
theorem W17_arg12 : W17 m ρ c (Proc.devRef .tc main_arg12) = m ((c.tc : Thread nD τ).loc main_arg12) :=
  W17_of m ρ c main_arg12 (by decide) (by decide) (by decide) (by decide) (by decide) (by decide) (by decide)
theorem W17_arg13 : W17 m ρ c (Proc.devRef .tc main_arg13) = m ((c.tc : Thread nD τ).loc main_arg13) :=
  W17_of m ρ c main_arg13 (by decide) (by decide) (by decide) (by decide) (by decide) (by decide) (by decide)
theorem W17_arg14 : W17 m ρ c (Proc.devRef .tc main_arg14) = m ((c.tc : Thread nD τ).loc main_arg14) :=
  W17_of m ρ c main_arg14 (by decide) (by decide) (by decide) (by decide) (by decide) (by decide) (by decide)

end Chains

end Cert.KernelIdeal.Keeps

end
-- ==== Proof.KeepsR.lean ====
/-
  Buffers the reference program leaves alone on the way.

  The reference is one line of host operations in eight consecutive pieces. A piece writes the result buffer of
  each of its operations and nothing else, so a buffer outside a piece's list of written buffers holds after the
  piece what it held before. The chains below carry the arguments and the two edge-index vectors from boundary
  to boundary; in particular every argument holds its launch contents at the end of the program.
-/
import proofs.«151144_j59914793779321_1_alg».proof.Proof.RefFold
import Idealize.ShloMosaic.Lib.StableHlo.Run

noncomputable section

namespace Cert.ReferenceIdeal.Keeps

open Idealize.ShloMosaic Idealize.ShloMosaic.TcCoe Idealize.SL.Sem Idealize.ShloMosaic.StableHlo
open Cert.ReferenceIdeal Cert.ReferenceIdeal.ValueP Cert.ReferenceIdeal.Fold

variable {F : FTy → Type} [FloatOps F]

/-- An operation whose one written buffer is in a list writes inside the list. -/
theorem sub_of_mem {Val : EltTy → Type} {W : List (Ref sig .tc)} {op : HloOp τ sig Val} {y : Ref sig .tc}
    (h : op.writes = {Proc.devRef .tc y}) (hy : y ∈ W) :
    op.writes ⊆ (W.map (Proc.devRef (τ := τ) .tc)).toFinset := by
  rw [h]
  exact Finset.singleton_subset_iff.mpr (List.mem_toFinset.mpr (List.mem_map_of_mem hy))

/-! ## The eight pieces -/

/-- The buffers written by the edge list's two rows cut out as vectors. -/
abbrev wp0 : List (Ref sig .tc) :=
  [main_v0, main_v1, main_v2, main_v3]

theorem writesP0 : (p0 : List (HloOp τ sig (Elt F))).Forall
    fun op => op.writes ⊆ ((wp0).map (Proc.devRef (τ := τ) .tc)).toFinset :=
  ⟨sub_of_mem (y := main_v0) rfl (by decide), sub_of_mem (y := main_v1) rfl (by decide),
   sub_of_mem (y := main_v2) rfl (by decide), sub_of_mem (y := main_v3) rfl (by decide)⟩

/-- A buffer outside that list keeps its contents across these operations. -/
theorem keepP0 {r : Ref sig .tc} (hr : r ∉ wp0) (V : Valuation τ sig (Elt F)) :
    StableHlo.after p0 V (Proc.devRef .tc r) = V (Proc.devRef .tc r) :=
  StableHlo.after_of_writes_sub p0 V writesP0 hr

/-- The buffers written by the first layer's matrix product. -/
abbrev wp1 : List (Ref sig .tc) :=
  [main_v4]

theorem writesP1 : (p1 : List (HloOp τ sig (Elt F))).Forall
    fun op => op.writes ⊆ ((wp1).map (Proc.devRef (τ := τ) .tc)).toFinset :=
  sub_of_mem (y := main_v4) rfl (by decide)

/-- A buffer outside that list keeps its contents across these operations. -/
theorem keepP1 {r : Ref sig .tc} (hr : r ∉ wp1) (V : Valuation τ sig (Elt F)) :
    StableHlo.after p1 V (Proc.devRef .tc r) = V (Proc.devRef .tc r) :=
  StableHlo.after_of_writes_sub p1 V writesP1 hr

/-- The buffers written by the first layer's normalised aggregation, bias and maximum with zero. -/
abbrev wp2 : List (Ref sig .tc) :=
  [main_v5, main_v6, main_v7, main_cst, main_v8, main_cst_0, main_v9, main_v10, main_v11, main_cst_1,
   main_v12, main_v13, main_v14, main_cst_2, main_call0_v0, main_call0_v1, main_v15, main_c, main_v16,
   main_v17, main_c_3, main_v18, main_v19, main_v20, main_v21, main_v22, main_c_4, main_v23, main_v24,
   main_c_5, main_v25, main_v26, main_v27, main_v28, main_v29, main_v30, main_c_6, main_v31, main_v32,
   main_c_7, main_v33, main_v34, main_v35, main_v36, main_v37, main_v38, main_v39, main_v40, main_cst_8,
   main_v41, main_v42, main_v43, main_v44, main_v45, main_v46, main_call1_cst, main_call1_v0, main_v47]

theorem writesP2 : (p2 : List (HloOp τ sig (Elt F))).Forall
    fun op => op.writes ⊆ ((wp2).map (Proc.devRef (τ := τ) .tc)).toFinset :=
  ⟨sub_of_mem (y := main_v5) rfl (by decide), sub_of_mem (y := main_v6) rfl (by decide),
   sub_of_mem (y := main_v7) rfl (by decide), sub_of_mem (y := main_cst) rfl (by decide),
   sub_of_mem (y := main_v8) rfl (by decide), sub_of_mem (y := main_cst_0) rfl (by decide),
   sub_of_mem (y := main_v9) rfl (by decide), sub_of_mem (y := main_v10) rfl (by decide),
   sub_of_mem (y := main_v11) rfl (by decide), sub_of_mem (y := main_cst_1) rfl (by decide),
   sub_of_mem (y := main_v12) rfl (by decide), sub_of_mem (y := main_v13) rfl (by decide),
   sub_of_mem (y := main_v14) rfl (by decide), sub_of_mem (y := main_cst_2) rfl (by decide),
   sub_of_mem (y := main_call0_v0) rfl (by decide), sub_of_mem (y := main_call0_v1) rfl (by decide),
   sub_of_mem (y := main_v15) rfl (by decide), sub_of_mem (y := main_c) rfl (by decide),
   sub_of_mem (y := main_v16) rfl (by decide), sub_of_mem (y := main_v17) rfl (by decide),
   sub_of_mem (y := main_c_3) rfl (by decide), sub_of_mem (y := main_v18) rfl (by decide),
   sub_of_mem (y := main_v19) rfl (by decide), sub_of_mem (y := main_v20) rfl (by decide),
   sub_of_mem (y := main_v21) rfl (by decide), sub_of_mem (y := main_v22) rfl (by decide),
   sub_of_mem (y := main_c_4) rfl (by decide), sub_of_mem (y := main_v23) rfl (by decide),
   sub_of_mem (y := main_v24) rfl (by decide), sub_of_mem (y := main_c_5) rfl (by decide),
   sub_of_mem (y := main_v25) rfl (by decide), sub_of_mem (y := main_v26) rfl (by decide),
   sub_of_mem (y := main_v27) rfl (by decide), sub_of_mem (y := main_v28) rfl (by decide),
   sub_of_mem (y := main_v29) rfl (by decide), sub_of_mem (y := main_v30) rfl (by decide),
   sub_of_mem (y := main_c_6) rfl (by decide), sub_of_mem (y := main_v31) rfl (by decide),
   sub_of_mem (y := main_v32) rfl (by decide), sub_of_mem (y := main_c_7) rfl (by decide),
   sub_of_mem (y := main_v33) rfl (by decide), sub_of_mem (y := main_v34) rfl (by decide),
   sub_of_mem (y := main_v35) rfl (by decide), sub_of_mem (y := main_v36) rfl (by decide),
   sub_of_mem (y := main_v37) rfl (by decide), sub_of_mem (y := main_v38) rfl (by decide),
   sub_of_mem (y := main_v39) rfl (by decide), sub_of_mem (y := main_v40) rfl (by decide),
   sub_of_mem (y := main_cst_8) rfl (by decide), sub_of_mem (y := main_v41) rfl (by decide),
   sub_of_mem (y := main_v42) rfl (by decide), sub_of_mem (y := main_v43) rfl (by decide),
   sub_of_mem (y := main_v44) rfl (by decide), sub_of_mem (y := main_v45) rfl (by decide),
   sub_of_mem (y := main_v46) rfl (by decide), sub_of_mem (y := main_call1_cst) rfl (by decide),
   sub_of_mem (y := main_call1_v0) rfl (by decide), sub_of_mem (y := main_v47) rfl (by decide)⟩

/-- A buffer outside that list keeps its contents across these operations. -/
theorem keepP2 {r : Ref sig .tc} (hr : r ∉ wp2) (V : Valuation τ sig (Elt F)) :
    StableHlo.after p2 V (Proc.devRef .tc r) = V (Proc.devRef .tc r) :=
  StableHlo.after_of_writes_sub p2 V writesP2 hr

/-- The buffers written by the second layer's matrix product. -/
abbrev wp3 : List (Ref sig .tc) :=
  [main_v48]

theorem writesP3 : (p3 : List (HloOp τ sig (Elt F))).Forall
    fun op => op.writes ⊆ ((wp3).map (Proc.devRef (τ := τ) .tc)).toFinset :=
  sub_of_mem (y := main_v48) rfl (by decide)

/-- A buffer outside that list keeps its contents across these operations. -/
theorem keepP3 {r : Ref sig .tc} (hr : r ∉ wp3) (V : Valuation τ sig (Elt F)) :
    StableHlo.after p3 V (Proc.devRef .tc r) = V (Proc.devRef .tc r) :=
  StableHlo.after_of_writes_sub p3 V writesP3 hr

/-- The buffers written by the second layer's normalised aggregation, bias and maximum with zero. -/
abbrev wp4 : List (Ref sig .tc) :=
  [main_v49, main_v50, main_v51, main_cst_9, main_v52, main_cst_10, main_v53, main_v54, main_v55,
   main_cst_11, main_v56, main_v57, main_v58, main_cst_12, main_call2_v0, main_call2_v1, main_v59, main_c_13,
   main_v60, main_v61, main_c_14, main_v62, main_v63, main_v64, main_v65, main_v66, main_c_15, main_v67,
   main_v68, main_c_16, main_v69, main_v70, main_v71, main_v72, main_v73, main_v74, main_c_17, main_v75,
   main_v76, main_c_18, main_v77, main_v78, main_v79, main_v80, main_v81, main_v82, main_v83, main_v84,
   main_cst_19, main_v85, main_v86, main_v87, main_v88, main_v89, main_v90, main_call3_cst, main_call3_v0,
   main_v91]

theorem writesP4 : (p4 : List (HloOp τ sig (Elt F))).Forall
    fun op => op.writes ⊆ ((wp4).map (Proc.devRef (τ := τ) .tc)).toFinset :=
  ⟨sub_of_mem (y := main_v49) rfl (by decide), sub_of_mem (y := main_v50) rfl (by decide),
   sub_of_mem (y := main_v51) rfl (by decide), sub_of_mem (y := main_cst_9) rfl (by decide),
   sub_of_mem (y := main_v52) rfl (by decide), sub_of_mem (y := main_cst_10) rfl (by decide),
   sub_of_mem (y := main_v53) rfl (by decide), sub_of_mem (y := main_v54) rfl (by decide),
   sub_of_mem (y := main_v55) rfl (by decide), sub_of_mem (y := main_cst_11) rfl (by decide),
   sub_of_mem (y := main_v56) rfl (by decide), sub_of_mem (y := main_v57) rfl (by decide),
   sub_of_mem (y := main_v58) rfl (by decide), sub_of_mem (y := main_cst_12) rfl (by decide),
   sub_of_mem (y := main_call2_v0) rfl (by decide), sub_of_mem (y := main_call2_v1) rfl (by decide),
   sub_of_mem (y := main_v59) rfl (by decide), sub_of_mem (y := main_c_13) rfl (by decide),
   sub_of_mem (y := main_v60) rfl (by decide), sub_of_mem (y := main_v61) rfl (by decide),
   sub_of_mem (y := main_c_14) rfl (by decide), sub_of_mem (y := main_v62) rfl (by decide),
   sub_of_mem (y := main_v63) rfl (by decide), sub_of_mem (y := main_v64) rfl (by decide),
   sub_of_mem (y := main_v65) rfl (by decide), sub_of_mem (y := main_v66) rfl (by decide),
   sub_of_mem (y := main_c_15) rfl (by decide), sub_of_mem (y := main_v67) rfl (by decide),
   sub_of_mem (y := main_v68) rfl (by decide), sub_of_mem (y := main_c_16) rfl (by decide),
   sub_of_mem (y := main_v69) rfl (by decide), sub_of_mem (y := main_v70) rfl (by decide),
   sub_of_mem (y := main_v71) rfl (by decide), sub_of_mem (y := main_v72) rfl (by decide),
   sub_of_mem (y := main_v73) rfl (by decide), sub_of_mem (y := main_v74) rfl (by decide),
   sub_of_mem (y := main_c_17) rfl (by decide), sub_of_mem (y := main_v75) rfl (by decide),
   sub_of_mem (y := main_v76) rfl (by decide), sub_of_mem (y := main_c_18) rfl (by decide),
   sub_of_mem (y := main_v77) rfl (by decide), sub_of_mem (y := main_v78) rfl (by decide),
   sub_of_mem (y := main_v79) rfl (by decide), sub_of_mem (y := main_v80) rfl (by decide),
   sub_of_mem (y := main_v81) rfl (by decide), sub_of_mem (y := main_v82) rfl (by decide),
   sub_of_mem (y := main_v83) rfl (by decide), sub_of_mem (y := main_v84) rfl (by decide),
   sub_of_mem (y := main_cst_19) rfl (by decide), sub_of_mem (y := main_v85) rfl (by decide),
   sub_of_mem (y := main_v86) rfl (by decide), sub_of_mem (y := main_v87) rfl (by decide),
   sub_of_mem (y := main_v88) rfl (by decide), sub_of_mem (y := main_v89) rfl (by decide),
   sub_of_mem (y := main_v90) rfl (by decide), sub_of_mem (y := main_call3_cst) rfl (by decide),
   sub_of_mem (y := main_call3_v0) rfl (by decide), sub_of_mem (y := main_v91) rfl (by decide)⟩

/-- A buffer outside that list keeps its contents across these operations. -/
theorem keepP4 {r : Ref sig .tc} (hr : r ∉ wp4) (V : Valuation τ sig (Elt F)) :
    StableHlo.after p4 V (Proc.devRef .tc r) = V (Proc.devRef .tc r) :=
  StableHlo.after_of_writes_sub p4 V writesP4 hr

/-- The buffers written by the third layer's matrix product. -/
abbrev wp5 : List (Ref sig .tc) :=
  [main_v92]

theorem writesP5 : (p5 : List (HloOp τ sig (Elt F))).Forall
    fun op => op.writes ⊆ ((wp5).map (Proc.devRef (τ := τ) .tc)).toFinset :=
  sub_of_mem (y := main_v92) rfl (by decide)

/-- A buffer outside that list keeps its contents across these operations. -/
theorem keepP5 {r : Ref sig .tc} (hr : r ∉ wp5) (V : Valuation τ sig (Elt F)) :
    StableHlo.after p5 V (Proc.devRef .tc r) = V (Proc.devRef .tc r) :=
  StableHlo.after_of_writes_sub p5 V writesP5 hr

/-- The buffers written by the third layer's normalised aggregation, bias and maximum with zero, and the gathers at the edges' end nodes. -/
abbrev wp6 : List (Ref sig .tc) :=
  [main_v93, main_v94, main_v95, main_cst_20, main_v96, main_cst_21, main_v97, main_v98, main_v99,
   main_cst_22, main_v100, main_v101, main_v102, main_cst_23, main_call4_v0, main_call4_v1, main_v103,
   main_c_24, main_v104, main_v105, main_c_25, main_v106, main_v107, main_v108, main_v109, main_v110,
   main_c_26, main_v111, main_v112, main_c_27, main_v113, main_v114, main_v115, main_v116, main_v117,
   main_v118, main_c_28, main_v119, main_v120, main_c_29, main_v121, main_v122, main_v123, main_v124,
   main_v125, main_v126, main_v127, main_v128, main_cst_30, main_v129, main_v130, main_v131, main_v132,
   main_v133, main_v134, main_call5_cst, main_call5_v0, main_v135, main_c_31, main_v136, main_v137,
   main_c_32, main_v138, main_v139, main_v140, main_v141, main_v142, main_c_33, main_v143, main_v144,
   main_c_34, main_v145, main_v146, main_v147, main_v148, main_v149]

theorem writesP6 : (p6 : List (HloOp τ sig (Elt F))).Forall
    fun op => op.writes ⊆ ((wp6).map (Proc.devRef (τ := τ) .tc)).toFinset :=
  ⟨sub_of_mem (y := main_v93) rfl (by decide), sub_of_mem (y := main_v94) rfl (by decide),
   sub_of_mem (y := main_v95) rfl (by decide), sub_of_mem (y := main_cst_20) rfl (by decide),
   sub_of_mem (y := main_v96) rfl (by decide), sub_of_mem (y := main_cst_21) rfl (by decide),
   sub_of_mem (y := main_v97) rfl (by decide), sub_of_mem (y := main_v98) rfl (by decide),
   sub_of_mem (y := main_v99) rfl (by decide), sub_of_mem (y := main_cst_22) rfl (by decide),
   sub_of_mem (y := main_v100) rfl (by decide), sub_of_mem (y := main_v101) rfl (by decide),
   sub_of_mem (y := main_v102) rfl (by decide), sub_of_mem (y := main_cst_23) rfl (by decide),
   sub_of_mem (y := main_call4_v0) rfl (by decide), sub_of_mem (y := main_call4_v1) rfl (by decide),
   sub_of_mem (y := main_v103) rfl (by decide), sub_of_mem (y := main_c_24) rfl (by decide),
   sub_of_mem (y := main_v104) rfl (by decide), sub_of_mem (y := main_v105) rfl (by decide),
   sub_of_mem (y := main_c_25) rfl (by decide), sub_of_mem (y := main_v106) rfl (by decide),
   sub_of_mem (y := main_v107) rfl (by decide), sub_of_mem (y := main_v108) rfl (by decide),
   sub_of_mem (y := main_v109) rfl (by decide), sub_of_mem (y := main_v110) rfl (by decide),
   sub_of_mem (y := main_c_26) rfl (by decide), sub_of_mem (y := main_v111) rfl (by decide),
   sub_of_mem (y := main_v112) rfl (by decide), sub_of_mem (y := main_c_27) rfl (by decide),
   sub_of_mem (y := main_v113) rfl (by decide), sub_of_mem (y := main_v114) rfl (by decide),
   sub_of_mem (y := main_v115) rfl (by decide), sub_of_mem (y := main_v116) rfl (by decide),
   sub_of_mem (y := main_v117) rfl (by decide), sub_of_mem (y := main_v118) rfl (by decide),
   sub_of_mem (y := main_c_28) rfl (by decide), sub_of_mem (y := main_v119) rfl (by decide),
   sub_of_mem (y := main_v120) rfl (by decide), sub_of_mem (y := main_c_29) rfl (by decide),
   sub_of_mem (y := main_v121) rfl (by decide), sub_of_mem (y := main_v122) rfl (by decide),
   sub_of_mem (y := main_v123) rfl (by decide), sub_of_mem (y := main_v124) rfl (by decide),
   sub_of_mem (y := main_v125) rfl (by decide), sub_of_mem (y := main_v126) rfl (by decide),
   sub_of_mem (y := main_v127) rfl (by decide), sub_of_mem (y := main_v128) rfl (by decide),
   sub_of_mem (y := main_cst_30) rfl (by decide), sub_of_mem (y := main_v129) rfl (by decide),
   sub_of_mem (y := main_v130) rfl (by decide), sub_of_mem (y := main_v131) rfl (by decide),
   sub_of_mem (y := main_v132) rfl (by decide), sub_of_mem (y := main_v133) rfl (by decide),
   sub_of_mem (y := main_v134) rfl (by decide), sub_of_mem (y := main_call5_cst) rfl (by decide),
   sub_of_mem (y := main_call5_v0) rfl (by decide), sub_of_mem (y := main_v135) rfl (by decide),
   sub_of_mem (y := main_c_31) rfl (by decide), sub_of_mem (y := main_v136) rfl (by decide),
   sub_of_mem (y := main_v137) rfl (by decide), sub_of_mem (y := main_c_32) rfl (by decide),
   sub_of_mem (y := main_v138) rfl (by decide), sub_of_mem (y := main_v139) rfl (by decide),
   sub_of_mem (y := main_v140) rfl (by decide), sub_of_mem (y := main_v141) rfl (by decide),
   sub_of_mem (y := main_v142) rfl (by decide), sub_of_mem (y := main_c_33) rfl (by decide),
   sub_of_mem (y := main_v143) rfl (by decide), sub_of_mem (y := main_v144) rfl (by decide),
   sub_of_mem (y := main_c_34) rfl (by decide), sub_of_mem (y := main_v145) rfl (by decide),
   sub_of_mem (y := main_v146) rfl (by decide), sub_of_mem (y := main_v147) rfl (by decide),
   sub_of_mem (y := main_v148) rfl (by decide), sub_of_mem (y := main_v149) rfl (by decide)⟩

/-- A buffer outside that list keeps its contents across these operations. -/
theorem keepP6 {r : Ref sig .tc} (hr : r ∉ wp6) (V : Valuation τ sig (Elt F)) :
    StableHlo.after p6 V (Proc.devRef .tc r) = V (Proc.devRef .tc r) :=
  StableHlo.after_of_writes_sub p6 V writesP6 hr

/-- The buffers written by the edge classifier. -/
abbrev wp7 : List (Ref sig .tc) :=
  [main_v150, main_v151, main_v152, main_v153, main_v154, main_call6_cst, main_call6_v0, main_v155,
   main_v156, main_v157, main_v158, main_v159, main_call7_cst, main_call7_v0, main_v160, main_v161,
   main_v162, main_v163, main_v164]

theorem writesP7 : (p7 : List (HloOp τ sig (Elt F))).Forall
    fun op => op.writes ⊆ ((wp7).map (Proc.devRef (τ := τ) .tc)).toFinset :=
  ⟨sub_of_mem (y := main_v150) rfl (by decide), sub_of_mem (y := main_v151) rfl (by decide),
   sub_of_mem (y := main_v152) rfl (by decide), sub_of_mem (y := main_v153) rfl (by decide),
   sub_of_mem (y := main_v154) rfl (by decide), sub_of_mem (y := main_call6_cst) rfl (by decide),
   sub_of_mem (y := main_call6_v0) rfl (by decide), sub_of_mem (y := main_v155) rfl (by decide),
   sub_of_mem (y := main_v156) rfl (by decide), sub_of_mem (y := main_v157) rfl (by decide),
   sub_of_mem (y := main_v158) rfl (by decide), sub_of_mem (y := main_v159) rfl (by decide),
   sub_of_mem (y := main_call7_cst) rfl (by decide), sub_of_mem (y := main_call7_v0) rfl (by decide),
   sub_of_mem (y := main_v160) rfl (by decide), sub_of_mem (y := main_v161) rfl (by decide),
   sub_of_mem (y := main_v162) rfl (by decide), sub_of_mem (y := main_v163) rfl (by decide),
   sub_of_mem (y := main_v164) rfl (by decide)⟩

/-- A buffer outside that list keeps its contents across these operations. -/
theorem keepP7 {r : Ref sig .tc} (hr : r ∉ wp7) (V : Valuation τ sig (Elt F)) :
    StableHlo.after p7 V (Proc.devRef .tc r) = V (Proc.devRef .tc r) :=
  StableHlo.after_of_writes_sub p7 V writesP7 hr

/-! ## From boundary to boundary -/

section Chains

variable (m : (ℓ : Loc nD τ sig) → Buf (Elt F) ℓ) (c : Dev nD)

/-- Across the edge list's two rows cut out as vectors. -/
theorem U1_U0 (r : Ref sig .tc) (h : r ∉ wp0) :
    U1 m c (Proc.devRef .tc r) = U0 m c (Proc.devRef .tc r) :=
  (congrFun (U1_def m c) (Proc.devRef .tc r)).trans (keepP0 h (U0 m c))

/-- Across the first layer's matrix product. -/
theorem U2_U1 (r : Ref sig .tc) (h : r ∉ wp1) :
    U2 m c (Proc.devRef .tc r) = U1 m c (Proc.devRef .tc r) :=
  (congrFun (U2_def m c) (Proc.devRef .tc r)).trans (keepP1 h (U1 m c))

/-- Across the first layer's normalised aggregation, bias and maximum with zero. -/
theorem U3_U2 (r : Ref sig .tc) (h : r ∉ wp2) :
    U3 m c (Proc.devRef .tc r) = U2 m c (Proc.devRef .tc r) :=
  (congrFun (U3_def m c) (Proc.devRef .tc r)).trans (keepP2 h (U2 m c))

/-- Across the second layer's matrix product. -/
theorem U4_U3 (r : Ref sig .tc) (h : r ∉ wp3) :
    U4 m c (Proc.devRef .tc r) = U3 m c (Proc.devRef .tc r) :=
  (congrFun (U4_def m c) (Proc.devRef .tc r)).trans (keepP3 h (U3 m c))

/-- Across the second layer's normalised aggregation, bias and maximum with zero. -/
theorem U5_U4 (r : Ref sig .tc) (h : r ∉ wp4) :
    U5 m c (Proc.devRef .tc r) = U4 m c (Proc.devRef .tc r) :=
  (congrFun (U5_def m c) (Proc.devRef .tc r)).trans (keepP4 h (U4 m c))

/-- Across the third layer's matrix product. -/
theorem U6_U5 (r : Ref sig .tc) (h : r ∉ wp5) :
    U6 m c (Proc.devRef .tc r) = U5 m c (Proc.devRef .tc r) :=
  (congrFun (U6_def m c) (Proc.devRef .tc r)).trans (keepP5 h (U5 m c))

/-- Across the third layer's normalised aggregation, bias and maximum with zero, and the gathers at the edges' end nodes. -/
theorem U7_U6 (r : Ref sig .tc) (h : r ∉ wp6) :
    U7 m c (Proc.devRef .tc r) = U6 m c (Proc.devRef .tc r) :=
  (congrFun (U7_def m c) (Proc.devRef .tc r)).trans (keepP6 h (U6 m c))

/-- Across the edge classifier. -/
theorem U8_U7 (r : Ref sig .tc) (h : r ∉ wp7) :
    U8 m c (Proc.devRef .tc r) = U7 m c (Proc.devRef .tc r) :=
  (congrFun (U8_def m c) (Proc.devRef .tc r)).trans (keepP7 h (U7 m c))

/-- At the program's start every buffer holds its launch contents. -/
theorem U0_at (r : Ref sig .tc) : U0 m c (Proc.devRef .tc r) = m ((c.tc : Thread nD τ).loc r) := rfl

/-- A buffer none of the first piece writes holds its launch contents after it. -/
theorem U1_of (r : Ref sig .tc) (h : r ∉ wp0) :
    U1 m c (Proc.devRef .tc r) = m ((c.tc : Thread nD τ).loc r) :=
  (U1_U0 m c r h).trans (U0_at m c r)

/-- A buffer none of the first 2 pieces writes holds its launch contents after them. -/
theorem U2_of (r : Ref sig .tc) (h : r ∉ wp0 ∧ r ∉ wp1) :
    U2 m c (Proc.devRef .tc r) = m ((c.tc : Thread nD τ).loc r) :=
  (U2_U1 m c r h.2).trans <|
    (U1_U0 m c r h.1).trans (U0_at m c r)

/-- A buffer none of the first 3 pieces writes holds its launch contents after them. -/
theorem U3_of (r : Ref sig .tc) (h : r ∉ wp0 ∧ r ∉ wp1 ∧ r ∉ wp2) :
    U3 m c (Proc.devRef .tc r) = m ((c.tc : Thread nD τ).loc r) :=
  (U3_U2 m c r h.2.2).trans <|
    (U2_U1 m c r h.2.1).trans <|
    (U1_U0 m c r h.1).trans (U0_at m c r)

/-- A buffer none of the first 4 pieces writes holds its launch contents after them. -/
theorem U4_of (r : Ref sig .tc) (h : r ∉ wp0 ∧ r ∉ wp1 ∧ r ∉ wp2 ∧ r ∉ wp3) :
    U4 m c (Proc.devRef .tc r) = m ((c.tc : Thread nD τ).loc r) :=
  (U4_U3 m c r h.2.2.2).trans <|
    (U3_U2 m c r h.2.2.1).trans <|
    (U2_U1 m c r h.2.1).trans <|
    (U1_U0 m c r h.1).trans (U0_at m c r)

/-- A buffer none of the first 5 pieces writes holds its launch contents after them. -/
theorem U5_of (r : Ref sig .tc) (h : r ∉ wp0 ∧ r ∉ wp1 ∧ r ∉ wp2 ∧ r ∉ wp3 ∧ r ∉ wp4) :
    U5 m c (Proc.devRef .tc r) = m ((c.tc : Thread nD τ).loc r) :=
  (U5_U4 m c r h.2.2.2.2).trans <|
    (U4_U3 m c r h.2.2.2.1).trans <|
    (U3_U2 m c r h.2.2.1).trans <|
    (U2_U1 m c r h.2.1).trans <|
    (U1_U0 m c r h.1).trans (U0_at m c r)

/-- A buffer none of the first 6 pieces writes holds its launch contents after them. -/
theorem U6_of (r : Ref sig .tc) (h : r ∉ wp0 ∧ r ∉ wp1 ∧ r ∉ wp2 ∧ r ∉ wp3 ∧ r ∉ wp4 ∧ r ∉ wp5) :
    U6 m c (Proc.devRef .tc r) = m ((c.tc : Thread nD τ).loc r) :=
  (U6_U5 m c r h.2.2.2.2.2).trans <|
    (U5_U4 m c r h.2.2.2.2.1).trans <|
    (U4_U3 m c r h.2.2.2.1).trans <|
    (U3_U2 m c r h.2.2.1).trans <|
    (U2_U1 m c r h.2.1).trans <|
    (U1_U0 m c r h.1).trans (U0_at m c r)

/-- A buffer none of the first 7 pieces writes holds its launch contents after them. -/
theorem U7_of (r : Ref sig .tc) (h : r ∉ wp0 ∧ r ∉ wp1 ∧ r ∉ wp2 ∧ r ∉ wp3 ∧ r ∉ wp4 ∧ r ∉ wp5 ∧ r ∉ wp6) :
    U7 m c (Proc.devRef .tc r) = m ((c.tc : Thread nD τ).loc r) :=
  (U7_U6 m c r h.2.2.2.2.2.2).trans <|
    (U6_U5 m c r h.2.2.2.2.2.1).trans <|
    (U5_U4 m c r h.2.2.2.2.1).trans <|
    (U4_U3 m c r h.2.2.2.1).trans <|
    (U3_U2 m c r h.2.2.1).trans <|
    (U2_U1 m c r h.2.1).trans <|
    (U1_U0 m c r h.1).trans (U0_at m c r)

/-- A buffer none of the first 8 pieces writes holds its launch contents after them. -/
theorem U8_of (r : Ref sig .tc) (h : r ∉ wp0 ∧ r ∉ wp1 ∧ r ∉ wp2 ∧ r ∉ wp3 ∧ r ∉ wp4 ∧ r ∉ wp5 ∧ r ∉ wp6 ∧ r ∉ wp7) :
    U8 m c (Proc.devRef .tc r) = m ((c.tc : Thread nD τ).loc r) :=
  (U8_U7 m c r h.2.2.2.2.2.2.2).trans <|
    (U7_U6 m c r h.2.2.2.2.2.2.1).trans <|
    (U6_U5 m c r h.2.2.2.2.2.1).trans <|
    (U5_U4 m c r h.2.2.2.2.1).trans <|
    (U4_U3 m c r h.2.2.2.1).trans <|
    (U3_U2 m c r h.2.2.1).trans <|
    (U2_U1 m c r h.2.1).trans <|
    (U1_U0 m c r h.1).trans (U0_at m c r)

/-- A buffer the pieces after the first up to boundary 4 do not write holds there what it held after the first piece. -/
theorem U4_U1 (r : Ref sig .tc) (h : r ∉ wp1 ∧ r ∉ wp2 ∧ r ∉ wp3) :
    U4 m c (Proc.devRef .tc r) = U1 m c (Proc.devRef .tc r) :=
  (U4_U3 m c r h.2.2).trans <|
    (U3_U2 m c r h.2.1).trans <|
    (U2_U1 m c r h.1)

/-- A buffer the pieces after the first up to boundary 6 do not write holds there what it held after the first piece. -/
theorem U6_U1 (r : Ref sig .tc) (h : r ∉ wp1 ∧ r ∉ wp2 ∧ r ∉ wp3 ∧ r ∉ wp4 ∧ r ∉ wp5) :
    U6 m c (Proc.devRef .tc r) = U1 m c (Proc.devRef .tc r) :=
  (U6_U5 m c r h.2.2.2.2).trans <|
    (U5_U4 m c r h.2.2.2.1).trans <|
    (U4_U3 m c r h.2.2.1).trans <|
    (U3_U2 m c r h.2.1).trans <|
    (U2_U1 m c r h.1)

/-! ### The arguments and the edge-index vectors -/

theorem U1_arg0 : U1 m c (Proc.devRef .tc main_arg0) = m ((c.tc : Thread nD τ).loc main_arg0) :=
  U1_of m c main_arg0 (by decide)
theorem U1_arg3 : U1 m c (Proc.devRef .tc main_arg3) = m ((c.tc : Thread nD τ).loc main_arg3) :=
  U1_of m c main_arg3 (by decide)
theorem U2_v1 : U2 m c (Proc.devRef .tc main_v1) = U1 m c (Proc.devRef .tc main_v1) :=
  U2_U1 m c main_v1 (by decide)
theorem U2_v3 : U2 m c (Proc.devRef .tc main_v3) = U1 m c (Proc.devRef .tc main_v3) :=
  U2_U1 m c main_v3 (by decide)
theorem U2_arg4 : U2 m c (Proc.devRef .tc main_arg4) = m ((c.tc : Thread nD τ).loc main_arg4) :=
  U2_of m c main_arg4 (by decide)
theorem U3_arg5 : U3 m c (Proc.devRef .tc main_arg5) = m ((c.tc : Thread nD τ).loc main_arg5) :=
  U3_of m c main_arg5 (by decide)
theorem U4_v1 : U4 m c (Proc.devRef .tc main_v1) = U1 m c (Proc.devRef .tc main_v1) :=
  U4_U1 m c main_v1 (by decide)
theorem U4_v3 : U4 m c (Proc.devRef .tc main_v3) = U1 m c (Proc.devRef .tc main_v3) :=
  U4_U1 m c main_v3 (by decide)
theorem U4_arg6 : U4 m c (Proc.devRef .tc main_arg6) = m ((c.tc : Thread nD τ).loc main_arg6) :=
  U4_of m c main_arg6 (by decide)
theorem U5_arg7 : U5 m c (Proc.devRef .tc main_arg7) = m ((c.tc : Thread nD τ).loc main_arg7) :=
  U5_of m c main_arg7 (by decide)
theorem U6_v1 : U6 m c (Proc.devRef .tc main_v1) = U1 m c (Proc.devRef .tc main_v1) :=
  U6_U1 m c main_v1 (by decide)
theorem U6_v3 : U6 m c (Proc.devRef .tc main_v3) = U1 m c (Proc.devRef .tc main_v3) :=
  U6_U1 m c main_v3 (by decide)
theorem U6_arg8 : U6 m c (Proc.devRef .tc main_arg8) = m ((c.tc : Thread nD τ).loc main_arg8) :=
  U6_of m c main_arg8 (by decide)
theorem U7_arg2 : U7 m c (Proc.devRef .tc main_arg2) = m ((c.tc : Thread nD τ).loc main_arg2) :=
  U7_of m c main_arg2 (by decide)
theorem U7_arg9 : U7 m c (Proc.devRef .tc main_arg9) = m ((c.tc : Thread nD τ).loc main_arg9) :=
  U7_of m c main_arg9 (by decide)
theorem U7_arg10 : U7 m c (Proc.devRef .tc main_arg10) = m ((c.tc : Thread nD τ).loc main_arg10) :=
  U7_of m c main_arg10 (by decide)
theorem U7_arg11 : U7 m c (Proc.devRef .tc main_arg11) = m ((c.tc : Thread nD τ).loc main_arg11) :=
  U7_of m c main_arg11 (by decide)
theorem U7_arg12 : U7 m c (Proc.devRef .tc main_arg12) = m ((c.tc : Thread nD τ).loc main_arg12) :=
  U7_of m c main_arg12 (by decide)
theorem U7_arg13 : U7 m c (Proc.devRef .tc main_arg13) = m ((c.tc : Thread nD τ).loc main_arg13) :=
  U7_of m c main_arg13 (by decide)
theorem U7_arg14 : U7 m c (Proc.devRef .tc main_arg14) = m ((c.tc : Thread nD τ).loc main_arg14) :=
  U7_of m c main_arg14 (by decide)

/-! ### Every argument holds its launch contents at the end of the program -/

theorem U8_arg0 : U8 m c (Proc.devRef .tc main_arg0) = m ((c.tc : Thread nD τ).loc main_arg0) :=
  U8_of m c main_arg0 (by decide)
theorem U8_arg1 : U8 m c (Proc.devRef .tc main_arg1) = m ((c.tc : Thread nD τ).loc main_arg1) :=
  U8_of m c main_arg1 (by decide)
theorem U8_arg2 : U8 m c (Proc.devRef .tc main_arg2) = m ((c.tc : Thread nD τ).loc main_arg2) :=
  U8_of m c main_arg2 (by decide)
theorem U8_arg3 : U8 m c (Proc.devRef .tc main_arg3) = m ((c.tc : Thread nD τ).loc main_arg3) :=
  U8_of m c main_arg3 (by decide)
theorem U8_arg4 : U8 m c (Proc.devRef .tc main_arg4) = m ((c.tc : Thread nD τ).loc main_arg4) :=
  U8_of m c main_arg4 (by decide)
theorem U8_arg5 : U8 m c (Proc.devRef .tc main_arg5) = m ((c.tc : Thread nD τ).loc main_arg5) :=
  U8_of m c main_arg5 (by decide)
theorem U8_arg6 : U8 m c (Proc.devRef .tc main_arg6) = m ((c.tc : Thread nD τ).loc main_arg6) :=
  U8_of m c main_arg6 (by decide)
theorem U8_arg7 : U8 m c (Proc.devRef .tc main_arg7) = m ((c.tc : Thread nD τ).loc main_arg7) :=
  U8_of m c main_arg7 (by decide)
theorem U8_arg8 : U8 m c (Proc.devRef .tc main_arg8) = m ((c.tc : Thread nD τ).loc main_arg8) :=
  U8_of m c main_arg8 (by decide)
theorem U8_arg9 : U8 m c (Proc.devRef .tc main_arg9) = m ((c.tc : Thread nD τ).loc main_arg9) :=
  U8_of m c main_arg9 (by decide)
theorem U8_arg10 : U8 m c (Proc.devRef .tc main_arg10) = m ((c.tc : Thread nD τ).loc main_arg10) :=
  U8_of m c main_arg10 (by decide)
theorem U8_arg11 : U8 m c (Proc.devRef .tc main_arg11) = m ((c.tc : Thread nD τ).loc main_arg11) :=
  U8_of m c main_arg11 (by decide)
theorem U8_arg12 : U8 m c (Proc.devRef .tc main_arg12) = m ((c.tc : Thread nD τ).loc main_arg12) :=
  U8_of m c main_arg12 (by decide)
theorem U8_arg13 : U8 m c (Proc.devRef .tc main_arg13) = m ((c.tc : Thread nD τ).loc main_arg13) :=
  U8_of m c main_arg13 (by decide)
theorem U8_arg14 : U8 m c (Proc.devRef .tc main_arg14) = m ((c.tc : Thread nD τ).loc main_arg14) :=
  U8_of m c main_arg14 (by decide)

end Chains

end Cert.ReferenceIdeal.Keeps

end
-- ==== Proof.LibConcatPieces.lean ====
/-
  Concatenations with their pieces as plain arguments.

  A concatenation takes its pieces as a list of (shape, contents) pairs, and the fact that the shapes fit is a
  statement about that list. So a piece's contents cannot be rewritten in place: rewriting inside the list changes the
  term the fitting fact is typed over. `cat2` and `cat3` are the concatenations of two and of three pieces with the
  shapes, the fitting fact and then the contents as plain arguments; `cat2_intro` and `cat3_intro` restate a
  concatenation of a literal list that way, by definition. With the two restating lemmas applied BEFORE a rewriting
  pass descends into a term (in a simp set: `↓cat2_intro`, `↓cat3_intro`), a pass that evaluates a line of host
  operations one result at a time goes on inside the pieces, where it otherwise stops. `concat2_congr` and
  `concat3_congr` are the congruence facts for the list form: a concatenation depends only on its pieces.
-/
import Idealize.ShloMosaic.PureOps.ShapeOps

noncomputable section

namespace Cert.LibConcatPieces

open Idealize.ShloMosaic

/-- The concatenation of two pieces along axis `a`. -/
def cat2 {α : Type} (t : Shape) (a : Fin t.rank) (s1 s2 : Shape) (h : Shape.Concatenates [s1, s2] t a)
    (u0 : s1.Idx → α) (u1 : s2.Idx → α) : t.Idx → α :=
  concatenate t a [⟨s1, u0⟩, ⟨s2, u1⟩] h

theorem cat2_intro {α : Type} (t : Shape) (a : Fin t.rank) (s1 s2 : Shape) (h : Shape.Concatenates [s1, s2] t a)
    (u0 : s1.Idx → α) (u1 : s2.Idx → α) : concatenate t a [⟨s1, u0⟩, ⟨s2, u1⟩] h = cat2 t a s1 s2 h u0 u1 := rfl

/-- The concatenation of three pieces along axis `a`. -/
def cat3 {α : Type} (t : Shape) (a : Fin t.rank) (s1 s2 s3 : Shape) (h : Shape.Concatenates [s1, s2, s3] t a)
    (u0 : s1.Idx → α) (u1 : s2.Idx → α) (u2 : s3.Idx → α) : t.Idx → α :=
  concatenate t a [⟨s1, u0⟩, ⟨s2, u1⟩, ⟨s3, u2⟩] h

theorem cat3_intro {α : Type} (t : Shape) (a : Fin t.rank) (s1 s2 s3 : Shape) (h : Shape.Concatenates [s1, s2, s3] t a)
    (u0 : s1.Idx → α) (u1 : s2.Idx → α) (u2 : s3.Idx → α) :
    concatenate t a [⟨s1, u0⟩, ⟨s2, u1⟩, ⟨s3, u2⟩] h = cat3 t a s1 s2 s3 h u0 u1 u2 := rfl

/-- A concatenation of two pieces depends only on the two pieces. -/
theorem concat2_congr {α : Type} (t : Shape) (a : Fin t.rank) (s1 s2 : Shape)
    (u0 A : s1.Idx → α) (u1 B : s2.Idx → α)
    (h : Shape.Concatenates [s1, s2] t a) (e0 : u0 = A) (e1 : u1 = B) :
    concatenate t a [⟨s1, u0⟩, ⟨s2, u1⟩] h = concatenate t a [⟨s1, A⟩, ⟨s2, B⟩] h := by
  subst e0 e1; rfl

/-- A concatenation of three pieces depends only on the three pieces. -/
theorem concat3_congr {α : Type} (t : Shape) (a : Fin t.rank) (s1 s2 s3 : Shape)
    (u0 A : s1.Idx → α) (u1 B : s2.Idx → α) (u2 C : s3.Idx → α)
    (h : Shape.Concatenates [s1, s2, s3] t a) (e0 : u0 = A) (e1 : u1 = B) (e2 : u2 = C) :
    concatenate t a [⟨s1, u0⟩, ⟨s2, u1⟩, ⟨s3, u2⟩] h = concatenate t a [⟨s1, A⟩, ⟨s2, B⟩, ⟨s3, C⟩] h := by
  subst e0 e1 e2; rfl

end Cert.LibConcatPieces

end
-- ==== Proof.SimTac.lean ====
/-
  Two programs that apply the same host operations to contents that agree on what the operations read produce the same
  contents. This module holds the one evaluation pass the comparison uses, and names for the two programs' contents.
-/
import proofs.«151144_j59914793779321_1_alg».proof.Proof.Gen.KernelIdeal.Frame
import proofs.«151144_j59914793779321_1_alg».proof.Proof.RefRunP
import proofs.«151144_j59914793779321_1_alg».proof.Proof.LibConcatPieces
import Idealize.ShloMosaic.PureOps.Ideal

noncomputable section

namespace Cert.Sim

open Idealize.ShloMosaic Idealize.ShloMosaic.TcCoe Idealize.SL.Sem Idealize.ShloMosaic.StableHlo

/-- One pass that evaluates a line of host operations at a buffer: each operation's result at its own buffer is its
    function of its operands' contents, and at any other buffer what was there; concatenations are restated with their
    pieces as plain arguments first, so that the pass goes on inside the pieces. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      ↓Cert.LibConcatPieces.cat2_intro, ↓Cert.LibConcatPieces.cat3_intro]))

/-- Buffer contents of the kernel program, at the exact extended reals. -/
abbrev KVal := Valuation Cert.KernelIdeal.τ Cert.KernelIdeal.sig (Elt Ideal)
/-- Buffer contents of the reference program, at the exact extended reals. -/
abbrev RVal := Valuation Cert.ReferenceIdeal.τ Cert.ReferenceIdeal.sig (Elt Ideal)

end Cert.Sim

end
-- ==== Proof.Sim1.lean ====
/-
  The edge list's two rows and the first layer's host operations, in both programs.
-/
import proofs.«151144_j59914793779321_1_alg».proof.Proof.SimTac

set_option maxRecDepth 16384

noncomputable section

namespace Cert.Sim

open Idealize.ShloMosaic Idealize.ShloMosaic.TcCoe Idealize.SL.Sem Idealize.ShloMosaic.StableHlo

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

/-- The source-node row of the edge list, cut out of it and flattened, is the same vector in both programs. -/
theorem stage0_v1 (WK : KVal) (WR : RVal)
    (h : WK (kref Cert.KernelIdeal.main_arg1) = WR (rref Cert.ReferenceIdeal.main_arg1)) :
    after Cert.KernelIdeal.Gen.hostOps0 WK (kref Cert.KernelIdeal.main_v1) = after Cert.ReferenceIdeal.ValueP.p0 WR (rref Cert.ReferenceIdeal.main_v1) := by
  eval_line
  rw [h]
  rfl

/-- The target-node row likewise. -/
theorem stage0_v3 (WK : KVal) (WR : RVal)
    (h : WK (kref Cert.KernelIdeal.main_arg1) = WR (rref Cert.ReferenceIdeal.main_arg1)) :
    after Cert.KernelIdeal.Gen.hostOps0 WK (kref Cert.KernelIdeal.main_v3) = after Cert.ReferenceIdeal.ValueP.p0 WR (rref Cert.ReferenceIdeal.main_v3) := by
  eval_line
  rw [h]
  rfl

set_option maxHeartbeats 4000000 in
/-- The first layer after its matrix product — self-loops appended, degrees counted, the inverse square roots gathered at
    both ends of every edge, the messages scaled and summed at the target nodes, the bias added, max(·, 0) — is the same
    function of the product, the two index vectors and the bias in both programs. -/
theorem layer1 (WK : KVal) (WR : RVal)
    (h4 : WK (kref Cert.KernelIdeal.main_v4) = WR (rref Cert.ReferenceIdeal.main_v4))
    (h1 : WK (kref Cert.KernelIdeal.main_v1) = WR (rref Cert.ReferenceIdeal.main_v1))
    (h3 : WK (kref Cert.KernelIdeal.main_v3) = WR (rref Cert.ReferenceIdeal.main_v3))
    (hb : WK (kref Cert.KernelIdeal.main_arg4) = WR (rref Cert.ReferenceIdeal.main_arg4)) :
    after Cert.KernelIdeal.Gen.hostOps1_3 (after Cert.KernelIdeal.Gen.hostOps1_2 (after Cert.KernelIdeal.Gen.hostOps1_1 (after Cert.KernelIdeal.Gen.hostOps1 WK))) (kref Cert.KernelIdeal.main_v47)
      = after Cert.ReferenceIdeal.ValueP.p2 WR (rref Cert.ReferenceIdeal.main_v47) := by
  eval_line
  rw [h4, h1, h3, hb]
  rfl

end Cert.Sim

end
-- ==== Proof.Sim2.lean ====
/-
  The second layer's host operations, in both programs.
-/
import proofs.«151144_j59914793779321_1_alg».proof.Proof.SimTac

set_option maxRecDepth 16384

noncomputable section

namespace Cert.Sim

open Idealize.ShloMosaic Idealize.ShloMosaic.TcCoe Idealize.SL.Sem Idealize.ShloMosaic.StableHlo

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

set_option maxHeartbeats 4000000 in
/-- The second layer after its matrix product is the same function of the product, the two index vectors and the bias
    in both programs. -/
theorem layer2 (WK : KVal) (WR : RVal)
    (h4 : WK (kref Cert.KernelIdeal.main_v48) = WR (rref Cert.ReferenceIdeal.main_v48))
    (h1 : WK (kref Cert.KernelIdeal.main_v1) = WR (rref Cert.ReferenceIdeal.main_v1))
    (h3 : WK (kref Cert.KernelIdeal.main_v3) = WR (rref Cert.ReferenceIdeal.main_v3))
    (hb : WK (kref Cert.KernelIdeal.main_arg6) = WR (rref Cert.ReferenceIdeal.main_arg6)) :
    after Cert.KernelIdeal.Gen.hostOps2_3 (after Cert.KernelIdeal.Gen.hostOps2_2 (after Cert.KernelIdeal.Gen.hostOps2_1 (after Cert.KernelIdeal.Gen.hostOps2 WK))) (kref Cert.KernelIdeal.main_v91)
      = after Cert.ReferenceIdeal.ValueP.p4 WR (rref Cert.ReferenceIdeal.main_v91) := by
  eval_line
  rw [h4, h1, h3, hb]
  rfl

end Cert.Sim

end
-- ==== Proof.Sim3a.lean ====
/-
  The third layer's host operations and the gather at the edges' source nodes, in both programs.
-/
import proofs.«151144_j59914793779321_1_alg».proof.Proof.SimTac

set_option maxRecDepth 16384

noncomputable section

namespace Cert.Sim

open Idealize.ShloMosaic Idealize.ShloMosaic.TcCoe Idealize.SL.Sem Idealize.ShloMosaic.StableHlo

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

set_option maxHeartbeats 4000000 in
/-- The third layer and the gather of its hidden states at every edge's SOURCE node: the kernel program's rows, which it
    then narrows to a shorter float format (the identity on the extended reals), are the reference's rows. -/
theorem layer3_src (WK : KVal) (WR : RVal)
    (h4 : WK (kref Cert.KernelIdeal.main_v92) = WR (rref Cert.ReferenceIdeal.main_v92))
    (h1 : WK (kref Cert.KernelIdeal.main_v1) = WR (rref Cert.ReferenceIdeal.main_v1))
    (h3 : WK (kref Cert.KernelIdeal.main_v3) = WR (rref Cert.ReferenceIdeal.main_v3))
    (hb : WK (kref Cert.KernelIdeal.main_arg8) = WR (rref Cert.ReferenceIdeal.main_arg8)) :
    (after Cert.KernelIdeal.Gen.hostOps3_4 (after Cert.KernelIdeal.Gen.hostOps3_3 (after Cert.KernelIdeal.Gen.hostOps3_2 (after Cert.KernelIdeal.Gen.hostOps3_1 (after Cert.KernelIdeal.Gen.hostOps3 WK)))) (kref Cert.KernelIdeal.main_v143) : (⟨Cert.ReferenceIdeal.S1600000x64, .f32⟩ : BufTy).Contents (Elt Ideal))
      = after Cert.ReferenceIdeal.ValueP.p6 WR (rref Cert.ReferenceIdeal.main_v142) := by
  eval_line
  rw [h4, h1, h3, hb]
  rfl

end Cert.Sim

end
-- ==== Proof.Sim3b.lean ====
/-
  The third layer's host operations and the gather at the edges' target nodes, in both programs; the edge attributes.
-/
import proofs.«151144_j59914793779321_1_alg».proof.Proof.SimTac

set_option maxRecDepth 16384

noncomputable section

namespace Cert.Sim

open Idealize.ShloMosaic Idealize.ShloMosaic.TcCoe Idealize.SL.Sem Idealize.ShloMosaic.StableHlo

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

set_option maxHeartbeats 4000000 in
/-- The same at every edge's TARGET node. -/
theorem layer3_dst (WK : KVal) (WR : RVal)
    (h4 : WK (kref Cert.KernelIdeal.main_v92) = WR (rref Cert.ReferenceIdeal.main_v92))
    (h1 : WK (kref Cert.KernelIdeal.main_v1) = WR (rref Cert.ReferenceIdeal.main_v1))
    (h3 : WK (kref Cert.KernelIdeal.main_v3) = WR (rref Cert.ReferenceIdeal.main_v3))
    (hb : WK (kref Cert.KernelIdeal.main_arg8) = WR (rref Cert.ReferenceIdeal.main_arg8)) :
    (after Cert.KernelIdeal.Gen.hostOps3_4 (after Cert.KernelIdeal.Gen.hostOps3_3 (after Cert.KernelIdeal.Gen.hostOps3_2 (after Cert.KernelIdeal.Gen.hostOps3_1 (after Cert.KernelIdeal.Gen.hostOps3 WK)))) (kref Cert.KernelIdeal.main_v151) : (⟨Cert.ReferenceIdeal.S1600000x64, .f32⟩ : BufTy).Contents (Elt Ideal))
      = after Cert.ReferenceIdeal.ValueP.p6 WR (rref Cert.ReferenceIdeal.main_v149) := by
  eval_line
  rw [h4, h1, h3, hb]
  rfl

set_option maxHeartbeats 4000000 in
/-- The edge attributes, narrowed to the shorter float format by the kernel program, are the edge attributes. -/
theorem layer3_attr (WK : KVal) :
    (after Cert.KernelIdeal.Gen.hostOps3_4 (after Cert.KernelIdeal.Gen.hostOps3_3 (after Cert.KernelIdeal.Gen.hostOps3_2 (after Cert.KernelIdeal.Gen.hostOps3_1 (after Cert.KernelIdeal.Gen.hostOps3 WK)))) (kref Cert.KernelIdeal.main_v152) : (⟨Cert.ReferenceIdeal.S1600000x16, .f32⟩ : BufTy).Contents (Elt Ideal))
      = WK (kref Cert.KernelIdeal.main_arg2) := by
  eval_line <;> rfl

end Cert.Sim

end
-- ==== Proof.SimMm.lean ====
/-
  The reference's three matrix products, each one host operation, from arbitrary incoming contents.
-/
import proofs.«151144_j59914793779321_1_alg».proof.Proof.SimTac
import proofs.«151144_j59914793779321_1_alg».proof.Proof.Gen.ReferenceIdeal

set_option maxRecDepth 16384

noncomputable section

namespace Cert.Sim

open Idealize.ShloMosaic Idealize.ShloMosaic.TcCoe Idealize.SL.Sem Idealize.ShloMosaic.StableHlo

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

/-- The reference's first matrix product, from the contents the piece finds. -/
theorem mm1R (WR : RVal) :
    after Cert.ReferenceIdeal.ValueP.p1 WR (rref Cert.ReferenceIdeal.main_v4)
      = Host.dotGeneral (F := Ideal) (φ₁ := .f32) (φ₂ := .f32) Cert.ReferenceIdeal.dot_S100000x128_S128x64_S100000x64_1_0_0_1_n_n none
          (WR (rref Cert.ReferenceIdeal.main_arg0)) (WR (rref Cert.ReferenceIdeal.main_arg3)) := by
  eval_line <;> rfl

/-- The second. -/
theorem mm2R (WR : RVal) :
    after Cert.ReferenceIdeal.ValueP.p3 WR (rref Cert.ReferenceIdeal.main_v48)
      = Host.dotGeneral (F := Ideal) (φ₁ := .f32) (φ₂ := .f32) Cert.ReferenceIdeal.dot_S100000x64_S64x64_S100000x64_1_0_0_1_n_n none
          (WR (rref Cert.ReferenceIdeal.main_v47)) (WR (rref Cert.ReferenceIdeal.main_arg5)) := by
  eval_line <;> rfl

/-- The third. -/
theorem mm3R (WR : RVal) :
    after Cert.ReferenceIdeal.ValueP.p5 WR (rref Cert.ReferenceIdeal.main_v92)
      = Host.dotGeneral (F := Ideal) (φ₁ := .f32) (φ₂ := .f32) Cert.ReferenceIdeal.dot_S100000x64_S64x64_S100000x64_1_0_0_1_n_n none
          (WR (rref Cert.ReferenceIdeal.main_v91)) (WR (rref Cert.ReferenceIdeal.main_arg7)) := by
  eval_line <;> rfl

end Cert.Sim

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.Mm0.lean ====
/-
  The first matrix-product region, read as one array.

  The region multiplies a 100000 × 128 matrix `A` by a 128 × 64 matrix `B` in ten steps: step `t` takes rows
  `10000 t … 10000 t + 9999` of `A`, the whole of `B`, and writes rows `10000 t … 10000 t + 9999` of the result. The
  entry `(p, j)` of a step's block is the sum over `k` of `A (10000 t + p, k) * B (k, j)` (the changes of float format
  are the identity on the extended reals, and the accumulator starts at zero), which is the entry `(10000 t + p, j)`
  of the product `A · B`. The ten row blocks are disjoint and cover the 100000 rows (row `r` lies in block
  `r / 10000`), so the array the region leaves is the product.
-/
import proofs.«151144_j59914793779321_1_alg».proof.Proof.Gen.KernelIdeal.Frame
import proofs.«151144_j59914793779321_1_alg».proof.Proof.Gen.ReferenceIdeal
import proofs.«151144_j59914793779321_1_alg».proof.Proof.LibMatmulIx
import proofs.«151144_j59914793779321_1_alg».proof.Proof.LibHostDotIx
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MmValue0

open Idealize.ShloMosaic Idealize.ShloMosaic.TcCoe Idealize.SL.Sem Idealize.ShloMosaic.ValueIdx
open Idealize.ShloMosaic.Pipeline (Dat)
open Cert.KernelIdeal Cert.KernelIdeal.Gen

/-- The zero offset of a rank-2 access. -/
theorem zero_off : (![0, 0] : Fin 2 → Nat) = fun _ => 0 := funext fun a => by fin_cases a <;> rfl

/-- The product of the whole matrices, as the reference computes it. -/
abbrev prod (A : FVec Ideal S100000x128 .f32) (B : FVec Ideal S128x64 .f32) : FVec Ideal S100000x64 .f32 :=
  Host.dotGeneral (F := Ideal) Cert.ReferenceIdeal.dot_S100000x128_S128x64_S100000x64_1_0_0_1_n_n none A B

/-- Entry `(e, j)` of the product is the sum over `k` of `A (e, k) * B (k, j)`. -/
theorem prod_apply (A : FVec Ideal S100000x128 .f32) (B : FVec Ideal S128x64 .f32) (e : Fin 100000) (j : Fin 64) :
    prod A B (ix2 e j) = ∑ k : Fin 128, A (ix2 e k) * B (ix2 k j) :=
  Cert.LibHostDotIx.dotGeneral_apply _ none A B e j

/-- Entry `(p, j)` of a step's block: the sum over `k` of the products of the row block's and the weight's entries. -/
theorem block_apply (x0 : Vec Ideal S10000x128 .f32) (x1 : Vec Ideal S128x64 .f32) (p : Fin 10000) (j : Fin 64) :
    k0_pay1 (F := Ideal) x0 x1 (ix2 p j) = ∑ k : Fin 128, x0 (ix2 p k) * x1 (ix2 k j) := by
  unfold k0_pay1
  exact Cert.LibMatmulIx.matmul_zero_apply _ none x0 x1 p j

/-- A step's block entry is the product's entry in the row the block's row stands for. -/
theorem block_eq_prod (A : FVec Ideal S100000x128 .f32) (B : FVec Ideal S128x64 .f32)
    (x0 : Vec Ideal S10000x128 .f32) (x1 : Vec Ideal S128x64 .f32) (e : Fin 100000) (p : Fin 10000) (j : Fin 64)
    (h0 : ∀ k : Fin 128, x0 (ix2 p k) = A (ix2 e k)) (h1 : ∀ k : Fin 128, x1 (ix2 k j) = B (ix2 k j)) :
    k0_pay1 (F := Ideal) x0 x1 (ix2 p j) = prod A B (ix2 e j) := by
  rw [block_apply, prod_apply]
  exact Finset.sum_congr rfl fun k _ => by rw [h0 k, h1 k]

/-- The block indices of the three windows at step `t`: the row blocks move with the step, the weight stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What step `t` writes back is block `t` of the product of the two arrays as the region finds them. -/
theorem flushed_eq (c : Dev nD) (t : Fin cfg0.N) :
    (dat0 (F := Ideal) V c).flushed 2 t
      = ((cfg0.win 2).blk t).view.read (Elt Ideal) (prod (V c (Pipeline.arrRef spec0 0)) (V c (Pipeline.arrRef spec0 1))) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x64) zero_off]
  obtain ⟨e0, e1, e2, e3, e4, e5⟩ := index_facts t
  have hN : cfg0.N = 10 := N_0
  have ht : t.val < 10 := hN ▸ t.isLt
  refine funext fun (y : S10000x64.Idx) => ?_
  obtain ⟨p, j, rfl⟩ : ∃ (p : Fin 10000) (j : Fin 64), y = ix2 p j := ⟨y 0, y 1, eq_ix2 y⟩
  have hemb : ((cfg0.win 2).blk t).view.emb (ix2 p j) = ix2 (⟨t.val * 10000 + p.val, by omega⟩ : Fin 100000) j := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 64 + 1 * j.val = j.val; rw [e5]; omega
  show k0_pay1 (F := Ideal) (iblk0 V c 0 t) (iblk0 V c 1 t) (ix2 p j)
    = prod (V c (Pipeline.arrRef spec0 0)) (V c (Pipeline.arrRef spec0 1)) (((cfg0.win 2).blk t).view.emb (ix2 p j))
  rw [hemb]
  refine block_eq_prod (V c (Pipeline.arrRef spec0 0)) (V c (Pipeline.arrRef spec0 1)) (iblk0 V c 0 t) (iblk0 V c 1 t)
    ⟨t.val * 10000 + p.val, by omega⟩ p j (fun k => ?_) (fun k => ?_)
  · show V c (Pipeline.arrRef spec0 0) (((cfg0.win 0).blk t).view.emb (ix2 p k)) = V c (Pipeline.arrRef spec0 0) _
    congr 1
    funext a; apply Fin.ext
    match a with
    | ⟨0, _⟩ => show win0_0.index t (0 : Fin 2) * 10000 + 1 * p.val = t.val * 10000 + p.val; rw [e0]; omega
    | ⟨1, _⟩ => show win0_0.index t (1 : Fin 2) * 128 + 1 * k.val = k.val; rw [e1]; omega
  · show V c (Pipeline.arrRef spec0 1) (((cfg0.win 1).blk t).view.emb (ix2 k j)) = V c (Pipeline.arrRef spec0 1) _
    congr 1
    funext a; apply Fin.ext
    match a with
    | ⟨0, _⟩ => show win0_1.index t (0 : Fin 2) * 128 + 1 * k.val = k.val; rw [e2]; omega
    | ⟨1, _⟩ => show win0_1.index t (1 : Fin 2) * 64 + 1 * j.val = j.val; rw [e3]; omega

/-- Row `r` of the result lies in the block of step `r / 10000`. -/
theorem cover (i : S100000x64.Idx) :
    ∃ t : Fin cfg0.N, (cfg0.win 2).flush t = true ∧ i ∈ ((cfg0.win 2).blk t).view.set := by
  have hN : cfg0.N = 10 := N_0
  have hi0 : (i 0).val < 100000 := idx2_lt0 i
  have hi1 : (i 1).val < 64 := idx2_lt1 i
  let t : Fin cfg0.N := ⟨(i 0).val / 10000, by rw [hN]; omega⟩
  obtain ⟨-, -, -, -, e4, e5⟩ := index_facts t
  have e4' : win0_2.index t (0 : Fin 2) = (i 0).val / 10000 := e4
  refine ⟨t, flush0_2 t, ?_⟩
  show i ∈ ((View.whole main_v4).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array the first matrix-product region leaves is the product of the two arrays it finds. -/
theorem region0_value (c : Dev nD) :
    (Gen.dat0 (F := Ideal) V c).arrAt 2 cfg0.N
      = Host.dotGeneral (F := Ideal) (φ₁ := .f32) (φ₂ := .f32)
          Cert.ReferenceIdeal.dot_S100000x128_S128x64_S100000x64_1_0_0_1_n_n none
          (V c (Pipeline.arrRef spec0 0)) (V c (Pipeline.arrRef spec0 1)) :=
  (dat0 (F := Ideal) V c).arrAt_eq_of_cover 2
    (prod (V c (Pipeline.arrRef spec0 0)) (V c (Pipeline.arrRef spec0 1))) (fun t _ => flushed_eq V c t) cover

end Cert.KernelIdeal.MmValue0

end
-- ==== Proof.Mm1.lean ====
/-
  The second matrix-product region, read as one array.

  The region multiplies a 100000 × 64 matrix `A` by a 64 × 64 matrix `B` in ten steps: step `t` takes rows
  `10000 t … 10000 t + 9999` of `A`, the whole of `B`, and writes rows `10000 t … 10000 t + 9999` of the result. The
  entry `(p, j)` of a step's block is the sum over `k` of `A (10000 t + p, k) * B (k, j)` (the reshaping of the row
  block to its own shape and the changes of float format are the identity on the extended reals, and the accumulator
  starts at zero), which is the entry `(10000 t + p, j)` of the product `A · B`. The ten row blocks are disjoint and
  cover the 100000 rows (row `r` lies in block `r / 10000`), so the array the region leaves is the product.
-/
import proofs.«151144_j59914793779321_1_alg».proof.Proof.Gen.KernelIdeal.Frame
import proofs.«151144_j59914793779321_1_alg».proof.Proof.Gen.ReferenceIdeal
import proofs.«151144_j59914793779321_1_alg».proof.Proof.LibMatmulIx
import proofs.«151144_j59914793779321_1_alg».proof.Proof.LibHostDotIx
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MmValue1

open Idealize.ShloMosaic Idealize.ShloMosaic.TcCoe Idealize.SL.Sem Idealize.ShloMosaic.ValueIdx
open Idealize.ShloMosaic.Pipeline (Dat)
open Cert.KernelIdeal Cert.KernelIdeal.Gen

/-- The zero offset of a rank-2 access. -/
theorem zero_off : (![0, 0] : Fin 2 → Nat) = fun _ => 0 := funext fun a => by fin_cases a <;> rfl

/-- The product of the whole matrices, as the reference computes it. -/
abbrev prod (A : FVec Ideal S100000x64 .f32) (B : FVec Ideal S64x64 .f32) : FVec Ideal S100000x64 .f32 :=
  Host.dotGeneral (F := Ideal) Cert.ReferenceIdeal.dot_S100000x64_S64x64_S100000x64_1_0_0_1_n_n none A B

/-- Entry `(e, j)` of the product is the sum over `k` of `A (e, k) * B (k, j)`. -/
theorem prod_apply (A : FVec Ideal S100000x64 .f32) (B : FVec Ideal S64x64 .f32) (e : Fin 100000) (j : Fin 64) :
    prod A B (ix2 e j) = ∑ k : Fin 64, A (ix2 e k) * B (ix2 k j) :=
  Cert.LibHostDotIx.dotGeneral_apply _ none A B e j

/-- Entry `(p, j)` of a step's block: the sum over `k` of the products of the row block's and the weight's entries. -/
theorem block_apply (x0 : Vec Ideal S10000x64 .f32) (x1 : Vec Ideal S64x64 .f32) (p : Fin 10000) (j : Fin 64) :
    k1_pay1 (F := Ideal) x0 x1 (ix2 p j) = ∑ k : Fin 64, x0 (ix2 p k) * x1 (ix2 k j) := by
  unfold k1_pay1
  rw [shapeCast_self]
  exact Cert.LibMatmulIx.matmul_zero_apply _ none x0 x1 p j

/-- A step's block entry is the product's entry in the row the block's row stands for. -/
theorem block_eq_prod (A : FVec Ideal S100000x64 .f32) (B : FVec Ideal S64x64 .f32)
    (x0 : Vec Ideal S10000x64 .f32) (x1 : Vec Ideal S64x64 .f32) (e : Fin 100000) (p : Fin 10000) (j : Fin 64)
    (h0 : ∀ k : Fin 64, x0 (ix2 p k) = A (ix2 e k)) (h1 : ∀ k : Fin 64, x1 (ix2 k j) = B (ix2 k j)) :
    k1_pay1 (F := Ideal) x0 x1 (ix2 p j) = prod A B (ix2 e j) := by
  rw [block_apply, prod_apply]
  exact Finset.sum_congr rfl fun k _ => by rw [h0 k, h1 k]

/-- The block indices of the three windows at step `t`: the row blocks move with the step, the weight stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What step `t` writes back is block `t` of the product of the two arrays as the region finds them. -/
theorem flushed_eq (c : Dev nD) (t : Fin cfg1.N) :
    (dat1 (F := Ideal) V c).flushed 2 t
      = ((cfg1.win 2).blk t).view.read (Elt Ideal) (prod (V c (Pipeline.arrRef spec1 0)) (V c (Pipeline.arrRef spec1 1))) := by
  show (cfg1.win 2).cut (grid1.coords t) ((dat1 V c).after 2 t) = _
  rw [after1_2]
  unfold out1_2
  rw [View.canon_unit_zero zero_off]
  simp only [View.ld_unit_zero (S := S10000x64) zero_off, View.ld_unit_zero (S := S64x64) zero_off]
  obtain ⟨e0, e1, e2, e3, e4, e5⟩ := index_facts t
  have hN : cfg1.N = 10 := N_1
  have ht : t.val < 10 := hN ▸ t.isLt
  refine funext fun (y : S10000x64.Idx) => ?_
  obtain ⟨p, j, rfl⟩ : ∃ (p : Fin 10000) (j : Fin 64), y = ix2 p j := ⟨y 0, y 1, eq_ix2 y⟩
  have hemb : ((cfg1.win 2).blk t).view.emb (ix2 p j) = ix2 (⟨t.val * 10000 + p.val, by omega⟩ : Fin 100000) j := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 64 + 1 * j.val = j.val; rw [e5]; omega
  show k1_pay1 (F := Ideal) (iblk1 V c 0 t) (iblk1 V c 1 t) (ix2 p j)
    = prod (V c (Pipeline.arrRef spec1 0)) (V c (Pipeline.arrRef spec1 1)) (((cfg1.win 2).blk t).view.emb (ix2 p j))
  rw [hemb]
  refine block_eq_prod (V c (Pipeline.arrRef spec1 0)) (V c (Pipeline.arrRef spec1 1)) (iblk1 V c 0 t) (iblk1 V c 1 t)
    ⟨t.val * 10000 + p.val, by omega⟩ p j (fun k => ?_) (fun k => ?_)
  · show V c (Pipeline.arrRef spec1 0) (((cfg1.win 0).blk t).view.emb (ix2 p k)) = V c (Pipeline.arrRef spec1 0) _
    congr 1
    funext a; apply Fin.ext
    match a with
    | ⟨0, _⟩ => show win1_0.index t (0 : Fin 2) * 10000 + 1 * p.val = t.val * 10000 + p.val; rw [e0]; omega
    | ⟨1, _⟩ => show win1_0.index t (1 : Fin 2) * 64 + 1 * k.val = k.val; rw [e1]; omega
  · show V c (Pipeline.arrRef spec1 1) (((cfg1.win 1).blk t).view.emb (ix2 k j)) = V c (Pipeline.arrRef spec1 1) _
    congr 1
    funext a; apply Fin.ext
    match a with
    | ⟨0, _⟩ => show win1_1.index t (0 : Fin 2) * 64 + 1 * k.val = k.val; rw [e2]; omega
    | ⟨1, _⟩ => show win1_1.index t (1 : Fin 2) * 64 + 1 * j.val = j.val; rw [e3]; omega

/-- Row `r` of the result lies in the block of step `r / 10000`. -/
theorem cover (i : S100000x64.Idx) :
    ∃ t : Fin cfg1.N, (cfg1.win 2).flush t = true ∧ i ∈ ((cfg1.win 2).blk t).view.set := by
  have hN : cfg1.N = 10 := N_1
  have hi0 : (i 0).val < 100000 := idx2_lt0 i
  have hi1 : (i 1).val < 64 := idx2_lt1 i
  let t : Fin cfg1.N := ⟨(i 0).val / 10000, by rw [hN]; omega⟩
  obtain ⟨-, -, -, -, e4, e5⟩ := index_facts t
  have e4' : win1_2.index t (0 : Fin 2) = (i 0).val / 10000 := e4
  refine ⟨t, flush1_2 t, ?_⟩
  show i ∈ ((View.whole main_v48).slice (win1_2.rect t)).set
  rw [View.set_slice_whole, Rect.mem_set_unit]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The array the second matrix-product region leaves is the product of the two arrays it finds. -/
theorem region1_value (c : Dev nD) :
    (Gen.dat1 (F := Ideal) V c).arrAt 2 cfg1.N
      = Host.dotGeneral (F := Ideal) (φ₁ := .f32) (φ₂ := .f32)
          Cert.ReferenceIdeal.dot_S100000x64_S64x64_S100000x64_1_0_0_1_n_n none
          (V c (Pipeline.arrRef spec1 0)) (V c (Pipeline.arrRef spec1 1)) :=
  (dat1 (F := Ideal) V c).arrAt_eq_of_cover 2
    (prod (V c (Pipeline.arrRef spec1 0)) (V c (Pipeline.arrRef spec1 1))) (fun t _ => flushed_eq V c t) cover

end Cert.KernelIdeal.MmValue1

end
-- ==== Proof.Mm2.lean ====
/-
  The third matrix-product region, read as one array.

  The region multiplies a 100000 × 64 matrix `A` by a 64 × 64 matrix `B` in ten steps: step `t` takes rows
  `10000 t … 10000 t + 9999` of `A`, the whole of `B`, and writes rows `10000 t … 10000 t + 9999` of the result. The
  entry `(p, j)` of a step's block is the sum over `k` of `A (10000 t + p, k) * B (k, j)` (the reshaping of the row
  block to its own shape and the changes of float format are the identity on the extended reals, and the accumulator
  starts at zero), which is the entry `(10000 t + p, j)` of the product `A · B`. The ten row blocks are disjoint and
  cover the 100000 rows (row `r` lies in block `r / 10000`), so the array the region leaves is the product.
-/
import proofs.«151144_j59914793779321_1_alg».proof.Proof.Gen.KernelIdeal.Frame
import proofs.«151144_j59914793779321_1_alg».proof.Proof.Gen.ReferenceIdeal
import proofs.«151144_j59914793779321_1_alg».proof.Proof.LibMatmulIx
import proofs.«151144_j59914793779321_1_alg».proof.Proof.LibHostDotIx
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MmValue2

open Idealize.ShloMosaic Idealize.ShloMosaic.TcCoe Idealize.SL.Sem Idealize.ShloMosaic.ValueIdx
open Idealize.ShloMosaic.Pipeline (Dat)
open Cert.KernelIdeal Cert.KernelIdeal.Gen

/-- The zero offset of a rank-2 access. -/
theorem zero_off : (![0, 0] : Fin 2 → Nat) = fun _ => 0 := funext fun a => by fin_cases a <;> rfl

/-- The product of the whole matrices, as the reference computes it. -/
abbrev prod (A : FVec Ideal S100000x64 .f32) (B : FVec Ideal S64x64 .f32) : FVec Ideal S100000x64 .f32 :=
  Host.dotGeneral (F := Ideal) Cert.ReferenceIdeal.dot_S100000x64_S64x64_S100000x64_1_0_0_1_n_n none A B

/-- Entry `(e, j)` of the product is the sum over `k` of `A (e, k) * B (k, j)`. -/
theorem prod_apply (A : FVec Ideal S100000x64 .f32) (B : FVec Ideal S64x64 .f32) (e : Fin 100000) (j : Fin 64) :
    prod A B (ix2 e j) = ∑ k : Fin 64, A (ix2 e k) * B (ix2 k j) :=
  Cert.LibHostDotIx.dotGeneral_apply _ none A B e j

/-- Entry `(p, j)` of a step's block: the sum over `k` of the products of the row block's and the weight's entries. -/
theorem block_apply (x0 : Vec Ideal S10000x64 .f32) (x1 : Vec Ideal S64x64 .f32) (p : Fin 10000) (j : Fin 64) :
    k2_pay1 (F := Ideal) x0 x1 (ix2 p j) = ∑ k : Fin 64, x0 (ix2 p k) * x1 (ix2 k j) := by
  unfold k2_pay1
  rw [shapeCast_self]
  exact Cert.LibMatmulIx.matmul_zero_apply _ none x0 x1 p j

/-- A step's block entry is the product's entry in the row the block's row stands for. -/
theorem block_eq_prod (A : FVec Ideal S100000x64 .f32) (B : FVec Ideal S64x64 .f32)
    (x0 : Vec Ideal S10000x64 .f32) (x1 : Vec Ideal S64x64 .f32) (e : Fin 100000) (p : Fin 10000) (j : Fin 64)
    (h0 : ∀ k : Fin 64, x0 (ix2 p k) = A (ix2 e k)) (h1 : ∀ k : Fin 64, x1 (ix2 k j) = B (ix2 k j)) :
    k2_pay1 (F := Ideal) x0 x1 (ix2 p j) = prod A B (ix2 e j) := by
  rw [block_apply, prod_apply]
  exact Finset.sum_congr rfl fun k _ => by rw [h0 k, h1 k]

/-- The block indices of the three windows at step `t`: the row blocks move with the step, the weight stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What step `t` writes back is block `t` of the product of the two arrays as the region finds them. -/
theorem flushed_eq (c : Dev nD) (t : Fin cfg2.N) :
    (dat2 (F := Ideal) V c).flushed 2 t
      = ((cfg2.win 2).blk t).view.read (Elt Ideal) (prod (V c (Pipeline.arrRef spec2 0)) (V c (Pipeline.arrRef spec2 1))) := by
  show (cfg2.win 2).cut (grid2.coords t) ((dat2 V c).after 2 t) = _
  rw [after2_2]
  unfold out2_2
  rw [View.canon_unit_zero zero_off]
  simp only [View.ld_unit_zero (S := S10000x64) zero_off, View.ld_unit_zero (S := S64x64) zero_off]
  obtain ⟨e0, e1, e2, e3, e4, e5⟩ := index_facts t
  have hN : cfg2.N = 10 := N_2
  have ht : t.val < 10 := hN ▸ t.isLt
  refine funext fun (y : S10000x64.Idx) => ?_
  obtain ⟨p, j, rfl⟩ : ∃ (p : Fin 10000) (j : Fin 64), y = ix2 p j := ⟨y 0, y 1, eq_ix2 y⟩
  have hemb : ((cfg2.win 2).blk t).view.emb (ix2 p j) = ix2 (⟨t.val * 10000 + p.val, by omega⟩ : Fin 100000) j := by
    funext a; apply Fin.ext
    match a with
    | ⟨0, _⟩ => show win2_2.index t (0 : Fin 2) * 10000 + 1 * p.val = t.val * 10000 + p.val; rw [e4]; omega
    | ⟨1, _⟩ => show win2_2.index t (1 : Fin 2) * 64 + 1 * j.val = j.val; rw [e5]; omega
  show k2_pay1 (F := Ideal) (iblk2 V c 0 t) (iblk2 V c 1 t) (ix2 p j)
    = prod (V c (Pipeline.arrRef spec2 0)) (V c (Pipeline.arrRef spec2 1)) (((cfg2.win 2).blk t).view.emb (ix2 p j))
  rw [hemb]
  refine block_eq_prod (V c (Pipeline.arrRef spec2 0)) (V c (Pipeline.arrRef spec2 1)) (iblk2 V c 0 t) (iblk2 V c 1 t)
    ⟨t.val * 10000 + p.val, by omega⟩ p j (fun k => ?_) (fun k => ?_)
  · show V c (Pipeline.arrRef spec2 0) (((cfg2.win 0).blk t).view.emb (ix2 p k)) = V c (Pipeline.arrRef spec2 0) _
    congr 1
    funext a; apply Fin.ext
    match a with
    | ⟨0, _⟩ => show win2_0.index t (0 : Fin 2) * 10000 + 1 * p.val = t.val * 10000 + p.val; rw [e0]; omega
    | ⟨1, _⟩ => show win2_0.index t (1 : Fin 2) * 64 + 1 * k.val = k.val; rw [e1]; omega
  · show V c (Pipeline.arrRef spec2 1) (((cfg2.win 1).blk t).view.emb (ix2 k j)) = V c (Pipeline.arrRef spec2 1) _
    congr 1
    funext a; apply Fin.ext
    match a with
    | ⟨0, _⟩ => show win2_1.index t (0 : Fin 2) * 64 + 1 * k.val = k.val; rw [e2]; omega
    | ⟨1, _⟩ => show win2_1.index t (1 : Fin 2) * 64 + 1 * j.val = j.val; rw [e3]; omega

/-- Row `r` of the result lies in the block of step `r / 10000`. -/
theorem cover (i : S100000x64.Idx) :
    ∃ t : Fin cfg2.N, (cfg2.win 2).flush t = true ∧ i ∈ ((cfg2.win 2).blk t).view.set := by
  have hN : cfg2.N = 10 := N_2
  have hi0 : (i 0).val < 100000 := idx2_lt0 i
  have hi1 : (i 1).val < 64 := idx2_lt1 i
  let t : Fin cfg2.N := ⟨(i 0).val / 10000, by rw [hN]; omega⟩
  obtain ⟨-, -, -, -, e4, e5⟩ := index_facts t
  have e4' : win2_2.index t (0 : Fin 2) = (i 0).val / 10000 := e4
  refine ⟨t, flush2_2 t, ?_⟩
  show i ∈ ((View.whole main_v92).slice (win2_2.rect t)).set
  rw [View.set_slice_whole, Rect.mem_set_unit]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array the third matrix-product region leaves is the product of the two arrays it finds. -/
theorem region2_value (c : Dev nD) :
    (Gen.dat2 (F := Ideal) V c).arrAt 2 cfg2.N
      = Host.dotGeneral (F := Ideal) (φ₁ := .f32) (φ₂ := .f32)
          Cert.ReferenceIdeal.dot_S100000x64_S64x64_S100000x64_1_0_0_1_n_n none
          (V c (Pipeline.arrRef spec2 0)) (V c (Pipeline.arrRef spec2 1)) :=
  (dat2 (F := Ideal) V c).arrAt_eq_of_cover 2
    (prod (V c (Pipeline.arrRef spec2 0)) (V c (Pipeline.arrRef spec2 1))) (fun t _ => flushed_eq V c t) cover

end Cert.KernelIdeal.MmValue2

end
-- ==== Proof.Bridge.lean ====
/-
  The kernel program's result is the reference program's result.

  Both programs walk the same line: the edge list's two rows; three graph-convolution layers, each a matrix product
  (a kernel launch in one program, one host operation in the other) followed by the same host operations; the gather of
  the hidden states at every edge's two end nodes; the edge classifier (a kernel launch in one program, fifteen host
  operations in the other). The buffer contents at the boundaries of that line are compared one boundary at a time:
  a kernel launch's output array is the host product (or the host classifier) of its input arrays, and a stretch of
  host operations maps contents that agree on what it reads to contents that agree on what it writes.
-/
import proofs.«151144_j59914793779321_1_alg».proof.Proof.Gen.KernelIdeal.Frame
import proofs.«151144_j59914793779321_1_alg».proof.Proof.RefFold
import proofs.«151144_j59914793779321_1_alg».proof.Proof.KeepsK
import proofs.«151144_j59914793779321_1_alg».proof.Proof.KeepsR
import proofs.«151144_j59914793779321_1_alg».proof.Proof.Sim1
import proofs.«151144_j59914793779321_1_alg».proof.Proof.Sim2
import proofs.«151144_j59914793779321_1_alg».proof.Proof.Sim3a
import proofs.«151144_j59914793779321_1_alg».proof.Proof.Sim3b
import proofs.«151144_j59914793779321_1_alg».proof.Proof.SimMm
import proofs.«151144_j59914793779321_1_alg».proof.Proof.Mm0
import proofs.«151144_j59914793779321_1_alg».proof.Proof.Mm1
import proofs.«151144_j59914793779321_1_alg».proof.Proof.Mm2

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen

local notation "kref" => Proc.devRef (τ := Cert.KernelIdeal.τ) (sig := Cert.KernelIdeal.sig) Proc.tc
local notation "rref" => Proc.devRef (τ := Cert.ReferenceIdeal.τ) (sig := Cert.ReferenceIdeal.sig) Proc.tc
local notation "RLoc" => Loc Cert.ReferenceIdeal.nD Cert.ReferenceIdeal.τ Cert.ReferenceIdeal.sig
local notation "RThread" => Thread Cert.ReferenceIdeal.nD Cert.ReferenceIdeal.τ

variable (m : (ℓ : Loc nD τ sig) → Buf (Elt Ideal) ℓ) (ρ : Dev nD → PrngReg)
variable (m' : (ℓ : RLoc) → Buf (Elt Ideal) ℓ) (c : Dev nD)

/-- The two launch memories agree on the fifteen argument arrays of device `c`. -/
structure Agree : Prop where
  e0 : m' ((c.tc : RThread).loc Cert.ReferenceIdeal.main_arg0) = m ((c.tc : Thread nD τ).loc main_arg0)
  e1 : m' ((c.tc : RThread).loc Cert.ReferenceIdeal.main_arg1) = m ((c.tc : Thread nD τ).loc main_arg1)
  e2 : m' ((c.tc : RThread).loc Cert.ReferenceIdeal.main_arg2) = m ((c.tc : Thread nD τ).loc main_arg2)
  e3 : m' ((c.tc : RThread).loc Cert.ReferenceIdeal.main_arg3) = m ((c.tc : Thread nD τ).loc main_arg3)
  e4 : m' ((c.tc : RThread).loc Cert.ReferenceIdeal.main_arg4) = m ((c.tc : Thread nD τ).loc main_arg4)
  e5 : m' ((c.tc : RThread).loc Cert.ReferenceIdeal.main_arg5) = m ((c.tc : Thread nD τ).loc main_arg5)
  e6 : m' ((c.tc : RThread).loc Cert.ReferenceIdeal.main_arg6) = m ((c.tc : Thread nD τ).loc main_arg6)
  e7 : m' ((c.tc : RThread).loc Cert.ReferenceIdeal.main_arg7) = m ((c.tc : Thread nD τ).loc main_arg7)
  e8 : m' ((c.tc : RThread).loc Cert.ReferenceIdeal.main_arg8) = m ((c.tc : Thread nD τ).loc main_arg8)
  e9 : m' ((c.tc : RThread).loc Cert.ReferenceIdeal.main_arg9) = m ((c.tc : Thread nD τ).loc main_arg9)
  e10 : m' ((c.tc : RThread).loc Cert.ReferenceIdeal.main_arg10) = m ((c.tc : Thread nD τ).loc main_arg10)
  e11 : m' ((c.tc : RThread).loc Cert.ReferenceIdeal.main_arg11) = m ((c.tc : Thread nD τ).loc main_arg11)
  e12 : m' ((c.tc : RThread).loc Cert.ReferenceIdeal.main_arg12) = m ((c.tc : Thread nD τ).loc main_arg12)
  e13 : m' ((c.tc : RThread).loc Cert.ReferenceIdeal.main_arg13) = m ((c.tc : Thread nD τ).loc main_arg13)
  e14 : m' ((c.tc : RThread).loc Cert.ReferenceIdeal.main_arg14) = m ((c.tc : Thread nD τ).loc main_arg14)

variable {m m' c}

/-- The edge list's source-node row. -/
theorem v1_eq (h : Agree m m' c) : W1 m ρ c (kref main_v1) = Cert.ReferenceIdeal.Fold.U1 m' c (rref Cert.ReferenceIdeal.main_v1) :=
  Cert.Sim.stage0_v1 (W0 m ρ c) (Cert.ReferenceIdeal.Fold.U0 m' c) h.e1.symm

/-- The edge list's target-node row. -/
theorem v3_eq (h : Agree m m' c) : W1 m ρ c (kref main_v3) = Cert.ReferenceIdeal.Fold.U1 m' c (rref Cert.ReferenceIdeal.main_v3) :=
  Cert.Sim.stage0_v3 (W0 m ρ c) (Cert.ReferenceIdeal.Fold.U0 m' c) h.e1.symm

/-- The first layer's matrix product: the kernel launch's output array is the host product of the node features and
    the first weight matrix, which is what the reference's one operation writes. -/
theorem v4_eq (h : Agree m m' c) : W2 m ρ c (kref main_v4) = Cert.ReferenceIdeal.Fold.U2 m' c (rref Cert.ReferenceIdeal.main_v4) := by
  have hk : W2 m ρ c (kref main_v4) = Host.dotGeneral (F := Ideal) (φ₁ := .f32) (φ₂ := .f32) Cert.ReferenceIdeal.dot_S100000x128_S128x64_S100000x64_1_0_0_1_n_n none (m ((c.tc : Thread nD τ).loc main_arg0)) (m ((c.tc : Thread nD τ).loc main_arg3)) := by
    refine (W2_arr m ρ c 2).trans ((Cert.KernelIdeal.MmValue0.region0_value (V1 m ρ) c).trans ?_)
    show Host.dotGeneral (F := Ideal) (φ₁ := .f32) (φ₂ := .f32) Cert.ReferenceIdeal.dot_S100000x128_S128x64_S100000x64_1_0_0_1_n_n none (W1 m ρ c (kref main_arg0)) (W1 m ρ c (kref main_arg3)) = _
    rw [Cert.KernelIdeal.Keeps.W1_arg0, Cert.KernelIdeal.Keeps.W1_arg3]
  have hr : Cert.ReferenceIdeal.Fold.U2 m' c (rref Cert.ReferenceIdeal.main_v4) = Host.dotGeneral (F := Ideal) (φ₁ := .f32) (φ₂ := .f32) Cert.ReferenceIdeal.dot_S100000x128_S128x64_S100000x64_1_0_0_1_n_n none (m' ((c.tc : RThread).loc Cert.ReferenceIdeal.main_arg0)) (m' ((c.tc : RThread).loc Cert.ReferenceIdeal.main_arg3)) := by
    rw [Cert.ReferenceIdeal.Fold.U2_def, Cert.Sim.mm1R, Cert.ReferenceIdeal.Keeps.U1_arg0, Cert.ReferenceIdeal.Keeps.U1_arg3]
  rw [hk, hr, h.e0, h.e3]

/-- The first layer. -/
theorem v47_eq (h : Agree m m' c) : W6 m ρ c (kref main_v47) = Cert.ReferenceIdeal.Fold.U3 m' c (rref Cert.ReferenceIdeal.main_v47) := by
  rw [Cert.ReferenceIdeal.Fold.U3_def]
  exact Cert.Sim.layer1 (W2 m ρ c) (Cert.ReferenceIdeal.Fold.U2 m' c) (v4_eq ρ h) ((Cert.KernelIdeal.Keeps.W2_v1 m ρ c).trans ((v1_eq ρ h).trans (Cert.ReferenceIdeal.Keeps.U2_v1 m' c).symm)) ((Cert.KernelIdeal.Keeps.W2_v3 m ρ c).trans ((v3_eq ρ h).trans (Cert.ReferenceIdeal.Keeps.U2_v3 m' c).symm)) ((Cert.KernelIdeal.Keeps.W2_arg4 m ρ c).trans (h.e4.symm.trans (Cert.ReferenceIdeal.Keeps.U2_arg4 m' c).symm))

/-- The second layer's matrix product. -/
theorem v48_eq (h : Agree m m' c) : W7 m ρ c (kref main_v48) = Cert.ReferenceIdeal.Fold.U4 m' c (rref Cert.ReferenceIdeal.main_v48) := by
  have hk : W7 m ρ c (kref main_v48) = Host.dotGeneral (F := Ideal) (φ₁ := .f32) (φ₂ := .f32) Cert.ReferenceIdeal.dot_S100000x64_S64x64_S100000x64_1_0_0_1_n_n none (W6 m ρ c (kref main_v47)) (m ((c.tc : Thread nD τ).loc main_arg5)) := by
    refine (W7_arr m ρ c 2).trans ((Cert.KernelIdeal.MmValue1.region1_value (V6 m ρ) c).trans ?_)
    show Host.dotGeneral (F := Ideal) (φ₁ := .f32) (φ₂ := .f32) Cert.ReferenceIdeal.dot_S100000x64_S64x64_S100000x64_1_0_0_1_n_n none (W6 m ρ c (kref main_v47)) (W6 m ρ c (kref main_arg5)) = _
    rw [Cert.KernelIdeal.Keeps.W6_arg5]
  have hr : Cert.ReferenceIdeal.Fold.U4 m' c (rref Cert.ReferenceIdeal.main_v48) = Host.dotGeneral (F := Ideal) (φ₁ := .f32) (φ₂ := .f32) Cert.ReferenceIdeal.dot_S100000x64_S64x64_S100000x64_1_0_0_1_n_n none (Cert.ReferenceIdeal.Fold.U3 m' c (rref Cert.ReferenceIdeal.main_v47)) (m' ((c.tc : RThread).loc Cert.ReferenceIdeal.main_arg5)) := by
    rw [Cert.ReferenceIdeal.Fold.U4_def, Cert.Sim.mm2R, Cert.ReferenceIdeal.Keeps.U3_arg5]
  rw [hk, hr, v47_eq ρ h, h.e5]

/-- The second layer. -/
theorem v91_eq (h : Agree m m' c) : W11 m ρ c (kref main_v91) = Cert.ReferenceIdeal.Fold.U5 m' c (rref Cert.ReferenceIdeal.main_v91) := by
  rw [Cert.ReferenceIdeal.Fold.U5_def]
  exact Cert.Sim.layer2 (W7 m ρ c) (Cert.ReferenceIdeal.Fold.U4 m' c) (v48_eq ρ h) ((Cert.KernelIdeal.Keeps.W7_v1 m ρ c).trans ((v1_eq ρ h).trans (Cert.ReferenceIdeal.Keeps.U4_v1 m' c).symm)) ((Cert.KernelIdeal.Keeps.W7_v3 m ρ c).trans ((v3_eq ρ h).trans (Cert.ReferenceIdeal.Keeps.U4_v3 m' c).symm)) ((Cert.KernelIdeal.Keeps.W7_arg6 m ρ c).trans (h.e6.symm.trans (Cert.ReferenceIdeal.Keeps.U4_arg6 m' c).symm))

/-- The third layer's matrix product. -/
theorem v92_eq (h : Agree m m' c) : W12 m ρ c (kref main_v92) = Cert.ReferenceIdeal.Fold.U6 m' c (rref Cert.ReferenceIdeal.main_v92) := by
  have hk : W12 m ρ c (kref main_v92) = Host.dotGeneral (F := Ideal) (φ₁ := .f32) (φ₂ := .f32) Cert.ReferenceIdeal.dot_S100000x64_S64x64_S100000x64_1_0_0_1_n_n none (W11 m ρ c (kref main_v91)) (m ((c.tc : Thread nD τ).loc main_arg7)) := by
    refine (W12_arr m ρ c 2).trans ((Cert.KernelIdeal.MmValue2.region2_value (V11 m ρ) c).trans ?_)
    show Host.dotGeneral (F := Ideal) (φ₁ := .f32) (φ₂ := .f32) Cert.ReferenceIdeal.dot_S100000x64_S64x64_S100000x64_1_0_0_1_n_n none (W11 m ρ c (kref main_v91)) (W11 m ρ c (kref main_arg7)) = _
    rw [Cert.KernelIdeal.Keeps.W11_arg7]
  have hr : Cert.ReferenceIdeal.Fold.U6 m' c (rref Cert.ReferenceIdeal.main_v92) = Host.dotGeneral (F := Ideal) (φ₁ := .f32) (φ₂ := .f32) Cert.ReferenceIdeal.dot_S100000x64_S64x64_S100000x64_1_0_0_1_n_n none (Cert.ReferenceIdeal.Fold.U5 m' c (rref Cert.ReferenceIdeal.main_v91)) (m' ((c.tc : RThread).loc Cert.ReferenceIdeal.main_arg7)) := by
    rw [Cert.ReferenceIdeal.Fold.U6_def, Cert.Sim.mm3R, Cert.ReferenceIdeal.Keeps.U5_arg7]
  rw [hk, hr, v91_eq ρ h, h.e7]

/-- The third layer's hidden states gathered at every edge's source node. -/
theorem src_eq (h : Agree m m' c) :
    (W17 m ρ c (kref main_v143) : (⟨Cert.ReferenceIdeal.S1600000x64, .f32⟩ : BufTy).Contents (Elt Ideal)) = Cert.ReferenceIdeal.Fold.U7 m' c (rref Cert.ReferenceIdeal.main_v142) := by
  rw [Cert.ReferenceIdeal.Fold.U7_def]
  exact Cert.Sim.layer3_src (W12 m ρ c) (Cert.ReferenceIdeal.Fold.U6 m' c) (v92_eq ρ h) ((Cert.KernelIdeal.Keeps.W12_v1 m ρ c).trans ((v1_eq ρ h).trans (Cert.ReferenceIdeal.Keeps.U6_v1 m' c).symm)) ((Cert.KernelIdeal.Keeps.W12_v3 m ρ c).trans ((v3_eq ρ h).trans (Cert.ReferenceIdeal.Keeps.U6_v3 m' c).symm)) ((Cert.KernelIdeal.Keeps.W12_arg8 m ρ c).trans (h.e8.symm.trans (Cert.ReferenceIdeal.Keeps.U6_arg8 m' c).symm))

/-- The same at every edge's target node. -/
theorem dst_eq (h : Agree m m' c) :
    (W17 m ρ c (kref main_v151) : (⟨Cert.ReferenceIdeal.S1600000x64, .f32⟩ : BufTy).Contents (Elt Ideal)) = Cert.ReferenceIdeal.Fold.U7 m' c (rref Cert.ReferenceIdeal.main_v149) := by
  rw [Cert.ReferenceIdeal.Fold.U7_def]
  exact Cert.Sim.layer3_dst (W12 m ρ c) (Cert.ReferenceIdeal.Fold.U6 m' c) (v92_eq ρ h) ((Cert.KernelIdeal.Keeps.W12_v1 m ρ c).trans ((v1_eq ρ h).trans (Cert.ReferenceIdeal.Keeps.U6_v1 m' c).symm)) ((Cert.KernelIdeal.Keeps.W12_v3 m ρ c).trans ((v3_eq ρ h).trans (Cert.ReferenceIdeal.Keeps.U6_v3 m' c).symm)) ((Cert.KernelIdeal.Keeps.W12_arg8 m ρ c).trans (h.e8.symm.trans (Cert.ReferenceIdeal.Keeps.U6_arg8 m' c).symm))

/-- The edge attributes as the classifier's launch finds them. -/
theorem attr_eq (h : Agree m m' c) :
    (W17 m ρ c (kref main_v152) : (⟨Cert.ReferenceIdeal.S1600000x16, .f32⟩ : BufTy).Contents (Elt Ideal)) = Cert.ReferenceIdeal.Fold.U7 m' c (rref Cert.ReferenceIdeal.main_arg2) :=
  (Cert.Sim.layer3_attr (W12 m ρ c)).trans ((Cert.KernelIdeal.Keeps.W12_arg2 m ρ c).trans (h.e2.symm.trans (Cert.ReferenceIdeal.Keeps.U7_arg2 m' c).symm))

end Cert.Bridge

end
-- ==== Proof.EdgeSpec.lean ====
/-
  The edge classifier of the network as ONE function of whole arrays, written with the host operations of the
  reference program: the three feature blocks of every edge (the hidden state of its source node, of its target
  node, its own attributes) are joined side by side into 144 columns, and three dense layers follow,
  144 → 64 → 32 → 2, each a matrix product plus a bias row, the first two followed by max(·, 0).
-/
import proofs.«151144_j59914793779321_1_alg».proof.Proof.Gen.ReferenceIdeal
import Idealize.ShloMosaic.PureOps.Ideal
import Idealize.ShloMosaic.Lib.ValueIdx

noncomputable section

namespace Cert.EdgeSpec

open Idealize.ShloMosaic Idealize.ShloMosaic.ValueIdx Cert.ReferenceIdeal Cert.ReferenceIdeal.Gen

variable {F : FTy → Type} [FloatOps F]

/-- `edgeMlp hs hd ea w1 b1 w2 b2 w3 b3`: row `e` of the result is
    `max(max([hs e | hd e | ea e] · w1 + b1, 0) · w2 + b2, 0) · w3 + b3`. -/
def edgeMlp (hs hd : (⟨S1600000x64, .f32⟩ : BufTy).Contents (Elt F)) (ea : (⟨S1600000x16, .f32⟩ : BufTy).Contents (Elt F))
    (w1 : (⟨S144x64, .f32⟩ : BufTy).Contents (Elt F)) (b1 : (⟨S64, .f32⟩ : BufTy).Contents (Elt F))
    (w2 : (⟨S64x32, .f32⟩ : BufTy).Contents (Elt F)) (b2 : (⟨S32, .f32⟩ : BufTy).Contents (Elt F))
    (w3 : (⟨S32x2, .f32⟩ : BufTy).Contents (Elt F)) (b3 : (⟨S2, .f32⟩ : BufTy).Contents (Elt F)) :
    (⟨S1600000x2, .f32⟩ : BufTy).Contents (Elt F) :=
  addf
    (Host.dotGeneral dot_S1600000x32_S32x2_S1600000x2_1_0_0_1_n_n none
      (maximumf
        (addf
          (Host.dotGeneral dot_S1600000x64_S64x32_S1600000x32_1_0_0_1_n_n none
            (maximumf
              (addf
                (Host.dotGeneral dot_S1600000x144_S144x64_S1600000x64_1_0_0_1_n_n none
                  (concatenate S1600000x144 1 [⟨S1600000x64, hs⟩, ⟨S1600000x64, hd⟩, ⟨S1600000x16, ea⟩]
                    concatenates_S1600000x64_S1600000x64_S1600000x16_S1600000x144_d1)
                  w1)
                (broadcastInDim S1600000x64 ![0, 1] bcast_S1x64_S1600000x64_0_1 (broadcastInDim S1x64 ![1] bcast_S64_S1x64_1 b1)))
              (broadcastInDim S1600000x64 ![] bcast_S_S1600000x64 (constant S_ .f32 0x00000000#32)))
            w2)
          (broadcastInDim S1600000x32 ![0, 1] bcast_S1x32_S1600000x32_0_1 (broadcastInDim S1x32 ![1] bcast_S32_S1x32_1 b2)))
        (broadcastInDim S1600000x32 ![] bcast_S_S1600000x32 (constant S_ .f32 0x00000000#32)))
      w3)
    (broadcastInDim S1600000x2 ![0, 1] bcast_S1x2_S1600000x2_0_1 (broadcastInDim S1x2 ![1] bcast_S2_S1x2_1 b3))

/-- The 144 joined features of one edge: the 64 of its source node, the 64 of its target node, its own 16. -/
def joined (s d : Fin 64 → EReal) (a : Fin 16 → EReal) (k : Fin 144) : EReal :=
  if h1 : k.val < 64 then s ⟨k.val, h1⟩
  else if h2 : k.val < 128 then d ⟨k.val - 64, by have := k.isLt; omega⟩
  else a ⟨k.val - 128, by have := k.isLt; omega⟩

/-- One edge through the three dense layers, over the extended reals: component `j` of
    `max(max(joined · w1 + b1, 0) · w2 + b2, 0) · w3 + b3`. -/
def mlpAt (s d : Fin 64 → EReal) (a : Fin 16 → EReal)
    (w1 : (⟨2, ![144, 64]⟩ : Shape).Idx → EReal) (b1 : (⟨1, ![64]⟩ : Shape).Idx → EReal)
    (w2 : (⟨2, ![64, 32]⟩ : Shape).Idx → EReal) (b2 : (⟨1, ![32]⟩ : Shape).Idx → EReal)
    (w3 : (⟨2, ![32, 2]⟩ : Shape).Idx → EReal) (b3 : (⟨1, ![2]⟩ : Shape).Idx → EReal) (j : Fin 2) : EReal :=
  (∑ k3 : Fin 32,
      max ((∑ k2 : Fin 64,
              max ((∑ k1 : Fin 144, joined s d a k1 * w1 (ix2 k1 k2)) + b1 (ix1 k2)) 0 * w2 (ix2 k2 k3))
            + b2 (ix1 k3)) 0
        * w3 (ix2 k3 j))
    + b3 (ix1 j)

end Cert.EdgeSpec

end
-- ==== Proof.SimMlp.lean ====
/-
  The reference's last piece of host operations is the specification's edge classifier.
-/
import proofs.«151144_j59914793779321_1_alg».proof.Proof.SimTac
import proofs.«151144_j59914793779321_1_alg».proof.Proof.EdgeSpec

set_option maxRecDepth 16384

noncomputable section

namespace Cert.Sim

open Idealize.ShloMosaic Idealize.ShloMosaic.TcCoe Idealize.SL.Sem Idealize.ShloMosaic.StableHlo

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

/-- The reference's last piece is the edge classifier of the specification, applied to the two gathered row blocks, the
    edge attributes and the six parameter arrays as the piece finds them. -/
theorem mlpR (WR : RVal) :
    after Cert.ReferenceIdeal.ValueP.p7 WR (rref Cert.ReferenceIdeal.main_v164)
      = Cert.EdgeSpec.edgeMlp (F := Ideal) (WR (rref Cert.ReferenceIdeal.main_v142)) (WR (rref Cert.ReferenceIdeal.main_v149)) (WR (rref Cert.ReferenceIdeal.main_arg2))
          (WR (rref Cert.ReferenceIdeal.main_arg9)) (WR (rref Cert.ReferenceIdeal.main_arg10)) (WR (rref Cert.ReferenceIdeal.main_arg11)) (WR (rref Cert.ReferenceIdeal.main_arg12))
          (WR (rref Cert.ReferenceIdeal.main_arg13)) (WR (rref Cert.ReferenceIdeal.main_arg14)) := by
  eval_line <;> rfl

end Cert.Sim

end
-- ==== Proof.LibConcat3Cols.lean ====
/-
  Three matrices with the same rows laid side by side, read at one index.

  For pieces `[R, A]`, `[R, B]`, `[R, C]` and a result `[R, T]` (the side condition forces `T = A + B + C`): at a
  column below `A` the result reads the first piece there; at column `A + k'`, `k' < B`, the second piece at `k'`;
  at column `A + B + k'`, `k' < C`, the third piece at `k'`. The row is the same in all three.
-/
import Idealize.ShloMosaic.PureOps.Ideal
import Idealize.ShloMosaic.Lib.ValueIdx
import Idealize.ShloMosaic.Lib.Pipeline.Value

noncomputable section

namespace Cert.LibConcat3Cols

open Idealize.ShloMosaic Idealize.ShloMosaic.ValueIdx

variable {α : Type}

/-- The side condition of a three-piece side-by-side concatenation gives the result's width. -/
theorem concatenates_cols3_width {R A B C T : Nat}
    (h : Shape.Concatenates [⟨2, ![R, A]⟩, ⟨2, ![R, B]⟩, ⟨2, ![R, C]⟩] ⟨2, ![R, T]⟩ 1) : A + B + C = T := by
  have h2 : A + (B + (C + 0)) = T := h.2.2
  omega

/-- At a column below the first width: the first matrix at the same row and column. -/
theorem concatenate_cols3_apply_first {R A B C T : Nat}
    (x₁ : (⟨2, ![R, A]⟩ : Shape).Idx → α) (x₂ : (⟨2, ![R, B]⟩ : Shape).Idx → α) (x₃ : (⟨2, ![R, C]⟩ : Shape).Idx → α)
    (h : Shape.Concatenates [⟨2, ![R, A]⟩, ⟨2, ![R, B]⟩, ⟨2, ![R, C]⟩] ⟨2, ![R, T]⟩ 1)
    (r : Fin R) (k : Fin T) (k' : Fin A) (hk : k.val = k'.val) :
    concatenate ⟨2, ![R, T]⟩ 1 [⟨⟨2, ![R, A]⟩, x₁⟩, ⟨⟨2, ![R, B]⟩, x₂⟩, ⟨⟨2, ![R, C]⟩, x₃⟩] h (ix2 r k)
      = x₁ (ix2 r k') :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r k)
    0 (show (0 : ℕ) < 3 by omega) ⟨2, ![R, A]⟩ x₁ rfl rfl 0 rfl (ix2 r k')
    (fun b hb => match b, hb with
      | ⟨0, _⟩, _ => rfl
      | ⟨1, _⟩, hb => (hb rfl).elim)
    (by show 0 + k'.val = k.val; omega)

/-- At column `A + k'`: the second matrix at the same row and column `k'`. -/
theorem concatenate_cols3_apply_second {R A B C T : Nat}
    (x₁ : (⟨2, ![R, A]⟩ : Shape).Idx → α) (x₂ : (⟨2, ![R, B]⟩ : Shape).Idx → α) (x₃ : (⟨2, ![R, C]⟩ : Shape).Idx → α)
    (h : Shape.Concatenates [⟨2, ![R, A]⟩, ⟨2, ![R, B]⟩, ⟨2, ![R, C]⟩] ⟨2, ![R, T]⟩ 1)
    (r : Fin R) (k : Fin T) (k' : Fin B) (hk : k.val = A + k'.val) :
    concatenate ⟨2, ![R, T]⟩ 1 [⟨⟨2, ![R, A]⟩, x₁⟩, ⟨⟨2, ![R, B]⟩, x₂⟩, ⟨⟨2, ![R, C]⟩, x₃⟩] h (ix2 r k)
      = x₂ (ix2 r k') :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r k)
    1 (show (1 : ℕ) < 3 by omega) ⟨2, ![R, B]⟩ x₂ rfl rfl A
    (by show A + 0 = A; omega) (ix2 r k')
    (fun b hb => match b, hb with
      | ⟨0, _⟩, _ => rfl
      | ⟨1, _⟩, hb => (hb rfl).elim)
    (by show A + k'.val = k.val; omega)

/-- At column `A + B + k'`: the third matrix at the same row and column `k'`. -/
theorem concatenate_cols3_apply_third {R A B C T : Nat}
    (x₁ : (⟨2, ![R, A]⟩ : Shape).Idx → α) (x₂ : (⟨2, ![R, B]⟩ : Shape).Idx → α) (x₃ : (⟨2, ![R, C]⟩ : Shape).Idx → α)
    (h : Shape.Concatenates [⟨2, ![R, A]⟩, ⟨2, ![R, B]⟩, ⟨2, ![R, C]⟩] ⟨2, ![R, T]⟩ 1)
    (r : Fin R) (k : Fin T) (k' : Fin C) (hk : k.val = A + B + k'.val) :
    concatenate ⟨2, ![R, T]⟩ 1 [⟨⟨2, ![R, A]⟩, x₁⟩, ⟨⟨2, ![R, B]⟩, x₂⟩, ⟨⟨2, ![R, C]⟩, x₃⟩] h (ix2 r k)
      = x₃ (ix2 r k') :=
  concatenate_apply_piece (t := ⟨2, ![R, T]⟩) (1 : Fin 2) [⟨⟨2, ![R, A]⟩, x₁⟩, ⟨⟨2, ![R, B]⟩, x₂⟩, ⟨⟨2, ![R, C]⟩, x₃⟩] h (ix2 r k)
    2 (show (2 : ℕ) < 3 by omega) ⟨2, ![R, C]⟩ x₃ rfl rfl (A + B)
    (by show A + (B + 0) = A + B; omega) (ix2 r k')
    (fun b hb => match b, hb with
      | ⟨0, _⟩, _ => rfl
      | ⟨1, _⟩, hb => (hb rfl).elim)
    (by show A + B + k'.val = k.val; omega)

end Cert.LibConcat3Cols

end
-- ==== Proof.MlpPay.lean ====
/-
  The body of the edge classifier read at one entry.

  The body joins the three feature blocks of its 8000 edges side by side into 144 columns and applies three dense
  layers, 144 → 64 → 32 → 2: each layer is a matrix product accumulated into the zero array plus a bias row spread over
  the edges, and the first two are followed by the maximum with zero. The format changes between the layers are the
  identity on the extended reals. Entry (y, j) of the result is therefore the shared pointwise formula of one edge,
  `Cert.EdgeSpec.mlpAt`, at the rows y of the three feature blocks.
-/
import proofs.«151144_j59914793779321_1_alg».proof.Proof.Gen.KernelIdeal.Skeleton
import proofs.«151144_j59914793779321_1_alg».proof.Proof.EdgeSpec
import proofs.«151144_j59914793779321_1_alg».proof.Proof.LibMatmulIx
import proofs.«151144_j59914793779321_1_alg».proof.Proof.LibConcat3Cols
import Idealize.ShloMosaic.Lib.ValueLayout
import Idealize.ShloMosaic.PureOps.Ideal.Laws

noncomputable section

open scoped BigOperators

namespace Cert.KernelIdeal.MlpValue

open Idealize.ShloMosaic Idealize.ShloMosaic.ValueIdx Cert.KernelIdeal

/-- One dense layer at entry `(a, n)`: the product of an `M × K` matrix with a `K × N` weight matrix (whose format
    change is the identity), accumulated into the zero array, plus the bias row spread over the `M` rows, is the sum
    over the contracted coordinate of the products of the entries, plus the bias at `n`. -/
theorem dense_apply {M K N : ℕ} {φ₁ : FTy}
    (w : DotDims.WF ⟨2, ![M, K]⟩ ⟨2, ![K, N]⟩ ⟨2, ![M, N]⟩ [1] [0] [0] [1] [] [])
    (A : FVec Ideal ⟨2, ![M, K]⟩ φ₁) (W : FVec Ideal ⟨2, ![K, N]⟩ .f32) (hlt : FTy.bits .bf16 < FTy.bits .f32)
    (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (a : Fin M) (n : Fin N) :
    addf (matmul (⟨[1], [0], [0], [1], [], [], w⟩ : DotDims _ _ _) none A (truncf .bf16 W hlt : FVec Ideal ⟨2, ![K, N]⟩ .bf16)
            (constant (F := Ideal) ⟨2, ![M, N]⟩ .f32 0x00000000#32))
         (broadcastTo ⟨2, ![M, N]⟩ (shapeCast ⟨2, ![1, N]⟩ b hc) hb : FVec Ideal ⟨2, ![M, N]⟩ .f32) (ix2 a n)
      = (∑ c : Fin K, A (ix2 a c) * W (ix2 c n)) + b (ix1 n) := by
  rw [addf_apply, Cert.LibMatmulIx.matmul_zero_apply w none A _ a n, broadcastTo_1b_ab_apply, shapeCast_a_1a_apply]
  rfl

/-- The maximum with the zero splat, followed by a format change, at an index: the maximum of the entry and `0`. -/
theorem relu_apply {s : Shape} (X : FVec Ideal s .f32) (hlt : FTy.bits .bf16 < FTy.bits .f32) (i : s.Idx) :
    (truncf .bf16 (maximumf X (broadcast s (Scalar.ofBits (F := Ideal) .f32 0x00000000#32))) hlt : FVec Ideal s .bf16) i
      = max (X i) 0 := by
  show max (X i) (Ideal.ofBits .f32 0x00000000#32) = max (X i) 0
  rw [Ideal.ofBits_zero_f32]

/-- The three feature blocks joined side by side, at row `y` and column `k`: column `k` of the 144 joined features
    of the rows `y` of the three blocks. -/
theorem joined_apply {R : ℕ} (x0 x1 : (⟨2, ![R, 64]⟩ : Shape).Idx → EReal) (x2 : (⟨2, ![R, 16]⟩ : Shape).Idx → EReal)
    (h0 : (⟨2, ![R, 64]⟩ : Shape).ShapeCasts ⟨2, ![R, 64]⟩) (h2 : (⟨2, ![R, 16]⟩ : Shape).ShapeCasts ⟨2, ![R, 16]⟩)
    (h : Shape.Concatenates [⟨2, ![R, 64]⟩, ⟨2, ![R, 64]⟩, ⟨2, ![R, 16]⟩] ⟨2, ![R, 144]⟩ 1)
    (y : Fin R) (k : Fin 144) :
    concatenate ⟨2, ![R, 144]⟩ 1 [⟨⟨2, ![R, 64]⟩, shapeCast ⟨2, ![R, 64]⟩ x0 h0⟩, ⟨⟨2, ![R, 64]⟩, shapeCast ⟨2, ![R, 64]⟩ x1 h0⟩,
        ⟨⟨2, ![R, 16]⟩, shapeCast ⟨2, ![R, 16]⟩ x2 h2⟩] h (ix2 y k)
      = Cert.EdgeSpec.joined (fun c => x0 (ix2 y c)) (fun c => x1 (ix2 y c)) (fun c => x2 (ix2 y c)) k := by
  rw [shapeCast_self, shapeCast_self, shapeCast_self]
  unfold Cert.EdgeSpec.joined
  by_cases h1 : k.val < 64
  · rw [dif_pos h1]
    exact Cert.LibConcat3Cols.concatenate_cols3_apply_first x0 x1 x2 h y k ⟨k.val, h1⟩ rfl
  · rw [dif_neg h1]
    by_cases h2' : k.val < 128
    · rw [dif_pos h2']
      exact Cert.LibConcat3Cols.concatenate_cols3_apply_second x0 x1 x2 h y k ⟨k.val - 64, by have := k.isLt; omega⟩
        (by show k.val = 64 + (k.val - 64); omega)
    · rw [dif_neg h2']
      exact Cert.LibConcat3Cols.concatenate_cols3_apply_third x0 x1 x2 h y k ⟨k.val - 128, by have := k.isLt; omega⟩
        (by show k.val = 64 + 64 + (k.val - 128); omega)

/-- The body's result at entry `(y, j)`: edge `y` of the block through the three layers, component `j`. -/
theorem pay_apply (x0 x1 : Vec Ideal S8000x64 .bf16) (x2 : Vec Ideal S8000x16 .bf16) (w1 : Vec Ideal S144x64 .f32)
    (b1 : Vec Ideal S64 .f32) (w2 : Vec Ideal S64x32 .f32) (b2 : Vec Ideal S32 .f32) (w3 : Vec Ideal S32x2 .f32)
    (b3 : Vec Ideal S2 .f32) (y : Fin 8000) (j : Fin 2) :
    Gen.k3_pay1 (F := Ideal) x0 x1 x2 w1 b1 w2 b2 w3 b3 (ix2 y j)
      = Cert.EdgeSpec.mlpAt (fun k => x0 (ix2 y k)) (fun k => x1 (ix2 y k)) (fun k => x2 (ix2 y k)) w1 b1 w2 b2 w3 b3 j := by
  unfold Gen.k3_pay1 Cert.EdgeSpec.mlpAt
  refine (dense_apply _ _ _ _ _ _ _ y j).trans ?_
  refine congrArg (· + b3 (ix1 j)) (Finset.sum_congr rfl fun k3 _ => congrArg (· * w3 (ix2 k3 j)) ?_)
  refine (relu_apply _ _ _).trans (congrArg (max · 0) ?_)
  refine (dense_apply _ _ _ _ _ _ _ y k3).trans ?_
  refine congrArg (· + b2 (ix1 k3)) (Finset.sum_congr rfl fun k2 _ => congrArg (· * w2 (ix2 k2 k3)) ?_)
  refine (relu_apply _ _ _).trans (congrArg (max · 0) ?_)
  refine (dense_apply _ _ _ _ _ _ _ y k2).trans ?_
  refine congrArg (· + b1 (ix1 k2)) (Finset.sum_congr rfl fun k1 _ => congrArg (· * w1 (ix2 k1 k2)) ?_)
  exact joined_apply x0 x1 x2 _ _ _ y k1

end Cert.KernelIdeal.MlpValue

end
-- ==== Proof.Mlp.lean ====
/-
  The edge classifier's region read at one entry of its output array.

  The region runs the body at 200 grid points; point `t` reads rows `8000 t … 8000 t + 7999` of the three feature
  arrays and the six parameter arrays whole, and writes rows `8000 t … 8000 t + 7999` of the output array. The body's
  result at an entry is one edge through the three dense layers (the payload lemma), so what point `t` writes back is
  block `t` of one function of the whole arrays, `edgeOut`; the 200 blocks cover the output array (row `e` lies in
  block `e / 8000`), so after the region the output array is `edgeOut` of the arrays as the region finds them.
-/
import proofs.«151144_j59914793779321_1_alg».proof.Proof.Gen.KernelIdeal.Frame
import proofs.«151144_j59914793779321_1_alg».proof.Proof.EdgeSpec
import proofs.«151144_j59914793779321_1_alg».proof.Proof.MlpPay
import Idealize.ShloMosaic.Lib.Pipeline.Value
import Idealize.ShloMosaic.Lib.ValueIdx

noncomputable section

open scoped BigOperators

namespace Cert.KernelIdeal.MlpValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the 200 grid points: the three feature windows and the output window move with the point
    along the rows and stay at column block 0; the six parameter windows stay at block 0. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = 0 ∧ win3_7.index t (1 : Fin 2) = 0
    ∧ win3_8.index t (0 : Fin 1) = 0
    ∧ win3_9.index t (0 : Fin 2) = t.val ∧ win3_9.index t (1 : Fin 2) = 0 :=
  (by decide +kernel : ∀ t : Fin grid3.N, _)

/-- Row `p` of the block of feature window 0 at point `t` is row `8000 t + p` of its array. -/
theorem iblk3_0_apply (c : Dev nD) (t : Fin cfg3.N) (p : Fin 8000) (k : Fin 64) (e : Fin 1600000)
    (he : e.val = t.val * 8000 + p.val) :
    (iblk3 V c 0 t : Vec Ideal S8000x64 .bf16) (ix2 p k)
      = (V c (Pipeline.arrRef spec3 0) : S1600000x64.Idx → EReal) (ix2 e k) := by
  obtain ⟨f0, f1, -⟩ := index_facts t
  show (V c (Pipeline.arrRef spec3 0) : S1600000x64.Idx → EReal) (((cfg3.win 0).blk t).view.emb (ix2 p k)) = _
  refine congrArg _ (funext fun a => Fin.ext ?_)
  match a with
  | ⟨0, _⟩ => show win3_0.index t (0 : Fin 2) * 8000 + 1 * p.val = e.val; omega
  | ⟨1, _⟩ => show win3_0.index t (1 : Fin 2) * 64 + 1 * k.val = k.val; omega

/-- Row `p` of the block of feature window 1 at point `t` is row `8000 t + p` of its array. -/
theorem iblk3_1_apply (c : Dev nD) (t : Fin cfg3.N) (p : Fin 8000) (k : Fin 64) (e : Fin 1600000)
    (he : e.val = t.val * 8000 + p.val) :
    (iblk3 V c 1 t : Vec Ideal S8000x64 .bf16) (ix2 p k)
      = (V c (Pipeline.arrRef spec3 1) : S1600000x64.Idx → EReal) (ix2 e k) := by
  obtain ⟨-, -, f0, f1, -⟩ := index_facts t
  show (V c (Pipeline.arrRef spec3 1) : S1600000x64.Idx → EReal) (((cfg3.win 1).blk t).view.emb (ix2 p k)) = _
  refine congrArg _ (funext fun a => Fin.ext ?_)
  match a with
  | ⟨0, _⟩ => show win3_1.index t (0 : Fin 2) * 8000 + 1 * p.val = e.val; omega
  | ⟨1, _⟩ => show win3_1.index t (1 : Fin 2) * 64 + 1 * k.val = k.val; omega

/-- Row `p` of the block of feature window 2 at point `t` is row `8000 t + p` of its array. -/
theorem iblk3_2_apply (c : Dev nD) (t : Fin cfg3.N) (p : Fin 8000) (k : Fin 16) (e : Fin 1600000)
    (he : e.val = t.val * 8000 + p.val) :
    (iblk3 V c 2 t : Vec Ideal S8000x16 .bf16) (ix2 p k)
      = (V c (Pipeline.arrRef spec3 2) : S1600000x16.Idx → EReal) (ix2 e k) := by
  obtain ⟨-, -, -, -, f0, f1, -⟩ := index_facts t
  show (V c (Pipeline.arrRef spec3 2) : S1600000x16.Idx → EReal) (((cfg3.win 2).blk t).view.emb (ix2 p k)) = _
  refine congrArg _ (funext fun a => Fin.ext ?_)
  match a with
  | ⟨0, _⟩ => show win3_2.index t (0 : Fin 2) * 8000 + 1 * p.val = e.val; omega
  | ⟨1, _⟩ => show win3_2.index t (1 : Fin 2) * 16 + 1 * k.val = k.val; omega

/-- The block of parameter window 3 at any point is its whole array. -/
theorem iblk3_3_eq (c : Dev nD) (t : Fin cfg3.N) :
    (iblk3 V c 3 t : Vec Ideal S144x64 .f32) = (V c (Pipeline.arrRef spec3 3) : S144x64.Idx → EReal) := by
  obtain ⟨-, -, -, -, -, -, f0, f1, -⟩ := index_facts t
  funext x
  show (V c (Pipeline.arrRef spec3 3) : S144x64.Idx → EReal) (((cfg3.win 3).blk t).view.emb x) = _
  refine congrArg _ (funext fun a => Fin.ext ?_)
  match a with
  | ⟨0, _⟩ => show win3_3.index t (0 : Fin 2) * 144 + 1 * (x 0).val = (x 0).val; omega
  | ⟨1, _⟩ => show win3_3.index t (1 : Fin 2) * 64 + 1 * (x 1).val = (x 1).val; omega

/-- The block of parameter window 4 at any point is its whole array. -/
theorem iblk3_4_eq (c : Dev nD) (t : Fin cfg3.N) :
    (iblk3 V c 4 t : Vec Ideal S64 .f32) = (V c (Pipeline.arrRef spec3 4) : S64.Idx → EReal) := by
  obtain ⟨-, -, -, -, -, -, -, -, f0, -⟩ := index_facts t
  funext x
  show (V c (Pipeline.arrRef spec3 4) : S64.Idx → EReal) (((cfg3.win 4).blk t).view.emb x) = _
  refine congrArg _ (funext fun a => Fin.ext ?_)
  match a with
  | ⟨0, _⟩ => show win3_4.index t (0 : Fin 1) * 64 + 1 * (x 0).val = (x 0).val; omega

/-- The block of parameter window 5 at any point is its whole array. -/
theorem iblk3_5_eq (c : Dev nD) (t : Fin cfg3.N) :
    (iblk3 V c 5 t : Vec Ideal S64x32 .f32) = (V c (Pipeline.arrRef spec3 5) : S64x32.Idx → EReal) := by
  obtain ⟨-, -, -, -, -, -, -, -, -, f0, f1, -⟩ := index_facts t
  funext x
  show (V c (Pipeline.arrRef spec3 5) : S64x32.Idx → EReal) (((cfg3.win 5).blk t).view.emb x) = _
  refine congrArg _ (funext fun a => Fin.ext ?_)
  match a with
  | ⟨0, _⟩ => show win3_5.index t (0 : Fin 2) * 64 + 1 * (x 0).val = (x 0).val; omega
  | ⟨1, _⟩ => show win3_5.index t (1 : Fin 2) * 32 + 1 * (x 1).val = (x 1).val; omega

/-- The block of parameter window 6 at any point is its whole array. -/
theorem iblk3_6_eq (c : Dev nD) (t : Fin cfg3.N) :
    (iblk3 V c 6 t : Vec Ideal S32 .f32) = (V c (Pipeline.arrRef spec3 6) : S32.Idx → EReal) := by
  obtain ⟨-, -, -, -, -, -, -, -, -, -, -, f0, -⟩ := index_facts t
  funext x
  show (V c (Pipeline.arrRef spec3 6) : S32.Idx → EReal) (((cfg3.win 6).blk t).view.emb x) = _
  refine congrArg _ (funext fun a => Fin.ext ?_)
  match a with
  | ⟨0, _⟩ => show win3_6.index t (0 : Fin 1) * 32 + 1 * (x 0).val = (x 0).val; omega

/-- The block of parameter window 7 at any point is its whole array. -/
theorem iblk3_7_eq (c : Dev nD) (t : Fin cfg3.N) :
    (iblk3 V c 7 t : Vec Ideal S32x2 .f32) = (V c (Pipeline.arrRef spec3 7) : S32x2.Idx → EReal) := by
  obtain ⟨-, -, -, -, -, -, -, -, -, -, -, -, f0, f1, -⟩ := index_facts t
  funext x
  show (V c (Pipeline.arrRef spec3 7) : S32x2.Idx → EReal) (((cfg3.win 7).blk t).view.emb x) = _
  refine congrArg _ (funext fun a => Fin.ext ?_)
  match a with
  | ⟨0, _⟩ => show win3_7.index t (0 : Fin 2) * 32 + 1 * (x 0).val = (x 0).val; omega
  | ⟨1, _⟩ => show win3_7.index t (1 : Fin 2) * 2 + 1 * (x 1).val = (x 1).val; omega

/-- The block of parameter window 8 at any point is its whole array. -/
theorem iblk3_8_eq (c : Dev nD) (t : Fin cfg3.N) :
    (iblk3 V c 8 t : Vec Ideal S2 .f32) = (V c (Pipeline.arrRef spec3 8) : S2.Idx → EReal) := by
  obtain ⟨-, -, -, -, -, -, -, -, -, -, -, -, -, -, f0, -⟩ := index_facts t
  funext x
  show (V c (Pipeline.arrRef spec3 8) : S2.Idx → EReal) (((cfg3.win 8).blk t).view.emb x) = _
  refine congrArg _ (funext fun a => Fin.ext ?_)
  match a with
  | ⟨0, _⟩ => show win3_8.index t (0 : Fin 1) * 2 + 1 * (x 0).val = (x 0).val; omega

/-- The edge classifier as one function of whole arrays, entry by entry: entry `(e, j)` is edge `e` through the three
    layers, component `j`. -/
def edgeOut (a0 a1 : S1600000x64.Idx → EReal) (a2 : S1600000x16.Idx → EReal) (w1 : S144x64.Idx → EReal)
    (b1 : S64.Idx → EReal) (w2 : S64x32.Idx → EReal) (b2 : S32.Idx → EReal) (w3 : S32x2.Idx → EReal)
    (b3 : S2.Idx → EReal) : S1600000x2.Idx → EReal :=
  fun i => Cert.EdgeSpec.mlpAt (fun k => a0 (ix2 (i 0 : Fin 1600000) k)) (fun k => a1 (ix2 (i 0 : Fin 1600000) k))
    (fun k => a2 (ix2 (i 0 : Fin 1600000) k)) w1 b1 w2 b2 w3 b3 (i 1 : Fin 2)

/-- The body's result at entry `(p, q)` of a block whose feature rows `p` are the arrays' rows `e` and whose
    parameter blocks are the whole parameter arrays: edge `e` through the three layers, component `q`. -/
theorem pay_at (x0 x1 : Vec Ideal S8000x64 .bf16) (x2 : Vec Ideal S8000x16 .bf16) (x3 : Vec Ideal S144x64 .f32)
    (x4 : Vec Ideal S64 .f32) (x5 : Vec Ideal S64x32 .f32) (x6 : Vec Ideal S32 .f32) (x7 : Vec Ideal S32x2 .f32)
    (x8 : Vec Ideal S2 .f32)
    (a0 a1 : S1600000x64.Idx → EReal) (a2 : S1600000x16.Idx → EReal) (w1 : S144x64.Idx → EReal)
    (b1 : S64.Idx → EReal) (w2 : S64x32.Idx → EReal) (b2 : S32.Idx → EReal) (w3 : S32x2.Idx → EReal)
    (b3 : S2.Idx → EReal) (p : Fin 8000) (q : Fin 2) (e : Fin 1600000)
    (h0 : ∀ k : Fin 64, x0 (ix2 p k) = a0 (ix2 e k)) (h1 : ∀ k : Fin 64, x1 (ix2 p k) = a1 (ix2 e k))
    (h2 : ∀ k : Fin 16, x2 (ix2 p k) = a2 (ix2 e k))
    (h3 : x3 = w1) (h4 : x4 = b1) (h5 : x5 = w2) (h6 : x6 = b2) (h7 : x7 = w3) (h8 : x8 = b3) :
    Gen.k3_pay1 (F := Ideal) x0 x1 x2 x3 x4 x5 x6 x7 x8 (ix2 p q)
      = edgeOut a0 a1 a2 w1 b1 w2 b2 w3 b3 (ix2 e q) := by
  subst h3 h4 h5 h6 h7 h8
  rw [pay_apply, funext h0, funext h1, funext h2]
  rfl

set_option maxHeartbeats 400000 in
/-- What point `t` writes back to the output array is block `t` of `edgeOut` of the arrays as the region finds
    them. -/
theorem flushed3_eq (c : Dev nD) (t : Fin cfg3.N) :
    (dat3 V c).flushed 9 t = ((cfg3.win 9).blk t).view.read (Elt Ideal) (edgeOut (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) := by
  show (cfg3.win 9).cut (grid3.coords t) ((dat3 V c).after 9 t) = _
  rw [after3_9]
  unfold out3_9
  rw [View.canon_unit_zero zero2]
  simp only [View.ld_unit_zero (S := S8000x64) zero2, View.ld_unit_zero (S := S8000x16) zero2,
    View.ld_unit_zero (S := S144x64) zero2, View.ld_unit_zero (S := S64) zero1, View.ld_unit_zero (S := S64x32) zero2,
    View.ld_unit_zero (S := S32) zero1, View.ld_unit_zero (S := S32x2) zero2, View.ld_unit_zero (S := S2) zero1]
  obtain ⟨-, -, -, -, -, -, -, -, -, -, -, -, -, -, -, f0, f1⟩ := index_facts t
  have hN : t.val < 200 := Nat.lt_of_lt_of_eq t.isLt N_3
  funext y
  have hy0 : (y 0).val < 8000 := (y 0).isLt
  have hy1 : (y 1).val < 2 := (y 1).isLt
  have hemb : ((cfg3.win 9).blk t).view.emb y
      = (ix2 (⟨t.val * 8000 + (y 0).val, by omega⟩ : Fin 1600000) (⟨(y 1).val, hy1⟩ : Fin 2) : S1600000x2.Idx) := by
    funext a; apply Fin.ext
    match a with
    | ⟨0, _⟩ => show win3_9.index t (0 : Fin 2) * 8000 + 1 * (y 0).val = t.val * 8000 + (y 0).val; omega
    | ⟨1, _⟩ => show win3_9.index t (1 : Fin 2) * 2 + 1 * (y 1).val = (y 1).val; omega
  have hx : ((cfg3.win 9).xinj (grid3.coords t) y : S8000x2.Idx)
      = ix2 (⟨(y 0).val, hy0⟩ : Fin 8000) (⟨(y 1).val, hy1⟩ : Fin 2) := by
    funext a
    match a with
    | ⟨0, _⟩ => rfl
    | ⟨1, _⟩ => rfl
  show Gen.k3_pay1 (F := Ideal) (iblk3 V c 0 t) (iblk3 V c 1 t) (iblk3 V c 2 t) (iblk3 V c 3 t) (iblk3 V c 4 t)
      (iblk3 V c 5 t) (iblk3 V c 6 t) (iblk3 V c 7 t) (iblk3 V c 8 t) ((cfg3.win 9).xinj (grid3.coords t) y)
    = edgeOut (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (((cfg3.win 9).blk t).view.emb y)
  rw [hx, hemb]
  have h0 : ∀ k : Fin 64, (iblk3 V c 0 t : Vec Ideal S8000x64 .bf16) (ix2 (⟨(y 0).val, hy0⟩ : Fin 8000) k)
      = (V c (Pipeline.arrRef spec3 0) : S1600000x64.Idx → EReal) (ix2 (⟨t.val * 8000 + (y 0).val, by omega⟩ : Fin 1600000) k) :=
    fun k => iblk3_0_apply V c t ⟨(y 0).val, hy0⟩ k ⟨t.val * 8000 + (y 0).val, by omega⟩ rfl
  have h1 : ∀ k : Fin 64, (iblk3 V c 1 t : Vec Ideal S8000x64 .bf16) (ix2 (⟨(y 0).val, hy0⟩ : Fin 8000) k)
      = (V c (Pipeline.arrRef spec3 1) : S1600000x64.Idx → EReal) (ix2 (⟨t.val * 8000 + (y 0).val, by omega⟩ : Fin 1600000) k) :=
    fun k => iblk3_1_apply V c t ⟨(y 0).val, hy0⟩ k ⟨t.val * 8000 + (y 0).val, by omega⟩ rfl
  have h2 : ∀ k : Fin 16, (iblk3 V c 2 t : Vec Ideal S8000x16 .bf16) (ix2 (⟨(y 0).val, hy0⟩ : Fin 8000) k)
      = (V c (Pipeline.arrRef spec3 2) : S1600000x16.Idx → EReal) (ix2 (⟨t.val * 8000 + (y 0).val, by omega⟩ : Fin 1600000) k) :=
    fun k => iblk3_2_apply V c t ⟨(y 0).val, hy0⟩ k ⟨t.val * 8000 + (y 0).val, by omega⟩ rfl
  exact pay_at (iblk3 V c 0 t) (iblk3 V c 1 t) (iblk3 V c 2 t) (iblk3 V c 3 t) (iblk3 V c 4 t) (iblk3 V c 5 t) (iblk3 V c 6 t) (iblk3 V c 7 t) (iblk3 V c 8 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))
    ⟨(y 0).val, hy0⟩ ⟨(y 1).val, hy1⟩ ⟨t.val * 8000 + (y 0).val, by omega⟩ h0 h1 h2
    (iblk3_3_eq V c t) (iblk3_4_eq V c t) (iblk3_5_eq V c t) (iblk3_6_eq V c t) (iblk3_7_eq V c t) (iblk3_8_eq V c t)

/-- An index of the output array is in point `t`'s block iff each coordinate is in the block's range on its axis. -/
theorem mem_blk3 (t : Fin cfg3.N) (i : S1600000x2.Idx) :
    i ∈ ((cfg3.win 9).blk t).view.set ↔ ∀ a : Fin 2, win3_9.index t a * S8000x2.size a ≤ (i a).val
      ∧ (i a).val < win3_9.index t a * S8000x2.size a + S8000x2.size a := by
  show i ∈ ((View.whole main_v153).slice (win3_9.rect t)).set ↔ _
  rw [View.set_slice_whole, Rect.mem_set_unit]
  exact Iff.rfl

/-- Every entry of the output array is in the block of the point its row falls in: row `e` in block `e / 8000`. -/
theorem cover3 (i : S1600000x2.Idx) :
    ∃ t : Fin cfg3.N, (cfg3.win 9).flush t = true ∧ i ∈ ((cfg3.win 9).blk t).view.set := by
  have hi0 : (i 0).val < 1600000 := (i 0).isLt
  have hi1 : (i 1).val < 2 := (i 1).isLt
  have hN : cfg3.N = 200 := N_3
  let t : Fin cfg3.N := ⟨(i 0).val / 8000, by rw [hN]; omega⟩
  obtain ⟨-, -, -, -, -, -, -, -, -, -, -, -, -, -, -, f0, f1⟩ := index_facts t
  have ht : t.val = (i 0).val / 8000 := rfl
  refine ⟨t, flush3_9 t, ?_⟩
  rw [mem_blk3]
  intro a
  match a with
  | ⟨0, _⟩ => show win3_9.index t (0 : Fin 2) * 8000 ≤ (i 0).val ∧ (i 0).val < win3_9.index t (0 : Fin 2) * 8000 + 8000; omega
  | ⟨1, _⟩ => show win3_9.index t (1 : Fin 2) * 2 ≤ (i 1).val ∧ (i 1).val < win3_9.index t (1 : Fin 2) * 2 + 2; omega

/-- The output array after the region is `edgeOut` of the arrays as the region finds them. -/
theorem region3_final (c : Dev nD) :
    (dat3 V c).arrAt 9 cfg3.N = edgeOut (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 V c).arrAt_eq_of_cover 9 (edgeOut (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) (fun t _ => flushed3_eq V c t) cover3

/-- The output array after the region at entry `(e, j)`: edge `e` of the arrays as the region finds them through
    the three layers, component `j`. -/
theorem region3_at (c : Dev nD) (e : Fin 1600000) (j : Fin 2) :
    (Gen.dat3 (F := Ideal) V c).arrAt 9 cfg3.N (ix2 e j)
      = Cert.EdgeSpec.mlpAt (fun k => V c (Pipeline.arrRef spec3 0) (ix2 e k)) (fun k => V c (Pipeline.arrRef spec3 1) (ix2 e k))
          (fun k => V c (Pipeline.arrRef spec3 2) (ix2 e k))
          (V c (Pipeline.arrRef spec3 3)) (V c (Pipeline.arrRef spec3 4)) (V c (Pipeline.arrRef spec3 5))
          (V c (Pipeline.arrRef spec3 6)) (V c (Pipeline.arrRef spec3 7)) (V c (Pipeline.arrRef spec3 8)) j := by
  rw [region3_final V c]
  rfl

end Cert.KernelIdeal.MlpValue

end
-- ==== Proof.LibHostIx.lean ====
/-
  Host operations on literal-shaped arrays read at one index, for any extents.

  Layout: two matrices stacked by rows; a scalar, a column, a row and a vector broadcast to a larger array;
  a unit-stride slice of a vector. Arithmetic at the ideal values: the sum over each row of a matrix and
  the sum of a vector, each from an initial value; the product of a matrix with the transpose of another
  (both contracted along their second axis) at an entry; and the element of a matrix picked by a pair of
  start indices, each read as a signed integer and clamped into its axis. Words: the 32-bit word of a natural
  below 8192 under the signed remainder by 4096, when two such words are equal or negative, and a bit read as
  an unsigned integer at the ideal values.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RefValLib

open Idealize.ShloMosaic Idealize.ShloMosaic.ValueIdx

/-! ## Layout -/

section Layout
variable {α : Type}

/-- Stacked by rows, at a row below the first height: the first matrix at the same row and column. -/
theorem concatenate_rows_apply_left {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (hp : p.val < A) :
    concatenate ⟨2, ![T, C]⟩ 0 [⟨⟨2, ![A, C]⟩, x₁⟩, ⟨⟨2, ![B, C]⟩, x₂⟩] h (ix2 p k)
      = x₁ (ix2 ⟨p.val, hp⟩ k) :=
  concatenate_pair_apply_left _ x₁ x₂ h (ix2 p k) rfl (ix2 ⟨p.val, hp⟩ k)
    (fun b => match b with | ⟨0, _⟩ => rfl | ⟨1, _⟩ => rfl)

/-- Stacked by rows, at row `A + p'`: the second matrix at row `p'` and the same column. -/
theorem concatenate_rows_apply_right {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (p' : Fin B) (hp : p.val = A + p'.val) :
    concatenate ⟨2, ![T, C]⟩ 0 [⟨⟨2, ![A, C]⟩, x₁⟩, ⟨⟨2, ![B, C]⟩, x₂⟩] h (ix2 p k)
      = x₂ (ix2 p' k) :=
  concatenate_pair_apply_right _ x₁ x₂ h (ix2 p k) rfl rfl (ix2 p' k)
    (fun b hb => match b, hb with
      | ⟨0, _⟩, hb => (hb rfl).elim
      | ⟨1, _⟩, _ => rfl)
    (by show p'.val + A = p.val; omega)

/-- Two one-column matrices side by side, at column 0: the first. -/
theorem concatenate_cols2_apply_zero {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (0 : Fin 2))
      = x₁ (ix2 r (0 : Fin 1)) :=
  concatenate_pair_apply_left _ x₁ x₂ h (ix2 r (0 : Fin 2)) rfl (ix2 r (0 : Fin 1))
    (fun b => match b with | ⟨0, _⟩ => rfl | ⟨1, _⟩ => rfl)

/-- Two one-column matrices side by side, at column 1: the second. -/
theorem concatenate_cols2_apply_one {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (1 : Fin 2))
      = x₂ (ix2 r (0 : Fin 1)) :=
  concatenate_pair_apply_right _ x₁ x₂ h (ix2 r (1 : Fin 2)) rfl rfl (ix2 r (0 : Fin 1))
    (fun b hb => match b, hb with
      | ⟨0, _⟩, _ => rfl
      | ⟨1, _⟩, hb => (hb rfl).elim)
    rfl

/-- A scalar broadcast to any shape reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-column matrix reads, at `(e, z)`, the vector at `e`. -/
theorem broadcastInDim_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector as a one-row matrix reads, at `(z, c)`, the vector at `c`. -/
theorem broadcastInDim_row_apply {n : Nat} (x : (⟨1, ![n]⟩ : Shape).Idx → α)
    (h : (⟨1, ![n]⟩ : Shape).BroadcastsInDim ⟨2, ![1, n]⟩ ![1]) (z : Fin 1) (c : Fin n) :
    broadcastInDim ⟨2, ![1, n]⟩ ![1] h x (ix2 z c) = x (ix1 c) :=
  broadcastInDim_apply _ h x (ix2 z c) (ix1 c) (fun a => match a with
    | ⟨0, _⟩ => by
      show c.val = if n = 1 then 0 else c.val
      have := c.isLt
      split <;> omega)

/-- A one-column matrix broadcast along its columns reads, at `(p, c)`, the column's entry of row `p`. -/
theorem broadcastInDim_colwide_apply {a b : Nat} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) :=
  broadcastInDim_apply _ h x (ix2 p c) (ix2 p (0 : Fin 1)) (fun ax => match ax with
    | ⟨0, _⟩ => by
      show p.val = if a = 1 then 0 else p.val
      have := p.isLt
      split <;> omega
    | ⟨1, _⟩ => by
      show 0 = if 1 = 1 then 0 else c.val
      rfl)

/-- A one-row matrix broadcast along its rows reads, at `(p, c)`, the row's entry of column `c`. -/
theorem broadcastInDim_rowwide_apply {a b : Nat} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) :=
  broadcastInDim_apply _ h x (ix2 p c) (ix2 (0 : Fin 1) c) (fun ax => match ax with
    | ⟨0, _⟩ => by
      show 0 = if 1 = 1 then 0 else p.val
      rfl
    | ⟨1, _⟩ => by
      show c.val = if b = 1 then 0 else c.val
      have := c.isLt
      split <;> omega)

/-- The slice's side condition bounds the positions read. -/
theorem slices1_lt {M R o : Nat}
    (h : (⟨1, ![M]⟩ : Shape).Slices ![o] ⟨1, ![R]⟩) (r : Fin R) : o + r.val < M := by
  have h0 : o + R ≤ M := h.2 0
  have := r.isLt
  omega

/-- A slice of a vector at `r`: the vector at `o + r`. -/
theorem slice1_apply {M R o : Nat} (x : (⟨1, ![M]⟩ : Shape).Idx → α)
    (h : (⟨1, ![M]⟩ : Shape).Slices ![o] ⟨1, ![R]⟩) (r : Fin R) :
    extractStridedSlice ⟨1, ![R]⟩ ![o] x h (ix1 r) = x (ix1 ⟨o + r.val, slices1_lt h r⟩) :=
  extractStridedSlice_apply _ x h (ix1 r) (ix1 ⟨o + r.val, slices1_lt h r⟩) (fun a => match a with
    | ⟨0, _⟩ => rfl)

end Layout

/-! ## Sums -/

section Sums
variable {φ : FTy}

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  Fintype.sum_equiv idxEquiv1 f (fun a => f (ix1 a)) (fun i => congrArg f (eq_ix1 i))

/-- The host's sum over each row of a matrix, from an initial scalar: at row `i` the initial value plus the sum of the row. -/
theorem hostReduceAdd_rows {a b : Nat} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel)
    (hr : (⟨2, ![a, b]⟩ : Shape).Reduces [1] ⟨1, ![a]⟩) (i : Fin a) :
    Host.reduceAdd (F := Ideal) x init h hu (ix1 i) = init ix0 + ∑ k : Fin b, x (ix2 i k) := by
  show Ideal.hostReduceAdd h x (init (Shape.Idx.first hu)) (ix1 i) = _
  rw [Ideal.hostReduceAdd_single h hr x _ (ix1 i), eq_ix0 (Shape.Idx.first hu)]
  exact congrArg (init ix0 + ·) (Finset.sum_congr rfl fun k _ => congrArg x (funext fun c => Fin.ext (by
    match c with
    | ⟨0, _⟩ => rfl
    | ⟨1, _⟩ => rfl)))

/-- The host's sum of a vector, from an initial scalar: the initial value plus the sum of the entries. -/
theorem hostReduceAdd_vec {n : Nat} (x : FVec Ideal ⟨1, ![n]⟩ φ) (init : (⟨0, ![]⟩ : Shape).Idx → Ideal φ)
    (h : (⟨1, ![n]⟩ : Shape).ReducesTo [0] ⟨0, ![]⟩) (hu : 0 < (⟨0, ![]⟩ : Shape).numel)
    (j : (⟨0, ![]⟩ : Shape).Idx) :
    Host.reduceAdd (F := Ideal) x init h hu j = init ix0 + ∑ i : Fin n, x (ix1 i) := by
  show Ideal.hostReduceAdd h x (init (Shape.Idx.first hu)) j = _
  rw [Ideal.hostReduceAdd_total h (fun b => b.elim0) x _ j, eq_ix0 (Shape.Idx.first hu), sum_idx1]

end Sums

/-! ## A product with a transposed matrix -/

section Dot

/-- The host's product of an `M × K` matrix with the transpose of an `N × K` matrix (both contracted along their
    second axis, no batch axis) at entry `(a, b)`: the sum over the contracted coordinate of the products of the
    entries `A (a, c)` and `B (b, c)`. -/
theorem dotGeneral_nt_apply {M N K : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Dot

/-! ## One element of a matrix picked by a pair of start indices -/

section Gather
variable {α : Type}

/-- The dimension numbers of a gather of single elements of a matrix: operand `[M, N]`, start indices `[R, 2]` (row, column), result `[R]`; both operand axes collapsed. -/
abbrev elemDims (M N R : Nat)
    (wf : GatherDims.WF ⟨2, ![M, N]⟩ ⟨2, ![R, 2]⟩ ⟨1, ![R]⟩ [] [0, 1] [] [0, 1] [] 1 ![1, 1]) :
    GatherDims ⟨2, ![M, N]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather read at `i`: the matrix at the start index `(idx[i, 0], idx[i, 1])`, each component read signed and clamped into its axis. -/
theorem gather_elem_apply {M N R w : Nat} (hM : 0 < M) (hN : 0 < N)
    (wf : GatherDims.WF ⟨2, ![M, N]⟩ ⟨2, ![R, 2]⟩ ⟨1, ![R]⟩ [] [0, 1] [] [0, 1] [] 1 ![1, 1])
    (x : (⟨2, ![M, N]⟩ : Shape).Idx → α) (idx : IVec ⟨2, ![R, 2]⟩ w) (i : Fin R) :
    Host.gather (elemDims M N R wf) x idx (ix1 i)
      = x (ix2 ⟨min (idx (ix2 i (0 : Fin 2))).toInt.toNat (M - 1), by omega⟩
               ⟨min (idx (ix2 i (1 : Fin 2))).toInt.toNat (N - 1), by omega⟩) := by
  have key : ∀ a : Fin 2, (elemDims M N R wf).start (ix1 i) idx a + (elemDims M N R wf).batchCoord (ix1 i) a
      + (elemDims M N R wf).offCoord (ix1 i) a
      = ((ix2 (⟨min (idx (ix2 i (0 : Fin 2))).toInt.toNat (M - 1), by omega⟩ : Fin M)
               (⟨min (idx (ix2 i (1 : Fin 2))).toInt.toNat (N - 1), by omega⟩ : Fin N)) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (0 : Fin 2) ∈ (elemDims M N R wf).startIndexMap by simp)]
      have hsi : (elemDims M N R wf).siIdx (ix1 i) ⟨List.idxOf (0 : Fin 2) (elemDims M N R wf).startIndexMap,
          List.idxOf_lt_length_iff.2 (by simp)⟩ = ix2 i (0 : Fin 2) := by
        funext b; refine Fin.ext ?_
        match b with
        | ⟨0, _⟩ => rfl
        | ⟨1, _⟩ => rfl
      rw [hsi]
      rfl
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (1 : Fin 2) ∈ (elemDims M N R wf).startIndexMap by simp)]
      have hsi : (elemDims M N R wf).siIdx (ix1 i) ⟨List.idxOf (1 : Fin 2) (elemDims M N R wf).startIndexMap,
          List.idxOf_lt_length_iff.2 (by simp)⟩ = ix2 i (1 : Fin 2) := by
        funext b; refine Fin.ext ?_
        match b with
        | ⟨0, _⟩ => rfl
        | ⟨1, _⟩ => rfl
      rw [hsi]
      rfl
  unfold Host.gather
  exact congrArg x (funext fun a => Fin.ext (key a))

end Gather

/-! ## Words: the 32-bit word of a small natural under the signed remainder and comparisons, and a bit as a float -/

section Words

/-- The word of a natural below `2 ^ 32` reads back as the natural. -/
theorem toNat_ofNat_lt (n : Nat) (hn : n < 2 ^ 32) : (BitVec.ofNat 32 n).toNat = n := by
  rw [BitVec.toNat_ofNat, Nat.mod_eq_of_lt hn]

/-- The word of a natural below `2 ^ 31` has its sign bit clear. -/
theorem msb_ofNat_small (n : Nat) (hn : n < 2 ^ 31) : (BitVec.ofNat 32 n).msb = false := by
  rw [BitVec.msb_eq_decide, toNat_ofNat_lt n (by omega)]
  exact decide_eq_false (by omega)

/-- The host's signed remainder of the word of `p < 8192` by 4096 is the word of `p % 4096`: no division corner, both sign bits clear. -/
theorem remsi_ofNat (p : Nat) (hp : p < 8192) : IntOp.remsi .host (BitVec.ofNat 32 p) 4096#32 = BitVec.ofNat 32 (p % 4096) := by
  have hc : ¬ IntOp.SDivCorner (BitVec.ofNat 32 p) 4096#32 := by
    rintro (h | ⟨_, h⟩)
    · exact absurd h (by decide)
    · exact absurd h (by decide)
  unfold IntOp.remsi
  rw [if_neg hc]
  apply BitVec.eq_of_toNat_eq
  rw [BitVec.srem_eq]
  have h1 : (BitVec.ofNat 32 p).msb = false := msb_ofNat_small p (by omega)
  have h2 : (4096#32 : BitVec 32).msb = false := by decide
  simp only [h1, h2]
  have h3 : (4096#32 : BitVec 32).toNat = 4096 := by decide
  rw [BitVec.toNat_umod, toNat_ofNat_lt p (by omega), h3, toNat_ofNat_lt _ (by omega)]

/-- The word of a natural below `2 ^ 31` is not negative. -/
theorem slt_zero_ofNat (n : Nat) (hn : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt_eq_decide, BitVec.toInt_eq_toNat_of_msb (msb_ofNat_small n hn)]
    exact decide_eq_false (by simp; omega)
  rw [this]; rfl

/-- The words of two naturals below `2 ^ 32` differ exactly when the naturals do. -/
theorem cmpi_ne_ofNat (m n : Nat) (hm : m < 2 ^ 32) (hn : n < 2 ^ 32) :
    IntOp.cmpi .ne (BitVec.ofNat 32 m) (BitVec.ofNat 32 n) = if m = n then 0#1 else 1#1 := by
  show BitVec.ofBool (BitVec.ofNat 32 m != BitVec.ofNat 32 n) = _
  by_cases e : m = n
  · subst e; simp
  · have : BitVec.ofNat 32 m ≠ BitVec.ofNat 32 n := fun h => e (by
      have := congrArg BitVec.toNat h
      rwa [toNat_ofNat_lt m hm, toNat_ofNat_lt n hn] at this)
    rw [if_neg e, (bne_iff_ne.2 this : (BitVec.ofNat 32 m != BitVec.ofNat 32 n) = true)]
    rfl

/-- A bit read as an unsigned integer at the ideal values is `1` or `0`. -/
theorem uitofp_bit (b : BitVec 1) : (FloatOps.uitofp (F := Ideal) .f32 b : EReal) = if b = 1#1 then 1 else 0 := by
  show (((b.toNat : ℝ)) : EReal) = _
  rcases BitVec.eq_zero_or_eq_one b with h | h
  · subst h; simp
  · subst h; simp

end Words

end Cert.RefValLib

end
-- ==== Proof.EdgeAt.lean ====
/-
  The edge classifier written with whole-array host operations, read at one entry.

  Row `e` of the classifier's result depends only on row `e` of its three feature arrays: entry `(e, j)` is
  component `j` of `max(max(x · w1 + b1, 0) · w2 + b2, 0) · w3 + b3`, where `x` is the 144 joined features of
  edge `e`. Each dense layer is read at an entry (a matrix product is the sum over the contracted coordinate,
  a bias row repeated down the rows reads the bias at the column, the broadcast zero word reads `0`), and the
  side-by-side concatenation reads the piece its column falls in.
-/
import proofs.«151144_j59914793779321_1_alg».proof.Proof.EdgeSpec
import proofs.«151144_j59914793779321_1_alg».proof.Proof.LibHostDotIx
import proofs.«151144_j59914793779321_1_alg».proof.Proof.LibConcat3Cols
import proofs.«151144_j59914793779321_1_alg».proof.Proof.LibHostIx
import Idealize.ShloMosaic.PureOps.Ideal
import Idealize.ShloMosaic.PureOps.Ideal.Laws
import Idealize.ShloMosaic.Lib.ValueIdx

noncomputable section

open scoped BigOperators

namespace Cert.EdgeSpec.At

open Idealize.ShloMosaic Idealize.ShloMosaic.ValueIdx Cert.ReferenceIdeal Cert.ReferenceIdeal.Gen

/-! ## The pieces of one dense layer, read at an index, for any extents -/

section Pieces

/-- A bias vector laid out as one row and repeated down the rows reads, at `(e, k)`, the vector at `k`. -/
theorem biasRows_apply {α : Type} {N n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![N, n]⟩ ![0, 1]) (e : Fin N) (k : Fin n) :
    broadcastInDim ⟨2, ![N, n]⟩ ![0, 1] h2 (broadcastInDim ⟨2, ![1, n]⟩ ![1] h1 b) (ix2 e k) = b (ix1 k) :=
  (Cert.RefValLib.broadcastInDim_rowwide_apply _ h2 e k).trans
    (Cert.RefValLib.broadcastInDim_row_apply b h1 (0 : Fin 1) k)

/-- The zero word broadcast to any shape reads the extended real `0` everywhere. -/
theorem zeros_apply {t : Shape} (dims : Fin 0 → Fin t.rank)
    (h : (⟨0, ![]⟩ : Shape).BroadcastsInDim t dims) (j : t.Idx) :
    broadcastInDim t dims h (constant (F := Ideal) ⟨0, ![]⟩ .f32 0x00000000#32) j = (0 : EReal) :=
  (Cert.RefValLib.broadcastInDim_scalar_apply dims h
      (constant (F := Ideal) ⟨0, ![]⟩ .f32 0x00000000#32) j).trans
    ((constant_apply (s := ⟨0, ![]⟩) (φ := .f32) 0x00000000#32 ix0).trans Ideal.ofBits_zero_f32)

/-- A dense layer without activation at `(e, k)`: the row `e` of the input against column `k` of the weights,
    plus the bias at `k`. -/
theorem dense_apply {N K n : Nat}
    (w : DotDims.WF ⟨2, ![N, K]⟩ ⟨2, ![K, n]⟩ ⟨2, ![N, n]⟩ [1] [0] [0] [1] [] [])
    (h1 : (⟨1, ![n]⟩ : Shape).BroadcastsInDim ⟨2, ![1, n]⟩ ![1])
    (h2 : (⟨2, ![1, n]⟩ : Shape).BroadcastsInDim ⟨2, ![N, n]⟩ ![0, 1])
    (X : FVec Ideal ⟨2, ![N, K]⟩ .f32) (W : FVec Ideal ⟨2, ![K, n]⟩ .f32) (b : FVec Ideal ⟨1, ![n]⟩ .f32)
    (e : Fin N) (k : Fin n) :
    addf (Host.dotGeneral (F := Ideal) (⟨[1], [0], [0], [1], [], [], w⟩ : DotDims _ _ _) none X W)
        (broadcastInDim ⟨2, ![N, n]⟩ ![0, 1] h2 (broadcastInDim ⟨2, ![1, n]⟩ ![1] h1 b)) (ix2 e k)
      = (∑ c : Fin K, X (ix2 e c) * W (ix2 c k)) + b (ix1 k) := by
  rw [addf_apply, Cert.LibHostDotIx.dotGeneral_apply w none X W e k, biasRows_apply b h1 h2 e k]

/-- A dense layer followed by the maximum with zero, at `(e, k)`. -/
theorem denseRelu_apply {N K n : Nat}
    (w : DotDims.WF ⟨2, ![N, K]⟩ ⟨2, ![K, n]⟩ ⟨2, ![N, n]⟩ [1] [0] [0] [1] [] [])
    (h1 : (⟨1, ![n]⟩ : Shape).BroadcastsInDim ⟨2, ![1, n]⟩ ![1])
    (h2 : (⟨2, ![1, n]⟩ : Shape).BroadcastsInDim ⟨2, ![N, n]⟩ ![0, 1])
    (h0 : (⟨0, ![]⟩ : Shape).BroadcastsInDim ⟨2, ![N, n]⟩ ![])
    (X : FVec Ideal ⟨2, ![N, K]⟩ .f32) (W : FVec Ideal ⟨2, ![K, n]⟩ .f32) (b : FVec Ideal ⟨1, ![n]⟩ .f32)
    (e : Fin N) (k : Fin n) :
    maximumf
        (addf (Host.dotGeneral (F := Ideal) (⟨[1], [0], [0], [1], [], [], w⟩ : DotDims _ _ _) none X W)
          (broadcastInDim ⟨2, ![N, n]⟩ ![0, 1] h2 (broadcastInDim ⟨2, ![1, n]⟩ ![1] h1 b)))
        (broadcastInDim ⟨2, ![N, n]⟩ ![] h0 (constant (F := Ideal) ⟨0, ![]⟩ .f32 0x00000000#32)) (ix2 e k)
      = max ((∑ c : Fin K, X (ix2 e c) * W (ix2 c k)) + b (ix1 k)) 0 := by
  rw [maximumf_apply, dense_apply w h1 h2 X W b e k, zeros_apply ![] h0 (ix2 e k)]

/-- The three feature blocks of the edges laid side by side read, at edge `e` and column `k`, the joined
    features of that edge. -/
theorem joined_apply {N : Nat} (hs hd : (⟨2, ![N, 64]⟩ : Shape).Idx → EReal) (ea : (⟨2, ![N, 16]⟩ : Shape).Idx → EReal)
    (h : Shape.Concatenates [⟨2, ![N, 64]⟩, ⟨2, ![N, 64]⟩, ⟨2, ![N, 16]⟩] ⟨2, ![N, 144]⟩ 1)
    (e : Fin N) (k : Fin 144) :
    concatenate ⟨2, ![N, 144]⟩ 1 [⟨⟨2, ![N, 64]⟩, hs⟩, ⟨⟨2, ![N, 64]⟩, hd⟩, ⟨⟨2, ![N, 16]⟩, ea⟩] h (ix2 e k)
      = joined (fun c => hs (ix2 e c)) (fun c => hd (ix2 e c)) (fun c => ea (ix2 e c)) k := by
  unfold joined
  by_cases h1 : k.val < 64
  · rw [dif_pos h1]
    exact Cert.LibConcat3Cols.concatenate_cols3_apply_first hs hd ea h e k ⟨k.val, h1⟩ rfl
  · rw [dif_neg h1]
    by_cases h2 : k.val < 128
    · rw [dif_pos h2]
      exact Cert.LibConcat3Cols.concatenate_cols3_apply_second hs hd ea h e k
        ⟨k.val - 64, by have := k.isLt; omega⟩ (by show k.val = 64 + (k.val - 64); omega)
    · rw [dif_neg h2]
      exact Cert.LibConcat3Cols.concatenate_cols3_apply_third hs hd ea h e k
        ⟨k.val - 128, by have := k.isLt; omega⟩ (by show k.val = 64 + 64 + (k.val - 128); omega)

end Pieces

/-! ## The reference-shaped edge classifier at an index -/

/-- Entry `(e, j)` of the edge classifier written with whole-array host operations is edge `e`'s own three
    feature rows through the three dense layers, component `j`. -/
theorem edgeMlp_apply (hs hd : (⟨S1600000x64, .f32⟩ : BufTy).Contents (Elt Ideal)) (ea : (⟨S1600000x16, .f32⟩ : BufTy).Contents (Elt Ideal))
    (w1 : (⟨S144x64, .f32⟩ : BufTy).Contents (Elt Ideal)) (b1 : (⟨S64, .f32⟩ : BufTy).Contents (Elt Ideal))
    (w2 : (⟨S64x32, .f32⟩ : BufTy).Contents (Elt Ideal)) (b2 : (⟨S32, .f32⟩ : BufTy).Contents (Elt Ideal))
    (w3 : (⟨S32x2, .f32⟩ : BufTy).Contents (Elt Ideal)) (b3 : (⟨S2, .f32⟩ : BufTy).Contents (Elt Ideal))
    (e : Fin 1600000) (j : Fin 2) :
    Cert.EdgeSpec.edgeMlp (F := Ideal) hs hd ea w1 b1 w2 b2 w3 b3 (ix2 e j)
      = Cert.EdgeSpec.mlpAt (fun k => hs (ix2 e k)) (fun k => hd (ix2 e k)) (fun k => ea (ix2 e k)) w1 b1 w2 b2 w3 b3 j := by
  unfold Cert.EdgeSpec.edgeMlp Cert.EdgeSpec.mlpAt
  refine (dense_apply dot_S1600000x32_S32x2_S1600000x2_1_0_0_1_n_n_wf _ _ _ w3 b3 e j).trans ?_
  refine congrArg (· + b3 (ix1 j)) (Finset.sum_congr rfl fun k3 _ => congrArg (· * w3 (ix2 k3 j)) ?_)
  refine (denseRelu_apply dot_S1600000x64_S64x32_S1600000x32_1_0_0_1_n_n_wf _ _ _ _ w2 b2 e k3).trans ?_
  refine congrArg (fun t => max (t + b2 (ix1 k3)) 0)
    (Finset.sum_congr rfl fun k2 _ => congrArg (· * w2 (ix2 k2 k3)) ?_)
  refine (denseRelu_apply dot_S1600000x144_S144x64_S1600000x64_1_0_0_1_n_n_wf _ _ _ _ w1 b1 e k2).trans ?_
  refine congrArg (fun t => max (t + b1 (ix1 k2)) 0)
    (Finset.sum_congr rfl fun k1 _ => congrArg (· * w1 (ix2 k1 k2)) ?_)
  exact joined_apply hs hd ea _ e k1

end Cert.EdgeSpec.At

end
-- ==== Proof.Result.lean ====
/-
  The two programs' result arrays are equal: the last boundary of the walk through the two programs.
-/
import proofs.«151144_j59914793779321_1_alg».proof.Proof.Bridge
import proofs.«151144_j59914793779321_1_alg».proof.Proof.SimMlp
import proofs.«151144_j59914793779321_1_alg».proof.Proof.Mlp
import proofs.«151144_j59914793779321_1_alg».proof.Proof.EdgeAt

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen

local notation "kref" => Proc.devRef (τ := Cert.KernelIdeal.τ) (sig := Cert.KernelIdeal.sig) Proc.tc
local notation "rref" => Proc.devRef (τ := Cert.ReferenceIdeal.τ) (sig := Cert.ReferenceIdeal.sig) Proc.tc
local notation "RLoc" => Loc Cert.ReferenceIdeal.nD Cert.ReferenceIdeal.τ Cert.ReferenceIdeal.sig
local notation "RThread" => Thread Cert.ReferenceIdeal.nD Cert.ReferenceIdeal.τ

variable {m : (ℓ : Loc nD τ sig) → Buf (Elt Ideal) ℓ} (ρ : Dev nD → PrngReg)
variable {m' : (ℓ : RLoc) → Buf (Elt Ideal) ℓ} {c : Dev nD}

/-- The result: the classifier launch's output array, edge by edge, is the specification's classifier of the launch's
    input arrays, and so is what the reference's last piece writes; the input arrays agree by the lemmas above. -/
theorem result_eq (h : Agree m m' c) : W18 m ρ c (kref main_v153) = Cert.ReferenceIdeal.Fold.U8 m' c (rref Cert.ReferenceIdeal.main_v164) := by
  funext i
  obtain ⟨e, j, rfl⟩ : ∃ (e : Fin 1600000) (j : Fin 2), i = ix2 e j := ⟨i 0, i 1, eq_ix2 i⟩
  have hk : W18 m ρ c (kref main_v153) (ix2 e j) = Cert.EdgeSpec.mlpAt (fun k => W17 m ρ c (kref main_v143) (ix2 e k)) (fun k => W17 m ρ c (kref main_v151) (ix2 e k)) (fun k => W17 m ρ c (kref main_v152) (ix2 e k))
        (W17 m ρ c (kref main_arg9)) (W17 m ρ c (kref main_arg10)) (W17 m ρ c (kref main_arg11)) (W17 m ρ c (kref main_arg12))
        (W17 m ρ c (kref main_arg13)) (W17 m ρ c (kref main_arg14)) j :=
    (congrFun (W18_arr m ρ c 9) (ix2 e j)).trans (Cert.KernelIdeal.MlpValue.region3_at (V17 m ρ) c e j)
  have hr : Cert.ReferenceIdeal.Fold.U8 m' c (rref Cert.ReferenceIdeal.main_v164) (ix2 e j) = Cert.EdgeSpec.mlpAt
        (fun k => Cert.ReferenceIdeal.Fold.U7 m' c (rref Cert.ReferenceIdeal.main_v142) (ix2 e k)) (fun k => Cert.ReferenceIdeal.Fold.U7 m' c (rref Cert.ReferenceIdeal.main_v149) (ix2 e k))
        (fun k => Cert.ReferenceIdeal.Fold.U7 m' c (rref Cert.ReferenceIdeal.main_arg2) (ix2 e k))
        (Cert.ReferenceIdeal.Fold.U7 m' c (rref Cert.ReferenceIdeal.main_arg9)) (Cert.ReferenceIdeal.Fold.U7 m' c (rref Cert.ReferenceIdeal.main_arg10)) (Cert.ReferenceIdeal.Fold.U7 m' c (rref Cert.ReferenceIdeal.main_arg11))
        (Cert.ReferenceIdeal.Fold.U7 m' c (rref Cert.ReferenceIdeal.main_arg12)) (Cert.ReferenceIdeal.Fold.U7 m' c (rref Cert.ReferenceIdeal.main_arg13)) (Cert.ReferenceIdeal.Fold.U7 m' c (rref Cert.ReferenceIdeal.main_arg14)) j := by
    rw [Cert.ReferenceIdeal.Fold.U8_def, Cert.Sim.mlpR]
    exact Cert.EdgeSpec.At.edgeMlp_apply _ _ _ _ _ _ _ _ _ e j
  rw [hk, hr]
  have s := src_eq ρ h
  have d := dst_eq ρ h
  have a := attr_eq ρ h
  have q9 := ((Cert.KernelIdeal.Keeps.W17_arg9 m ρ c).trans (h.e9.symm.trans (Cert.ReferenceIdeal.Keeps.U7_arg9 m' c).symm))
  have q10 := ((Cert.KernelIdeal.Keeps.W17_arg10 m ρ c).trans (h.e10.symm.trans (Cert.ReferenceIdeal.Keeps.U7_arg10 m' c).symm))
  have q11 := ((Cert.KernelIdeal.Keeps.W17_arg11 m ρ c).trans (h.e11.symm.trans (Cert.ReferenceIdeal.Keeps.U7_arg11 m' c).symm))
  have q12 := ((Cert.KernelIdeal.Keeps.W17_arg12 m ρ c).trans (h.e12.symm.trans (Cert.ReferenceIdeal.Keeps.U7_arg12 m' c).symm))
  have q13 := ((Cert.KernelIdeal.Keeps.W17_arg13 m ρ c).trans (h.e13.symm.trans (Cert.ReferenceIdeal.Keeps.U7_arg13 m' c).symm))
  have q14 := ((Cert.KernelIdeal.Keeps.W17_arg14 m ρ c).trans (h.e14.symm.trans (Cert.ReferenceIdeal.Keeps.U7_arg14 m' c).symm))
  have s' : (fun k : Fin 64 => W17 m ρ c (kref main_v143) (ix2 e k)) = fun k : Fin 64 => Cert.ReferenceIdeal.Fold.U7 m' c (rref Cert.ReferenceIdeal.main_v142) (ix2 e k) :=
    funext fun k => congrFun s (ix2 e k)
  have d' : (fun k : Fin 64 => W17 m ρ c (kref main_v151) (ix2 e k)) = fun k : Fin 64 => Cert.ReferenceIdeal.Fold.U7 m' c (rref Cert.ReferenceIdeal.main_v149) (ix2 e k) :=
    funext fun k => congrFun d (ix2 e k)
  have a' : (fun k : Fin 16 => W17 m ρ c (kref main_v152) (ix2 e k)) = fun k : Fin 16 => Cert.ReferenceIdeal.Fold.U7 m' c (rref Cert.ReferenceIdeal.main_arg2) (ix2 e k) :=
    funext fun k => congrFun a (ix2 e k)
  rw [q9, q10, q11, q12, q13, q14, s', d', a']

end Cert.Bridge

end
-- ==== Proof.lean ====
/-
  The certificate of a three-layer graph-convolution network with an edge classifier on top, its two matrix-heavy parts
  run as kernels: every layer's matrix product, ten row blocks of 10000 nodes at a time, and the classifier, two hundred
  row blocks of 8000 edges at a time. The reference program computes the same network with host operations only.

  Frames. The kernel program's frame, at the word level and at the exact extended reals, is the generated one. The
  reference has no kernel: its run is a line of host operations, and its argument buffers are written by none of them.

  Values at the exact extended reals. A change of float format is the identity there, and a matrix product into a zero
  accumulator is the plain sum of products; so a matrix-product launch leaves, block by block, exactly the host's
  product of its two input arrays, and the classifier launch leaves, block by block, the classifier of the
  specification (joined features, three dense layers) applied to its input arrays. Between the launches both programs
  apply the same host operations. Walking the two programs boundary by boundary (Proof/Bridge.lean) the results are
  equal, entry by entry. No finiteness of the inputs is used: the two sides are the same sums of the same products.
-/
import proofs.«151144_j59914793779321_1_alg».proof.Defs
import proofs.«151144_j59914793779321_1_alg».proof.Proof.Gen.Kernel
import proofs.«151144_j59914793779321_1_alg».proof.Proof.Gen.Kernel.Skeleton
import proofs.«151144_j59914793779321_1_alg».proof.Proof.Gen.Kernel.Launch
import proofs.«151144_j59914793779321_1_alg».proof.Proof.Gen.Kernel.Points
import proofs.«151144_j59914793779321_1_alg».proof.Proof.Gen.Kernel.Frame
import proofs.«151144_j59914793779321_1_alg».proof.Proof.Gen.KernelIdeal
import proofs.«151144_j59914793779321_1_alg».proof.Proof.Gen.KernelIdeal.Skeleton
import proofs.«151144_j59914793779321_1_alg».proof.Proof.Gen.KernelIdeal.Launch
import proofs.«151144_j59914793779321_1_alg».proof.Proof.Gen.KernelIdeal.Points
import proofs.«151144_j59914793779321_1_alg».proof.Proof.Gen.KernelIdeal.Frame
import proofs.«151144_j59914793779321_1_alg».proof.Proof.Gen.ReferenceIdeal
import proofs.«151144_j59914793779321_1_alg».proof.Proof.Gen.Pre_finite_inputs
import proofs.«151144_j59914793779321_1_alg».proof.Proof.KRun
import proofs.«151144_j59914793779321_1_alg».proof.Proof.Result
import Idealize.ShloMosaic.Adequacy
import Idealize.ShloMosaic.Init

set_option maxRecDepth 16384

noncomputable section

namespace Cert.Proof

open Idealize.ShloMosaic Idealize.ShloMosaic.TcCoe Idealize.SL.Sem

/-- The reference program runs, and none of its host operations writes an argument buffer. -/
theorem frame_ri : Cert.frame_ReferenceIdeal := fun m ρ _ =>
  (θ_run Cert.ReferenceIdeal.defs _ _).mono
    (fun r h c =>
      ⟨((h c Cert.ReferenceIdeal.main_arg0).trans (congrFun (Cert.ReferenceIdeal.Fold.fold_eq m c) _)).trans (Cert.ReferenceIdeal.Keeps.U8_arg0 m c),
       ((h c Cert.ReferenceIdeal.main_arg1).trans (congrFun (Cert.ReferenceIdeal.Fold.fold_eq m c) _)).trans (Cert.ReferenceIdeal.Keeps.U8_arg1 m c),
       ((h c Cert.ReferenceIdeal.main_arg2).trans (congrFun (Cert.ReferenceIdeal.Fold.fold_eq m c) _)).trans (Cert.ReferenceIdeal.Keeps.U8_arg2 m c),
       ((h c Cert.ReferenceIdeal.main_arg3).trans (congrFun (Cert.ReferenceIdeal.Fold.fold_eq m c) _)).trans (Cert.ReferenceIdeal.Keeps.U8_arg3 m c),
       ((h c Cert.ReferenceIdeal.main_arg4).trans (congrFun (Cert.ReferenceIdeal.Fold.fold_eq m c) _)).trans (Cert.ReferenceIdeal.Keeps.U8_arg4 m c),
       ((h c Cert.ReferenceIdeal.main_arg5).trans (congrFun (Cert.ReferenceIdeal.Fold.fold_eq m c) _)).trans (Cert.ReferenceIdeal.Keeps.U8_arg5 m c),
       ((h c Cert.ReferenceIdeal.main_arg6).trans (congrFun (Cert.ReferenceIdeal.Fold.fold_eq m c) _)).trans (Cert.ReferenceIdeal.Keeps.U8_arg6 m c),
       ((h c Cert.ReferenceIdeal.main_arg7).trans (congrFun (Cert.ReferenceIdeal.Fold.fold_eq m c) _)).trans (Cert.ReferenceIdeal.Keeps.U8_arg7 m c),
       ((h c Cert.ReferenceIdeal.main_arg8).trans (congrFun (Cert.ReferenceIdeal.Fold.fold_eq m c) _)).trans (Cert.ReferenceIdeal.Keeps.U8_arg8 m c),
       ((h c Cert.ReferenceIdeal.main_arg9).trans (congrFun (Cert.ReferenceIdeal.Fold.fold_eq m c) _)).trans (Cert.ReferenceIdeal.Keeps.U8_arg9 m c),
       ((h c Cert.ReferenceIdeal.main_arg10).trans (congrFun (Cert.ReferenceIdeal.Fold.fold_eq m c) _)).trans (Cert.ReferenceIdeal.Keeps.U8_arg10 m c),
       ((h c Cert.ReferenceIdeal.main_arg11).trans (congrFun (Cert.ReferenceIdeal.Fold.fold_eq m c) _)).trans (Cert.ReferenceIdeal.Keeps.U8_arg11 m c),
       ((h c Cert.ReferenceIdeal.main_arg12).trans (congrFun (Cert.ReferenceIdeal.Fold.fold_eq m c) _)).trans (Cert.ReferenceIdeal.Keeps.U8_arg12 m c),
       ((h c Cert.ReferenceIdeal.main_arg13).trans (congrFun (Cert.ReferenceIdeal.Fold.fold_eq m c) _)).trans (Cert.ReferenceIdeal.Keeps.U8_arg13 m c),
       ((h c Cert.ReferenceIdeal.main_arg14).trans (congrFun (Cert.ReferenceIdeal.Fold.fold_eq m c) _)).trans (Cert.ReferenceIdeal.Keeps.U8_arg14 m c)⟩)
    (Cert.ReferenceIdeal.ValueP.run_fold (F := Ideal) m ρ)

/-- From memories agreeing on the arguments both idealized programs run, and the kernel program's result array, the
    classifier launch's output as the last boundary holds it, is the reference's result array. -/
theorem algebraic : Cert.algebraic_KernelIdeal_ReferenceIdeal := by
  intro m ρ m' ρ' _ hagree
  refine ⟨fun c => Cert.KernelIdeal.Gen.W18 m ρ c (Proc.devRef .tc Cert.KernelIdeal.main_v153),
    Cert.KernelIdeal.RunValue.run_named (F := Ideal) m ρ, ?_⟩
  refine (θ_run Cert.ReferenceIdeal.defs _ _).mono (fun r h c => ?_) (Cert.ReferenceIdeal.ValueP.run_fold (F := Ideal) m' ρ')
  have hg : Cert.Bridge.Agree m m' c :=
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2⟩
  exact
    ⟨((h c Cert.ReferenceIdeal.main_v164).trans (congrFun (Cert.ReferenceIdeal.Fold.fold_eq m' c) _)).trans (Cert.Bridge.result_eq ρ hg).symm,
     ((h c Cert.ReferenceIdeal.main_arg0).trans (congrFun (Cert.ReferenceIdeal.Fold.fold_eq m' c) _)).trans (Cert.ReferenceIdeal.Keeps.U8_arg0 m' c),
     ((h c Cert.ReferenceIdeal.main_arg1).trans (congrFun (Cert.ReferenceIdeal.Fold.fold_eq m' c) _)).trans (Cert.ReferenceIdeal.Keeps.U8_arg1 m' c),
     ((h c Cert.ReferenceIdeal.main_arg2).trans (congrFun (Cert.ReferenceIdeal.Fold.fold_eq m' c) _)).trans (Cert.ReferenceIdeal.Keeps.U8_arg2 m' c),
     ((h c Cert.ReferenceIdeal.main_arg3).trans (congrFun (Cert.ReferenceIdeal.Fold.fold_eq m' c) _)).trans (Cert.ReferenceIdeal.Keeps.U8_arg3 m' c),
     ((h c Cert.ReferenceIdeal.main_arg4).trans (congrFun (Cert.ReferenceIdeal.Fold.fold_eq m' c) _)).trans (Cert.ReferenceIdeal.Keeps.U8_arg4 m' c),
     ((h c Cert.ReferenceIdeal.main_arg5).trans (congrFun (Cert.ReferenceIdeal.Fold.fold_eq m' c) _)).trans (Cert.ReferenceIdeal.Keeps.U8_arg5 m' c),
     ((h c Cert.ReferenceIdeal.main_arg6).trans (congrFun (Cert.ReferenceIdeal.Fold.fold_eq m' c) _)).trans (Cert.ReferenceIdeal.Keeps.U8_arg6 m' c),
     ((h c Cert.ReferenceIdeal.main_arg7).trans (congrFun (Cert.ReferenceIdeal.Fold.fold_eq m' c) _)).trans (Cert.ReferenceIdeal.Keeps.U8_arg7 m' c),
     ((h c Cert.ReferenceIdeal.main_arg8).trans (congrFun (Cert.ReferenceIdeal.Fold.fold_eq m' c) _)).trans (Cert.ReferenceIdeal.Keeps.U8_arg8 m' c),
     ((h c Cert.ReferenceIdeal.main_arg9).trans (congrFun (Cert.ReferenceIdeal.Fold.fold_eq m' c) _)).trans (Cert.ReferenceIdeal.Keeps.U8_arg9 m' c),
     ((h c Cert.ReferenceIdeal.main_arg10).trans (congrFun (Cert.ReferenceIdeal.Fold.fold_eq m' c) _)).trans (Cert.ReferenceIdeal.Keeps.U8_arg10 m' c),
     ((h c Cert.ReferenceIdeal.main_arg11).trans (congrFun (Cert.ReferenceIdeal.Fold.fold_eq m' c) _)).trans (Cert.ReferenceIdeal.Keeps.U8_arg11 m' c),
     ((h c Cert.ReferenceIdeal.main_arg12).trans (congrFun (Cert.ReferenceIdeal.Fold.fold_eq m' c) _)).trans (Cert.ReferenceIdeal.Keeps.U8_arg12 m' c),
     ((h c Cert.ReferenceIdeal.main_arg13).trans (congrFun (Cert.ReferenceIdeal.Fold.fold_eq m' c) _)).trans (Cert.ReferenceIdeal.Keeps.U8_arg13 m' c),
     ((h c Cert.ReferenceIdeal.main_arg14).trans (congrFun (Cert.ReferenceIdeal.Fold.fold_eq m' c) _)).trans (Cert.ReferenceIdeal.Keeps.U8_arg14 m' c)⟩

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri, trivial, algebraic⟩

end Cert.Proof

end
